-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 19
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32_6 : BitVec 32 := 1024#32
  let v15 : BitVec 32 := Scalar.muli arg4 c1024_i32_6
  v15
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1024_i32_6 : BitVec 32 := 1024#32
  let v15 : BitVec 32 := Scalar.muli arg4 c1024_i32_6
  let v16 : BitVec 32 := v15
  let v17 : Index := Scalar.indexCast v16
  let c0_7 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  iota_S1024x1_d0_w32 : S1024x1.Iotas .tc 32 [0]
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  dot_S1024x256_S1024x256_S1024x1024_1_1_0_0_n_n_wf : DotDims.WF S1024x256 S1024x256 S1024x1024 [1] [1] [0] [0] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩
abbrev S4096 : Shape := ⟨1, ![4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S_, .f32⟩
  | .hbm, ⟨37, _⟩ => ⟨S8192, .f32⟩
  | .hbm, ⟨38, _⟩ => ⟨S8192x8192, .f32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S8192, .i32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x8192, .f32⟩
  | .hbm, ⟨59, _⟩ => ⟨S8192x8192, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v31 : Ref sig .tc := ⟨.hbm, 59, rfl⟩
abbrev main_c_6 : Ref sig .tc := ⟨.hbm, 60, rfl⟩
abbrev main_v32 : Ref sig .tc := ⟨.hbm, 61, rfl⟩
abbrev main_v33 : Ref sig .tc := ⟨.hbm, 62, rfl⟩
abbrev main_c_7 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_8 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_cst_11 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x256_S256x8192_S8192x8192_1_0_0_1_n_n_wf : DotDims.WF S8192x256 S256x8192 S8192x8192 [1] [0] [0] [1] [] []
  scatter_S8192x8192_S8192x2_S8192_n_01_01_1_wf : ScatterDims.WF S8192x8192 S8192x2 S8192 [] [0, 1] [0, 1] 1
  gather_S8192x8192_S8192x2_S8192_n_01_n_n_01_1_11_wf : GatherDims.WF S8192x8192 S8192x2 S8192 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.BBody.lean ====
/-
  The kernel body's run on whole staging buffers: from the block of rows the grid point is given (1024 × 256), the
  resident array of all rows (8192 × 256) and an output buffer holding anything, the body loads the row block, goes
  eight times round its loop (each trip loads one block of 1024 rows of the resident array and adds to the two running
  columns), and stores one column of 1024 values over the whole output buffer.
-/
import proofs.«114769_j21852793602889_2_alg».proof.Proof.Gen.Kernel.Launch
import proofs.«114769_j21852793602889_2_alg».proof.Proof.Gen.Kernel.Skeleton
import proofs.«114769_j21852793602889_2_alg».proof.Proof.Gen.Kernel.Loops
import proofs.«114769_j21852793602889_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses -/

/-- The rectangle of the row block the body loads: all of the 1024 × 256 buffer. -/
abbrev rIn : Rect S1024x256 := Rect.unit (s := S1024x256) ![0, 0] S1024x256.size inb_S1024x256_S1024x256_0_0
/-- The rectangle the body stores its result column through: all of the 1024 × 1 buffer. -/
abbrev rOut : Rect S1024x1 := Rect.unit (s := S1024x1) ![0, 0] S1024x1.size inb_S1024x1_S1024x1_0_0

/-- The two running columns after the loop's eight trips, from zero, as the loop's trips leave them: the row block is
    what the first load reads of the first buffer, the trips read the second buffer's contents. -/
def loopRes (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) : FVec F S1024x1 .f32 × FVec F S1024x1 .f32 :=
  st_k0_t1 (F := F) Variants.none c none i arg1 harg1 arg2 harg2 arg3 harg3
    (View.readAt (Elt F) arg1.view rIn.toLoadRect (harg1.unread x0)) (harg2.unread x1) (k0_pay2, k0_pay3)
    (Scf.trips k0_t1_loop.lb k0_t1_loop.ub k0_t1_loop.st)

/-- What the output buffer holds after the body: its one store, of the result column computed from the two running
    columns, over the whole buffer. -/
def out2 (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) : Vec F S1024x1 .f32 :=
  View.canon [⟨rOut, k0_pay8 (loopRes c i arg1 harg1 arg2 harg2 arg3 harg3 x0 x1).1 (loopRes c i arg1 harg1 arg2 harg2 arg3 harg3 x0 x1).2⟩]

/-- The one store covers the output buffer. -/
theorem cover2 (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 2000000 in
/-- On whole staging buffers — the two inputs' at read contents `x0`, `x1`, the output's at anything — the body runs to
    the continuation holding the inputs' as they were and the output's at `out2` of them. -/
theorem sound_kernel (c : Dev nD) (E : Set ℕ) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 c i arg1 harg1 arg2 harg2 arg3 harg3 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (cover2 _)

end Cert.Kernel.HF

end
-- ==== Proof.BFrameA.lean ====
/-
  The program around its one kernel launch: the host lines before the launch (join the two inputs, normalise each row,
  round to the narrow format), the launch over eight blocks of 1024 rows, the host lines after it (the mean of the
  8192 row losses). The launch hands the kernel the normalised array twice — once cut into the row blocks, once whole —
  so the array is held at two half shares, one per window, and put together again after the last block.
-/
import proofs.«114769_j21852793602889_2_alg».proof.Proof.BBody

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- A core's buffer contents when the launch is entered: after the host lines before it. -/
abbrev V0 (c : Dev nD) : Valuation τ sig (Elt F) := StableHlo.after (List.flatten [hostOps0, hostOps0_1, hostOps0_2]) (fun b => m (c, b))
/-- The same read at one of the core's references. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the launch, the launch, and the host lines after it: it reduces to the launch
    continued by the later lines, from the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point, for any proof data over the launch's
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole-array window's staging buffer holds the whole array at every point, fetched there (the first point) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, as the launch passes it to the body, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-! ## The launch's proof data -/

/-- What the output window's staging buffer holds after the body at point `t`: the body's result column from the row
    block and the whole array. -/
def outAt (c : Dev nD) (t : Fin cfg0.N) : Vec F S1024x1 .f32 :=
  out2 c (grid0.coords t) (ms0 t) (hs0 t) (ms1 t) (hs1 t) (ms2 t) (hs2 t) (iblk m c 0 t) (iblk m c 1 t)

/-- The proof data of the launch on core `c`: the arrays as the launch finds them; after the body at point `t` each
    input's buffer at its block and the output's at the body's result column; the normalised array, read by two
    windows, held at one half share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact sound_body m c t

end Cert.Kernel.HF

end
-- ==== Proof.BFrameB.lean ====
/-
  The launch itself: the normalised array, read by two windows of the kernel, is split into two half shares at the
  launch's entry, one per window; the eight grid points run; at the exit the lines after the launch run within the
  result array and the buffers that bypass the launch, and the final state is read off what is then held.
-/
import proofs.«114769_j21852793602889_2_alg».proof.Proof.BFrameA

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The shares the arrays are held at: the normalised array at one half per reading window, the result at the whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The proof data's arrays at contents `X`, window by window. -/
theorem arrays_three (c : Dev nD) (X : (w : Fin cfg0.W) → Buf (Elt F) ((cfg0.win w).arr.view.loc (c.tc : Thread nD τ))) :
    ((dats m 0 c).arrays X : sProp 𝕄)
      = iprop((((c.tc : Thread nD τ).loc main_v6) ↦{fullShare.left} X 0) ∗ (((c.tc : Thread nD τ).loc main_v6) ↦{fullShare.right} X 1)
          ∗ (((c.tc : Thread nD τ).loc main_v7) ↦{fullShare} X 2)) := by
  unfold Dat.arrays
  rw [bigSep_W0, (arr_whole0 0).set_eq_univ, (arr_whole0 2).set_eq_univ, share0, share1, share2]

/-- The two buffers behind the three windows, one by one. -/
theorem arrBufs_two (c : Dev nD) (X : (b : Ref sig .tc) → Buf (Elt F) ((c.tc : Thread nD τ).loc b)) :
    (Pipeline.arrBufs spec0 c X : sProp 𝕄)
      = iprop((((c.tc : Thread nD τ).loc main_v6) ↦{fullShare} X main_v6) ∗ (((c.tc : Thread nD τ).loc main_v7) ↦{fullShare} X main_v7)) :=
  BI.bigSep_eq_bigSepL_of_eq [main_v6, main_v7] (by decide) (by decide) _

/-- The launch's entry: the normalised array, whole, split into the two windows' halves; the result array whole. -/
theorem hsplit (c : Dev nD) :
    (Pipeline.arrBufs spec0 c (V m c) : sProp 𝕄) ⊢ (dats m 0 c).arrays ((dats m 0 c).arrAt · 0) := by
  rw [arrays_three, arrBufs_two]
  iintro ⟨H6, H7⟩
  ihave H6' := (pointsTo_share (PosShare.mem_left_op_right fullShare)).1 $$ H6
  icases H6' with ⟨H6l, H6r⟩
  isplitl [H6l]; · iexact H6l
  isplitl [H6r]; · iexact H6r
  iexact H7

/-! ## The lines after the launch -/

/-- The buffers the lines after the launch may touch: the result array and the buffers that bypass the launch (every
    unscoped buffer but the normalised array, which stays split between its two windows). -/
def tailSet : Finset (DevRef τ sig) :=
  (insert main_v7 (Pipeline.restRefs sig spec0)).map ⟨Proc.devRef (sig := sig) .tc, Proc.devRef_injective _⟩

theorem v7_not_rest : main_v7 ∉ Pipeline.restRefs sig spec0 := by decide

theorem mem_tailSet {r : Ref sig .tc} (h : r ∈ insert main_v7 (Pipeline.restRefs sig spec0)) :
    Proc.devRef (τ := τ) .tc r ∈ tailSet := Finset.mem_map_of_mem _ h

/-- Those buffers held at a valuation are the result array and the bypassing buffers at it. -/
theorem held_tailSet (c : Dev nD) (W : Valuation τ sig (Elt F)) :
    (StableHlo.held (c.tc : Thread nD τ) tailSet W : sProp 𝕄)
      = iprop((((c.tc : Thread nD τ).loc main_v7) ↦{fullShare} W (Proc.devRef .tc main_v7))
          ∗ Pipeline.unscopedRest spec0 c (fun b => W (Proc.devRef .tc b))) := by
  classical
  unfold StableHlo.held tailSet Pipeline.unscopedRest
  rw [bigSep_map, bigSep_insert v7_not_rest]
  rfl

/-- The lines after the launch touch only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  all_goals
    intro b hb
    simp only [StableHlo.nullary_bufs, StableHlo.binary_bufs, Finset.mem_insert, Finset.mem_singleton] at hb
    rcases hb with rfl | rfl | rfl <;> exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The contents at the launch's exit: the result array at what the eight points wrote back, every other buffer as the
    launch found it. -/
def W1 (c : Dev nD) : Valuation τ sig (Elt F) :=
  open Classical in Function.update (V0 m c) (Proc.devRef .tc main_v7) ((dats m 0 c).arrAt 2 cfg0.N)

/-- The contents after the lines that follow the launch. -/
def Wt (c : Dev nD) : Valuation τ sig (Elt F) := StableHlo.after ([hostOps1] : List (List (HloOp τ sig (Elt F)))).flatten (W1 m c)

theorem W1_v7 (c : Dev nD) : W1 m c (Proc.devRef .tc main_v7) = (dats m 0 c).arrAt 2 cfg0.N := by
  unfold W1; exact Function.update_self ..

theorem W1_of_ne (c : Dev nD) {r : Ref sig .tc} (h : r ≠ main_v7) : W1 m c (Proc.devRef .tc r) = V m c r := by
  unfold W1; exact Function.update_of_ne (StableHlo.devRef_ne_of_ne h) ..

/-- The lines after the launch do not write the result array. -/
theorem Wt_v7 (c : Dev nD) : Wt m c (Proc.devRef .tc main_v7) = (dats m 0 c).arrAt 2 cfg0.N := by
  unfold Wt
  rw [StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide))), W1_v7]

set_option backward.isDefEq.respectTransparency.types false in
/-- From the launch's exit — the normalised array at its two halves, the result array, the bypassing buffers — the
    lines after the launch run within the result array and the bypassing buffers, and hand everything back. -/
theorem htail (c : Dev nD) (Q' : PUnit → sProp 𝕄) :
    iprop((iprop((dats m 0 c).arrays ((dats m 0 c).arrAt · cfg0.N)
              ∗ Pipeline.unscopedRest spec0 c (fun b => Wt m c (Proc.devRef .tc b))) -∗ Q' ⟨⟩)
        ∗ boundary (c.tc : Thread nD τ) ∗ (dats m 0 c).arrays ((dats m 0 c).arrAt · cfg0.N)
        ∗ Pipeline.unscopedRest spec0 c (V m c))
      ⊢ wp frame (wpE (defs (F := F)) (Variants.lift Variants.none) (c.tc : Thread nD τ) none) Set.univ
          (Pipeline.chain [StableHlo.seq hostOps1]) Q' := by
  have hR : (Pipeline.unscopedRest spec0 c (V m c) : sProp 𝕄)
      = Pipeline.unscopedRest spec0 c (fun b => W1 m c (Proc.devRef .tc b)) := by
    unfold Pipeline.unscopedRest
    exact bigSep_congr fun b hb => by
      show _ = (((c.tc : Thread nD τ).loc b) ↦{fullShare} W1 m c (Proc.devRef .tc b) : sProp 𝕄)
      rw [W1_of_ne m c (fun e => v7_not_rest (e ▸ hb))]
  have hS1 : (iprop((((c.tc : Thread nD τ).loc main_v7) ↦{fullShare} (dats m 0 c).arrAt 2 cfg0.N)
        ∗ Pipeline.unscopedRest spec0 c (fun b => W1 m c (Proc.devRef .tc b))) : sProp 𝕄)
      = StableHlo.held (c.tc : Thread nD τ) tailSet (W1 m c) := by
    rw [held_tailSet, W1_v7]
  have hS2 : (StableHlo.held (c.tc : Thread nD τ) tailSet (StableHlo.after ([hostOps1] : List (List (HloOp τ sig (Elt F)))).flatten (W1 m c)) : sProp 𝕄)
      = iprop((((c.tc : Thread nD τ).loc main_v7) ↦{fullShare} (dats m 0 c).arrAt 2 cfg0.N)
        ∗ Pipeline.unscopedRest spec0 c (fun b => Wt m c (Proc.devRef .tc b))) := by
    rw [held_tailSet, show StableHlo.after ([hostOps1] : List (List (HloOp τ sig (Elt F)))).flatten (W1 m c) (Proc.devRef .tc main_v7)
      = (dats m 0 c).arrAt 2 cfg0.N from Wt_v7 m c]
    rfl
  have hprog : (Pipeline.chain [StableHlo.seq hostOps1] : Prog (TpuEff nD τ sig (Elt F) (Pipeline.Sig Λ₀ (Fin 1) fun p => (pcfgs (F := F) p).Adm) .tc) PUnit)
      = Pipeline.chain (List.map StableHlo.seq ([hostOps1] : List (List (HloOp τ sig (Elt F)))) ++ []) := rfl
  rw [arrays_three, hR, hprog]
  iintro ⟨Hk, Hb, ⟨H6l, H6r, H7⟩, HZ⟩
  ihave HS := (Entails.of_eq hS1) $$ [H7 HZ]
  · isplitl [H7]; · iexact H7
    iexact HZ
  iapply (Pipeline.wp_seqs_then (pcfgs (F := F)) defs₀ Variants.none c tailSet [] [hostOps1] tail_sub tail_fresh (W1 m c)) $$ [Hb HS]
  · isplitl [Hb]; · iexact Hb
    iexact HS
  iintro ⟨Hb, HS⟩
  rw [Pipeline.chain_nil, wp_pure]
  imodintro
  iapply Hk
  ihave HS' := (Entails.of_eq hS2) $$ HS
  icases HS' with ⟨H7, HZ⟩
  isplitr [HZ]
  · isplitl [H6l]; · iexact H6l
    isplitl [H6r]; · iexact H6r
    iexact H7
  · iexact HZ

/-! ## The run -/

/-- The host lines before the launch write neither input array: the launch finds them as they were. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))

/-- Nor do the lines after it. -/
theorem Wt_of_kept (c : Dev nD) {r : Ref sig .tc} (h7 : r ≠ main_v7) (h1 : r ≠ main_cst_0) (h2 : r ≠ main_v8) (h3 : r ≠ main_cst_1) (h4 : r ≠ main_v9) :
    Wt m c (Proc.devRef .tc r) = V m c r := by
  unfold Wt
  rw [StableHlo.after_of_forall_not_mem (b := Proc.devRef .tc r) _ _ (List.forall_iff_forall_mem.mp (by
    simp only [hostOps1, List.flatten_cons, List.flatten_nil, List.append_nil, List.cons_append,
      List.nil_append, List.Forall, StableHlo.nullary_writes, StableHlo.binary_writes, Finset.mem_singleton]
    exact ⟨StableHlo.devRef_ne_of_ne h1, StableHlo.devRef_ne_of_ne h2, StableHlo.devRef_ne_of_ne h3, StableHlo.devRef_ne_of_ne h4⟩)), W1_of_ne m c h7]

set_option backward.isDefEq.respectTransparency.types false in
/-- Every weakly fair execution of the program on the core terminates, and every final state has the result buffer at what
    the lines after the launch compute from the written-back result array, and the two input arrays as they were. -/
theorem run_main :
    θ_run (defs (F := F)) (onTc (τ := τ) (main (F := F))) (s₀ m ρ) (fun r => ∀ c : Dev nD,
      r.2.mem ((c.tc : Thread nD τ).loc main_v9) = Wt m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (cellOf (nD := nD) (τ := τ) (Pipeline.pin (pcfgs (F := F)) (fun q => (cfgs q).toPCfg_adm))) := cellOf_inj
  exact Pipeline.θ_run_region_pf_tail (pcfgs (F := F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) (fun q => (cfgs q).toPCfg_adm)) hinj) (Pipeline.launchToks (Pipeline.pin (pcfgs (F := F)) (fun q => (cfgs q).toPCfg_adm)) hinj))
    (hu₀ := by
      iintro Hu; imodintro
      isplitl [Hu]; · iapply (show (ownU _ : sProp 𝕄) ⊢ BI.own (emb₁ (initOf (Pipeline.cells (Pipeline.pin (pcfgs (F := F)) (fun q => (cfgs q).toPCfg_adm)) hinj) (Pipeline.launchToks (Pipeline.pin (pcfgs (F := F)) (fun q => (cfgs q).toPCfg_adm)) hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wt m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact htail m c Q')
    (QY := fun c s => ∀ b ∈ Pipeline.restRefs sig spec0, s.mem ((c.tc : Thread nD τ).loc b) = Wt m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wt m c (Proc.devRef .tc b)) s')
      isplitl [HU] <;> iassumption)
    (hQ := fun s h c => ⟨(h c).2.2 main_v9 (by decide),
      ((h c).2.2 main_arg0 (by decide)).trans ((Wt_of_kept m c (by decide) (by decide) (by decide) (by decide) (by decide)).trans (V_arg0 m c)),
      ((h c).2.2 main_arg1 (by decide)).trans ((Wt_of_kept m c (by decide) (by decide) (by decide) (by decide) (by decide)).trans (V_arg1 m c))⟩)

/-- The frame: every weakly fair execution terminates, nothing faults, and the two input arrays end as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.HF

end
-- ==== Proof.KBody.lean ====
/-
  The kernel body's run on whole staging buffers: from the block of rows the grid point is given (1024 × 256), the
  resident array of all rows (8192 × 256) and an output buffer holding anything, the body loads the row block, goes
  eight times round its loop (each trip loads one block of 1024 rows of the resident array and adds to the two running
  columns), and stores one column of 1024 values over the whole output buffer.
-/
import proofs.«114769_j21852793602889_2_alg».proof.Proof.Gen.KernelIdeal.Launch
import proofs.«114769_j21852793602889_2_alg».proof.Proof.Gen.KernelIdeal.Skeleton
import proofs.«114769_j21852793602889_2_alg».proof.Proof.Gen.KernelIdeal.Loops
import proofs.«114769_j21852793602889_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses -/

/-- The rectangle of the row block the body loads: all of the 1024 × 256 buffer. -/
abbrev rIn : Rect S1024x256 := Rect.unit (s := S1024x256) ![0, 0] S1024x256.size inb_S1024x256_S1024x256_0_0
/-- The rectangle the body stores its result column through: all of the 1024 × 1 buffer. -/
abbrev rOut : Rect S1024x1 := Rect.unit (s := S1024x1) ![0, 0] S1024x1.size inb_S1024x1_S1024x1_0_0

/-- The two running columns after the loop's eight trips, from zero, as the loop's trips leave them: the row block is
    what the first load reads of the first buffer, the trips read the second buffer's contents. -/
def loopRes (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) : FVec F S1024x1 .f32 × FVec F S1024x1 .f32 :=
  st_k0_t1 (F := F) Variants.none c none i arg1 harg1 arg2 harg2 arg3 harg3
    (View.readAt (Elt F) arg1.view rIn.toLoadRect (harg1.unread x0)) (harg2.unread x1) (k0_pay2, k0_pay3)
    (Scf.trips k0_t1_loop.lb k0_t1_loop.ub k0_t1_loop.st)

/-- What the output buffer holds after the body: its one store, of the result column computed from the two running
    columns, over the whole buffer. -/
def out2 (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) : Vec F S1024x1 .f32 :=
  View.canon [⟨rOut, k0_pay8 (loopRes c i arg1 harg1 arg2 harg2 arg3 harg3 x0 x1).1 (loopRes c i arg1 harg1 arg2 harg2 arg3 harg3 x0 x1).2⟩]

/-- The one store covers the output buffer. -/
theorem cover2 (p0 : Vec F S1024x1 .f32) (y : S1024x1.Idx) :
    ∃ pc ∈ ([⟨rOut, p0⟩] : List (View.Piece (Elt F) S1024x1 .f32)), y ∈ pc.1.set :=
  View.cover_of_tiled [⟨rOut, p0⟩] S1024x1.size (by rfl) y

/-! ## The body's triple -/

set_option maxHeartbeats 2000000 in
/-- On whole staging buffers — the two inputs' at read contents `x0`, `x1`, the output's at anything — the body runs to
    the continuation holding the inputs' as they were and the output's at `out2` of them. -/
theorem sound_kernel (c : Dev nD) (E : Set ℕ) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec F S1024x256 .bf16) (x1 : Vec F S8192x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 c i arg1 harg1 arg2 harg2 arg3 harg3 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (cover2 _)

end Cert.KernelIdeal.HF

end
-- ==== Proof.KFrameA.lean ====
/-
  The program around its one kernel launch: the host lines before the launch (join the two inputs, normalise each row,
  round to the narrow format), the launch over eight blocks of 1024 rows, the host lines after it (the mean of the
  8192 row losses). The launch hands the kernel the normalised array twice — once cut into the row blocks, once whole —
  so the array is held at two half shares, one per window, and put together again after the last block.
-/
import proofs.«114769_j21852793602889_2_alg».proof.Proof.KBody

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- A core's buffer contents when the launch is entered: after the host lines before it. -/
abbrev V0 (c : Dev nD) : Valuation τ sig (Elt F) := StableHlo.after (List.flatten [hostOps0, hostOps0_1, hostOps0_2]) (fun b => m (c, b))
/-- The same read at one of the core's references. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the launch, the launch, and the host lines after it: it reduces to the launch
    continued by the later lines, from the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window's staging buffer holds its block at every point, for any proof data over the launch's
    arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole-array window's staging buffer holds the whole array at every point, fetched there (the first point) or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, as the launch passes it to the body, and that it is a whole buffer. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)

/-! ## The launch's proof data -/

/-- What the output window's staging buffer holds after the body at point `t`: the body's result column from the row
    block and the whole array. -/
def outAt (c : Dev nD) (t : Fin cfg0.N) : Vec F S1024x1 .f32 :=
  out2 c (grid0.coords t) (ms0 t) (hs0 t) (ms1 t) (hs1 t) (ms2 t) (hs2 t) (iblk m c 0 t) (iblk m c 1 t)

/-- The proof data of the launch on core `c`: the arrays as the launch finds them; after the body at point `t` each
    input's buffer at its block and the output's at the body's result column; the normalised array, read by two
    windows, held at one half share by each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t))

/-- The body at any point: the inputs' buffers hold their blocks, so the body's run applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.HF

end
-- ==== Proof.KFrameB.lean ====
/-
  The launch itself: the normalised array, read by two windows of the kernel, is split into two half shares at the
  launch's entry, one per window; the eight grid points run; at the exit the lines after the launch run within the
  result array and the buffers that bypass the launch, and the final state is read off what is then held.
-/
import proofs.«114769_j21852793602889_2_alg».proof.Proof.KFrameA

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- The shares the arrays are held at: the normalised array at one half per reading window, the result at the whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The proof data's arrays at contents `X`, window by window. -/
theorem arrays_three (c : Dev nD) (X : (w : Fin cfg0.W) → Buf (Elt F) ((cfg0.win w).arr.view.loc (c.tc : Thread nD τ))) :
    ((dats m 0 c).arrays X : sProp 𝕄)
      = iprop((((c.tc : Thread nD τ).loc main_v6) ↦{fullShare.left} X 0) ∗ (((c.tc : Thread nD τ).loc main_v6) ↦{fullShare.right} X 1)
          ∗ (((c.tc : Thread nD τ).loc main_v7) ↦{fullShare} X 2)) := by
  unfold Dat.arrays
  rw [bigSep_W0, (arr_whole0 0).set_eq_univ, (arr_whole0 2).set_eq_univ, share0, share1, share2]

/-- The two buffers behind the three windows, one by one. -/
theorem arrBufs_two (c : Dev nD) (X : (b : Ref sig .tc) → Buf (Elt F) ((c.tc : Thread nD τ).loc b)) :
    (Pipeline.arrBufs spec0 c X : sProp 𝕄)
      = iprop((((c.tc : Thread nD τ).loc main_v6) ↦{fullShare} X main_v6) ∗ (((c.tc : Thread nD τ).loc main_v7) ↦{fullShare} X main_v7)) :=
  BI.bigSep_eq_bigSepL_of_eq [main_v6, main_v7] (by decide) (by decide) _

/-- The launch's entry: the normalised array, whole, split into the two windows' halves; the result array whole. -/
theorem hsplit (c : Dev nD) :
    (Pipeline.arrBufs spec0 c (V m c) : sProp 𝕄) ⊢ (dats m 0 c).arrays ((dats m 0 c).arrAt · 0) := by
  rw [arrays_three, arrBufs_two]
  iintro ⟨H6, H7⟩
  ihave H6' := (pointsTo_share (PosShare.mem_left_op_right fullShare)).1 $$ H6
  icases H6' with ⟨H6l, H6r⟩
  isplitl [H6l]; · iexact H6l
  isplitl [H6r]; · iexact H6r
  iexact H7

/-! ## The lines after the launch -/

/-- The buffers the lines after the launch may touch: the result array and the buffers that bypass the launch (every
    unscoped buffer but the normalised array, which stays split between its two windows). -/
def tailSet : Finset (DevRef τ sig) :=
  (insert main_v7 (Pipeline.restRefs sig spec0)).map ⟨Proc.devRef (sig := sig) .tc, Proc.devRef_injective _⟩

theorem v7_not_rest : main_v7 ∉ Pipeline.restRefs sig spec0 := by decide

theorem mem_tailSet {r : Ref sig .tc} (h : r ∈ insert main_v7 (Pipeline.restRefs sig spec0)) :
    Proc.devRef (τ := τ) .tc r ∈ tailSet := Finset.mem_map_of_mem _ h

/-- Those buffers held at a valuation are the result array and the bypassing buffers at it. -/
theorem held_tailSet (c : Dev nD) (W : Valuation τ sig (Elt F)) :
    (StableHlo.held (c.tc : Thread nD τ) tailSet W : sProp 𝕄)
      = iprop((((c.tc : Thread nD τ).loc main_v7) ↦{fullShare} W (Proc.devRef .tc main_v7))
          ∗ Pipeline.unscopedRest spec0 c (fun b => W (Proc.devRef .tc b))) := by
  classical
  unfold StableHlo.held tailSet Pipeline.unscopedRest
  rw [bigSep_map, bigSep_insert v7_not_rest]
  rfl

/-- The lines after the launch touch only those buffers. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl
  all_goals
    intro b hb
    simp only [StableHlo.nullary_bufs, StableHlo.binary_bufs, Finset.mem_insert, Finset.mem_singleton] at hb
    rcases hb with rfl | rfl | rfl <;> exact mem_tailSet (by decide)

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The contents at the launch's exit: the result array at what the eight points wrote back, every other buffer as the
    launch found it. -/
def W1 (c : Dev nD) : Valuation τ sig (Elt F) :=
  open Classical in Function.update (V0 m c) (Proc.devRef .tc main_v7) ((dats m 0 c).arrAt 2 cfg0.N)

/-- The contents after the lines that follow the launch. -/
def Wt (c : Dev nD) : Valuation τ sig (Elt F) := StableHlo.after ([hostOps1] : List (List (HloOp τ sig (Elt F)))).flatten (W1 m c)

theorem W1_v7 (c : Dev nD) : W1 m c (Proc.devRef .tc main_v7) = (dats m 0 c).arrAt 2 cfg0.N := by
  unfold W1; exact Function.update_self ..

theorem W1_of_ne (c : Dev nD) {r : Ref sig .tc} (h : r ≠ main_v7) : W1 m c (Proc.devRef .tc r) = V m c r := by
  unfold W1; exact Function.update_of_ne (StableHlo.devRef_ne_of_ne h) ..

/-- The lines after the launch do not write the result array. -/
theorem Wt_v7 (c : Dev nD) : Wt m c (Proc.devRef .tc main_v7) = (dats m 0 c).arrAt 2 cfg0.N := by
  unfold Wt
  rw [StableHlo.after_of_forall_not_mem (b := Proc.devRef .tc main_v7) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide))), W1_v7]

set_option backward.isDefEq.respectTransparency.types false in
/-- From the launch's exit — the normalised array at its two halves, the result array, the bypassing buffers — the
    lines after the launch run within the result array and the bypassing buffers, and hand everything back. -/
theorem htail (c : Dev nD) (Q' : PUnit → sProp 𝕄) :
    iprop((iprop((dats m 0 c).arrays ((dats m 0 c).arrAt · cfg0.N)
              ∗ Pipeline.unscopedRest spec0 c (fun b => Wt m c (Proc.devRef .tc b))) -∗ Q' ⟨⟩)
        ∗ boundary (c.tc : Thread nD τ) ∗ (dats m 0 c).arrays ((dats m 0 c).arrAt · cfg0.N)
        ∗ Pipeline.unscopedRest spec0 c (V m c))
      ⊢ wp frame (wpE (defs (F := F)) (Variants.lift Variants.none) (c.tc : Thread nD τ) none) Set.univ
          (Pipeline.chain [StableHlo.seq hostOps1]) Q' := by
  have hR : (Pipeline.unscopedRest spec0 c (V m c) : sProp 𝕄)
      = Pipeline.unscopedRest spec0 c (fun b => W1 m c (Proc.devRef .tc b)) := by
    unfold Pipeline.unscopedRest
    exact bigSep_congr fun b hb => by
      show _ = (((c.tc : Thread nD τ).loc b) ↦{fullShare} W1 m c (Proc.devRef .tc b) : sProp 𝕄)
      rw [W1_of_ne m c (fun e => v7_not_rest (e ▸ hb))]
  have hS1 : (iprop((((c.tc : Thread nD τ).loc main_v7) ↦{fullShare} (dats m 0 c).arrAt 2 cfg0.N)
        ∗ Pipeline.unscopedRest spec0 c (fun b => W1 m c (Proc.devRef .tc b))) : sProp 𝕄)
      = StableHlo.held (c.tc : Thread nD τ) tailSet (W1 m c) := by
    rw [held_tailSet, W1_v7]
  have hS2 : (StableHlo.held (c.tc : Thread nD τ) tailSet (StableHlo.after ([hostOps1] : List (List (HloOp τ sig (Elt F)))).flatten (W1 m c)) : sProp 𝕄)
      = iprop((((c.tc : Thread nD τ).loc main_v7) ↦{fullShare} (dats m 0 c).arrAt 2 cfg0.N)
        ∗ Pipeline.unscopedRest spec0 c (fun b => Wt m c (Proc.devRef .tc b))) := by
    rw [held_tailSet, show StableHlo.after ([hostOps1] : List (List (HloOp τ sig (Elt F)))).flatten (W1 m c) (Proc.devRef .tc main_v7)
      = (dats m 0 c).arrAt 2 cfg0.N from Wt_v7 m c]
    rfl
  have hprog : (Pipeline.chain [StableHlo.seq hostOps1] : Prog (TpuEff nD τ sig (Elt F) (Pipeline.Sig Λ₀ (Fin 1) fun p => (pcfgs (F := F) p).Adm) .tc) PUnit)
      = Pipeline.chain (List.map StableHlo.seq ([hostOps1] : List (List (HloOp τ sig (Elt F)))) ++ []) := rfl
  rw [arrays_three, hR, hprog]
  iintro ⟨Hk, Hb, ⟨H6l, H6r, H7⟩, HZ⟩
  ihave HS := (Entails.of_eq hS1) $$ [H7 HZ]
  · isplitl [H7]; · iexact H7
    iexact HZ
  iapply (Pipeline.wp_seqs_then (pcfgs (F := F)) defs₀ Variants.none c tailSet [] [hostOps1] tail_sub tail_fresh (W1 m c)) $$ [Hb HS]
  · isplitl [Hb]; · iexact Hb
    iexact HS
  iintro ⟨Hb, HS⟩
  rw [Pipeline.chain_nil, wp_pure]
  imodintro
  iapply Hk
  ihave HS' := (Entails.of_eq hS2) $$ HS
  icases HS' with ⟨H7, HZ⟩
  isplitr [HZ]
  · isplitl [H6l]; · iexact H6l
    isplitl [H6r]; · iexact H6r
    iexact H7
  · iexact HZ

/-! ## The run -/

/-- The host lines before the launch write neither input array: the launch finds them as they were. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.TRef.nullary, StableHlo.TRef.unary, StableHlo.TRef.binary, Finset.mem_singleton]
    repeat' apply And.intro
    all_goals exact StableHlo.devRef_ne_of_ne (by decide)))

/-- Nor do the lines after it. -/
theorem Wt_of_kept (c : Dev nD) {r : Ref sig .tc} (h7 : r ≠ main_v7) (h1 : r ≠ main_cst_0) (h2 : r ≠ main_v8) (h3 : r ≠ main_cst_1) (h4 : r ≠ main_v9) :
    Wt m c (Proc.devRef .tc r) = V m c r := by
  unfold Wt
  rw [StableHlo.after_of_forall_not_mem (b := Proc.devRef .tc r) _ _ (List.forall_iff_forall_mem.mp (by
    simp only [hostOps1, List.flatten_cons, List.flatten_nil, List.append_nil, List.cons_append,
      List.nil_append, List.Forall, StableHlo.nullary_writes, StableHlo.binary_writes, Finset.mem_singleton]
    exact ⟨StableHlo.devRef_ne_of_ne h1, StableHlo.devRef_ne_of_ne h2, StableHlo.devRef_ne_of_ne h3, StableHlo.devRef_ne_of_ne h4⟩)), W1_of_ne m c h7]

set_option backward.isDefEq.respectTransparency.types false in
/-- Every weakly fair execution of the program on the core terminates, and every final state has the result buffer at what
    the lines after the launch compute from the written-back result array, and the two input arrays as they were. -/
theorem run_main :
    θ_run (defs (F := F)) (onTc (τ := τ) (main (F := F))) (s₀ m ρ) (fun r => ∀ c : Dev nD,
      r.2.mem ((c.tc : Thread nD τ).loc main_v9) = Wt m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have hinj : Function.Injective (cellOf (nD := nD) (τ := τ) (Pipeline.pin (pcfgs (F := F)) (fun q => (cfgs q).toPCfg_adm))) := cellOf_inj
  exact Pipeline.θ_run_region_pf_tail (pcfgs (F := F)) (fun q => (cfgs q).toPCfg_adm) (dats m) () hinj 0 winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells (Pipeline.pin (pcfgs (F := F)) (fun q => (cfgs q).toPCfg_adm)) hinj) (Pipeline.launchToks (Pipeline.pin (pcfgs (F := F)) (fun q => (cfgs q).toPCfg_adm)) hinj))
    (hu₀ := by
      iintro Hu; imodintro
      isplitl [Hu]; · iapply (show (ownU _ : sProp 𝕄) ⊢ BI.own (emb₁ (initOf (Pipeline.cells (Pipeline.pin (pcfgs (F := F)) (fun q => (cfgs q).toPCfg_adm)) hinj) (Pipeline.launchToks (Pipeline.pin (pcfgs (F := F)) (fun q => (cfgs q).toPCfg_adm)) hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wt m c (Proc.devRef .tc b)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact htail m c Q')
    (QY := fun c s => ∀ b ∈ Pipeline.restRefs sig spec0, s.mem ((c.tc : Thread nD τ).loc b) = Wt m c (Proc.devRef .tc b))
    (hY := fun c s' => by
      rw [Pipeline.unscopedRestP_none]
      iintro ⟨-, HU, HSI⟩
      unfold Pipeline.unscopedRest
      imodintro
      iapply (pointsTo_read_all (Pipeline.restRefs sig spec0) (fun b => (c.tc : Thread nD τ).loc b) (fun b => Wt m c (Proc.devRef .tc b)) s')
      isplitl [HU] <;> iassumption)
    (hQ := fun s h c => ⟨(h c).2.2 main_v9 (by decide),
      ((h c).2.2 main_arg0 (by decide)).trans ((Wt_of_kept m c (by decide) (by decide) (by decide) (by decide) (by decide)).trans (V_arg0 m c)),
      ((h c).2.2 main_arg1 (by decide)).trans ((Wt_of_kept m c (by decide) (by decide) (by decide) (by decide) (by decide)).trans (V_arg1 m c))⟩)

/-- The frame: every weakly fair execution terminates, nothing faults, and the two input arrays end as they were. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.HF

end
-- ==== Proof.KBlocks.lean ====
/-
  The launch's windows read at an index, and the eight written-back blocks put together into the whole result array.

  A block's element sits in the array, on each axis, at the block index times the block's size plus its coordinate
  inside the block. The row-block window's index at grid point `t` is `(t, 0)`, so its block is rows
  `t·1024 … t·1024 + 1023` of the normalised array; the whole-array window's index is `(0, 0)` at every point, so its
  block is the array. The result window's index at point `t` is `(t, 0)` with blocks of 1024 × 1: the eight blocks
  tile the 8192 × 1 result, row `j` lying in the block of point `j / 1024` at local row `j % 1024`.
-/
import proofs.«114769_j21852793602889_2_alg».proof.Proof.KFrameA
import Idealize.ShloMosaic.Lib.Pipeline.Value
import Idealize.ShloMosaic.Lib.ValueIdx

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-! ## The windows' block indices, decided over the grid -/

/-- The row-block window's block index at point `t` is `(t, 0)`. -/
theorem idx_rows : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The whole-array window's block index is `(0, 0)` at every point. -/
theorem idx_whole : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The result window's block index at point `t` is `(t, 0)`. -/
theorem idx_out : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-! ## The input blocks read at an index -/

/-- The row block of point `t`, read at `(r, d)`: row `t·1024 + r` of the normalised array. -/
theorem iblk0_apply (c : Dev nD) (t : Fin cfg0.N) (r : Fin 1024) (d : Fin 256) :
    iblk m c 0 t (ix2 r d) = V m c main_v6 (ix2 ⟨t.val * 1024 + r.val, by have : t.val < grid0.N := t.isLt; have := Gen.N_0; omega⟩ d) := by
  obtain ⟨e0, e1⟩ := idx_rows t
  unfold iblk
  rw [View.read_apply]
  show V m c main_v6 _ = V m c main_v6 _
  congr 1
  funext a
  apply Fin.ext
  match a with
  | ⟨0, _⟩ => show win0_0.index t (0 : Fin 2) * 1024 + 1 * r.val = t.val * 1024 + r.val; rw [e0]; omega
  | ⟨1, _⟩ => show win0_0.index t (1 : Fin 2) * 256 + 1 * d.val = d.val; rw [e1]; omega

/-- The whole-array window at any point is the whole array. -/
theorem iblk1_apply (c : Dev nD) (t : Fin cfg0.N) (j : Fin 8192) (d : Fin 256) :
    iblk m c 1 t (ix2 j d) = V m c main_v6 (ix2 j d) := by
  obtain ⟨e0, e1⟩ := idx_whole t
  unfold iblk
  rw [View.read_apply]
  show V m c main_v6 _ = V m c main_v6 _
  congr 1
  funext a
  apply Fin.ext
  match a with
  | ⟨0, _⟩ => show win0_1.index t (0 : Fin 2) * 8192 + 1 * j.val = j.val; rw [e0]; omega
  | ⟨1, _⟩ => show win0_1.index t (1 : Fin 2) * 256 + 1 * d.val = d.val; rw [e1]; omega

/-! ## The result array after the eight points -/

/-- The body's result column depends only on the point and the index it is read at. -/
theorem outAt_congr (c : Dev nD) {t t' : Fin cfg0.N} {y y' : S1024x1.Idx} (ht : t = t') (hy : y = y') :
    outAt m c t y = outAt m c t' y' := by subst ht; subst hy; rfl

/-- The result array as one function of the row: row `j` holds what point `j / 1024` wrote at local row `j % 1024`. -/
def resultRows (c : Dev nD) : S8192x1.Idx → Elt F .f32 := fun i =>
  outAt m c ⟨(i 0).val / 1024, by show _ < grid0.N; have := Gen.N_0; have : (i 0).val < 8192 := (i 0).isLt; omega⟩
    (ix2 ⟨(i 0).val % 1024, Nat.mod_lt _ (by norm_num)⟩ 0)

/-- A function of the result's index that, on the rows of point `t`'s block, is what the point left in its buffer, read
    through the block is what point `t` writes back: the result window is uncut and its block at `t` is rows
    `t·1024 … t·1024 + 1023`. -/
theorem flushed_out_of (c : Dev nD) (t : Fin cfg0.N) (G : S8192x1.Idx → Elt F .f32)
    (hG : ∀ (y : S1024x1.Idx) (i : S8192x1.Idx), (i 0).val = t.val * 1024 + (y 0).val → G i = outAt m c t y) :
    (dats m 0 c).flushed 2 t = ((cfg0.win 2).blk t).view.read (Elt F) G := by
  show (cfg0.win 2).cut (grid0.coords t) ((dats m 0 c).after 2 t) = _
  rw [after0_2]
  generalize outAt m c t = X at hG
  obtain ⟨e0, e1⟩ := idx_out t
  funext y
  rw [View.read_apply]
  show X _ = G _
  refine (hG _ _ ?_).symm
  show win0_2.index t (0 : Fin 2) * 1024 + 1 * (y 0).val = t.val * 1024 + (y 0).val
  rw [e0]; omega

/-- Row `t·1024 + r` has quotient `t` and remainder `r`: on point `t`'s rows the function is what the point left. -/
theorem resultRows_at (c : Dev nD) (t : Fin cfg0.N) (y : S1024x1.Idx) (i : S8192x1.Idx)
    (hi : (i 0).val = t.val * 1024 + (y 0).val) : resultRows m c i = outAt m c t y := by
  have hy0 : (y 0).val < 1024 := (y 0).isLt
  have hy1 : (y 1).val < 1 := (y 1).isLt
  unfold resultRows
  refine outAt_congr m c (Fin.ext ?_) (funext fun a => Fin.ext ?_)
  · show (i 0).val / 1024 = t.val
    omega
  · match a with
    | ⟨0, _⟩ => show (i 0).val % 1024 = (y 0).val; omega
    | ⟨1, _⟩ => show 0 = (y 1).val; omega

/-- What point `t` writes back is block `t` of the result function. -/
theorem flushed_out (c : Dev nD) (t : Fin cfg0.N) :
    (dats m 0 c).flushed 2 t = ((cfg0.win 2).blk t).view.read (Elt F) (resultRows m c) :=
  flushed_out_of m c t (resultRows m c) (resultRows_at m c t)

/-- An index of the result array is in point `t`'s block iff each coordinate is in the block's range on its axis. -/
theorem mem_blk_out (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v7).slice (win0_2.rect t)).set ↔ _
  rw [View.set_slice_whole, Rect.mem_set_unit]
  exact Iff.rfl

/-- The eight blocks cover the result array: row `j` is in the block of point `j / 1024`. -/
theorem cover_out (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  refine ⟨⟨(i 0).val / 1024, by show _ < grid0.N; have := Gen.N_0; omega⟩, flush0_2 _, ?_⟩
  obtain ⟨e0, e1⟩ := idx_out ⟨(i 0).val / 1024, by show _ < grid0.N; have := Gen.N_0; omega⟩
  rw [mem_blk_out]
  intro a
  match a with
  | ⟨0, _⟩ =>
    show win0_2.index _ (0 : Fin 2) * 1024 ≤ (i 0).val ∧ (i 0).val < win0_2.index _ (0 : Fin 2) * 1024 + 1024
    rw [e0]; show (i 0).val / 1024 * 1024 ≤ (i 0).val ∧ (i 0).val < (i 0).val / 1024 * 1024 + 1024; omega
  | ⟨1, _⟩ =>
    show win0_2.index _ (1 : Fin 2) * 1 ≤ (i 1).val ∧ (i 1).val < win0_2.index _ (1 : Fin 2) * 1 + 1
    rw [e1]; omega

/-- So the result array ends holding that function. -/
theorem final_out (c : Dev nD) : (dats m 0 c).arrAt 2 cfg0.N = resultRows m c :=
  (dats m 0 c).arrAt_eq_of_cover 2 (resultRows m c) (fun t _ => flushed_out m c t) cover_out

/-- The result array after the eight points: row `j` holds what point `j / 1024` wrote at local row `j % 1024`. -/
theorem arrAt2_apply (c : Dev nD) (j : Fin 8192) :
    (dats m 0 c).arrAt 2 cfg0.N (ix2 j 0)
      = outAt m c ⟨j.val / 1024, by show _ < grid0.N; have := Gen.N_0; have := j.isLt; omega⟩
          (ix2 ⟨j.val % 1024, Nat.mod_lt _ (by norm_num)⟩ 0) := by
  rw [final_out]
  exact outAt_congr m c rfl rfl

end Cert.KernelIdeal.HF

end
-- ==== Proof.Spec.lean ====
/-
  The loss both programs compute, written once over the row-normalised embeddings.

  `Z` is the 8192 × 256 array of normalised rows (each input row divided by the larger of its Euclidean norm and 1e-8).
  For rows `i`, `j` the similarity is the inner product `dot Z i j`; the logit of the pair is the similarity divided
  by the temperature 1/2 (the kernel multiplies by 2, the reference divides by 1/2), with the diagonal replaced by the
  finite fill -9e15. The positive of row `i` is the row 4096 places away (`lab i`).

  The kernel reads the logits in eight column blocks of 1024: per block it adds to a running value the block's sum of
  `exp (logit - 2)` and, to another, the block's logit at the positive column; the row's loss is
  `2 + log (sum of exps) - positive logit`, and the result is the mean of the 8192 row losses.

  The reference shifts each row by a value `M i` (the row's maximum), takes
  `(logit at the positive - M i) - log (sum over the row of exp (logit - M i))`, and returns minus the mean.

  Over real logits the two are one number: `log (∑ exp (a_j - c)) + c` does not depend on the real shift `c`.
-/
import Idealize.ShloMosaic.PureOps.Ideal
import Idealize.ShloMosaic.PureOps.Ideal.Laws

noncomputable section

namespace Cert.NTX

open Idealize.ShloMosaic

/-- The normalised embeddings: row, feature. -/
abbrev Arr := Fin 8192 → Fin 256 → EReal

/-- The fill on the diagonal, -9e15 as a binary32 number. -/
def NEG : EReal := Ideal.ofBits .f32 0xD9FFCB9E#32
/-- 2, the inverse temperature and the kernel's static shift. -/
def TWO : EReal := Ideal.ofBits .f32 0x40000000#32
/-- 1/2, the temperature. -/
def HALF : EReal := Ideal.ofBits .f32 0x3F000000#32
/-- 8192, the number of rows. -/
def CNT : EReal := Ideal.ofBits .f32 0x46000000#32

/-- The inner product of rows `i` and `j`. -/
def dot (Z : Arr) (i j : Fin 8192) : EReal := ∑ d : Fin 256, Z i d * Z j d

/-- The positive of row `i`: the row 4096 places away. -/
def lab (i : Fin 8192) : Fin 8192 :=
  if h : i.val < 4096 then ⟨i.val + 4096, by omega⟩ else ⟨i.val - 4096, by omega⟩

/-- Column `q` of column block `k`. -/
def col (k : Fin 8) (q : Fin 1024) : Fin 8192 := ⟨k.val * 1024 + q.val, by omega⟩

/-! ## The kernel's arrangement -/

/-- The kernel's logit: the diagonal filled, elsewhere the inner product times 2. -/
def kLogit (Z : Arr) (i j : Fin 8192) : EReal := if i = j then NEG else dot Z i j * TWO

/-- Column block `k`'s sum of `exp (logit - 2)` on row `i`. -/
def kExp (Z : Arr) (i : Fin 8192) (k : Fin 8) : EReal := ∑ q : Fin 1024, Ideal.exp (kLogit Z i (col k q) - TWO)

/-- Column block `k`'s logit at the positive column of row `i` (zero when the positive is in another block). -/
def kPos (Z : Arr) (i : Fin 8192) (k : Fin 8) : EReal :=
  ∑ q : Fin 1024, (if col k q = lab i then kLogit Z i (col k q) else 0)

/-- The running value after the first `n` blocks, from zero, each block added on the right. -/
def acc (S : Fin 8 → EReal) : ℕ → EReal
  | 0 => 0
  | n + 1 => if h : n < 8 then acc S n + S ⟨n, h⟩ else acc S n

/-- Row `i`'s loss as the kernel computes it. -/
def kRow (Z : Arr) (i : Fin 8192) : EReal := (TWO + Ideal.log (acc (kExp Z i) 8)) - acc (kPos Z i) 8

/-- The kernel's result: the mean of the row losses. -/
def kLoss (Z : Arr) : EReal := Ideal.div (0 + ∑ i : Fin 8192, kRow Z i) CNT

/-! ## The reference's arrangement -/

/-- The reference's logit: the diagonal filled, elsewhere the inner product divided by 1/2. -/
def rLogit (Z : Arr) (i j : Fin 8192) : EReal := if i = j then NEG else Ideal.div (dot Z i j) HALF

/-- Row `i`'s log-probability of its positive, the row shifted by `M i`. -/
def rRow (Z : Arr) (M : Fin 8192 → EReal) (i : Fin 8192) : EReal :=
  (rLogit Z i (lab i) - M i) - Ideal.log (0 + ∑ j : Fin 8192, Ideal.exp (rLogit Z i j - M i))

/-- The reference's result: minus the mean of the log-probabilities. -/
def rLoss (Z : Arr) (M : Fin 8192 → EReal) : EReal := -(Ideal.div (0 + ∑ i : Fin 8192, rRow Z M i) CNT)

end Cert.NTX

end
-- ==== Proof.KernelPay.lean ====
/-
  The kernel body's arithmetic, read entry by entry.

  A grid point holds 1024 rows of the normalised embeddings (block `x4`); trip `k` of its loop loads 1024 more rows
  (block `x18`), the columns of this trip. Row `r` of the point has global number `(i 0)·1024 + r`, column `q` of
  the trip has global number `k·1024 + q`. The body forms the 1024 × 1024 block of logits — the inner product of the
  two rows times 2, with the entry where the two global numbers agree replaced by the fill —, adds to one carried
  column the row sums of `exp (logit - 2)`, and to the other the logit at the column whose global number is the row's
  positive (the row 4096 places away). After the loop the row's value is `2 + log (first carried) - second carried`.

  Everything here is a statement about ONE entry: the integer words are the global numbers (no wrap: all are below
  8192), a comparison of words is the comparison of the numbers, the lane reduction is a finite sum over the 1024
  columns, and the matrix product into a zero accumulator is the sum over the 256 features.
-/
import proofs.«114769_j21852793602889_2_alg».proof.Proof.Gen.KernelIdeal.Skeleton
import proofs.«114769_j21852793602889_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.NTX

open Idealize.ShloMosaic Cert.KernelIdeal Cert.KernelIdeal.Gen ValueIdx

/-! ## Layout: a column kept as a unit axis -/

section Layout
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Words: numbers below 8192 as 32-bit words -/

/-- Two words of numbers below 8192 are equal exactly when the numbers are. -/
theorem word_eq_iff (a b : ℕ) (ha : a < 8192) (hb : b < 8192) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- The equality test of two such words is the bit of the numbers' equality. -/
theorem cmpi_eq_word (a b : ℕ) (ha : a < 8192) (hb : b < 8192) :
    IntOp.cmpi .eq (BitVec.ofNat 32 a) (BitVec.ofNat 32 b) = if a = b then 1#1 else 0#1 := by
  unfold IntOp.cmpi
  by_cases h : a = b
  · rw [if_pos h, h]; simp
  · rw [if_neg h]
    have hne : (BitVec.ofNat 32 a == BitVec.ofNat 32 b) = false :=
      beq_eq_false_iff_ne.2 fun e => h ((word_eq_iff a b ha hb).1 e)
    rw [hne]; rfl

/-- The signed test of such a word against 4096 is the bit of the numbers' order. -/
theorem cmpi_slt_word (a : ℕ) (ha : a < 8192) :
    IntOp.cmpi .slt (BitVec.ofNat 32 a) 4096#32 = if a < 4096 then 1#1 else 0#1 := by
  unfold IntOp.cmpi
  have h1 : (BitVec.ofNat 32 a).toInt = (a : Int) := by
    rw [BitVec.toInt_eq_toNat_of_lt (by rw [BitVec.toNat_ofNat, Nat.mod_eq_of_lt (by omega)]; omega),
      BitVec.toNat_ofNat, Nat.mod_eq_of_lt (by omega)]
  have h2 : (4096#32 : BitVec 32).toInt = 4096 := by decide
  have e : (BitVec.ofNat 32 a).slt 4096#32 = decide (a < 4096) := by
    rw [BitVec.slt_eq_decide, h1, h2]
    exact decide_eq_decide.2 (by omega)
  show BitVec.ofBool ((BitVec.ofNat 32 a).slt 4096#32) = _
  rw [e]
  by_cases h : a < 4096
  · rw [if_pos h, decide_eq_true h]; rfl
  · rw [if_neg h, decide_eq_false h]; rfl

/-! ## The global numbers of a row and a column -/

/-- A grid coordinate is below 8. -/
theorem grid_lt (i : grid0.Coords) : (i 0).val < 8 := (i 0).isLt

/-- A trip number is below 8. -/
theorem trip_lt (k : Fin k0_t1_loop.trips) : k.val < 8 := Nat.lt_of_lt_of_le k.isLt k0_t1_abs.2.1

/-- The word the body holds for local row `r`: its global number `(i 0)·1024 + r`. -/
theorem pay1_apply (i : grid0.Coords) (r : Fin 1024) :
    k0_pay1 i (ix2 r (0 : Fin 1)) = BitVec.ofNat 32 ((i 0).val * 1024 + r.val) := by
  unfold k0_pay1
  show IntOp.addi (Scalar.muli (BitVec.ofNat 32 (i 0).val) 1024#32)
    (iota .tc S1024x1 32 [0] iota_S1024x1_d0_w32 (ix2 r (0 : Fin 1))) = _
  rw [iota_single_apply]
  show BitVec.ofNat 32 (i 0).val * BitVec.ofNat 32 1024 + BitVec.ofNat 32 r.val = _
  rw [BitVec.ofNat_add, BitVec.ofNat_mul]

/-- The word the body holds for local column `q` of trip `k`: its global number `k·1024 + q`. -/
theorem pay4_apply (k : Fin k0_t1_loop.trips) (q : Fin 1024) :
    k0_pay4 k (ix2 (0 : Fin 1) q) = BitVec.ofNat 32 (k.val * 1024 + q.val) := by
  unfold k0_pay4
  show IntOp.addi (Scalar.muli (Scf.iv 0#32 1#32 k.val) 1024#32)
    (iota .tc S1x1024 32 [1] iota_S1x1024_d1_w32 (ix2 (0 : Fin 1) q)) = _
  rw [iota_single_apply]
  show (0#32 + BitVec.ofNat 32 k.val * 1#32) * BitVec.ofNat 32 1024 + BitVec.ofNat 32 q.val = _
  rw [BitVec.ofNat_add, BitVec.ofNat_mul, BitVec.zero_add, BitVec.mul_one]

/-- the positive's global number -/
def labN (row : ℕ) : ℕ := if row < 4096 then row + 4096 else row - 4096

/-- The positive of a row below 8192 is below 8192. -/
theorem labN_lt (row : ℕ) (h : row < 8192) : labN row < 8192 := by unfold labN; split <;> omega

/-- The word the body selects for the positive: the number plus 4096 below 4096, minus 4096 from there on. -/
theorem lab_word (a : ℕ) (ha : a < 8192) :
    Scalar.select (IntOp.cmpi .slt (BitVec.ofNat 32 a) 4096#32) (IntOp.addi (BitVec.ofNat 32 a) 4096#32)
        (IntOp.subi (BitVec.ofNat 32 a) 4096#32)
      = BitVec.ofNat 32 (labN a) := by
  rw [cmpi_slt_word a ha]; unfold labN
  by_cases h : a < 4096
  · rw [if_pos h, if_pos h, select_one]
    show BitVec.ofNat 32 a + BitVec.ofNat 32 4096 = _
    rw [← BitVec.ofNat_add]
  · rw [if_neg h, if_neg h, select_zero]
    show BitVec.ofNat 32 a - BitVec.ofNat 32 4096 = _
    have e : a = (a - 4096) + 4096 := by omega
    conv_lhs => rw [e, BitVec.ofNat_add]
    rw [BitVec.add_sub_cancel]

/-! ## The block of logits -/

/-- The kernel's contraction: rows of the first block against rows of the second, over the 256 features. -/
abbrev DD : DotDims S1024x256 S1024x256 S1024x1024 := dot_S1024x256_S1024x256_S1024x1024_1_1_0_0_n_n

theorem DD_lhs0 (j : S1024x1024.Idx) (c : DD.contr.Idx) : (DD.lhsIdx j c 0).val = (j 0).val := by
  unfold DotDims.lhsIdx
  rw [dif_neg (show ¬(0 : Fin S1024x256.rank) ∈ DD.lhsBatch by decide),
    dif_pos (show (0 : Fin S1024x256.rank) ∈ DD.lhsNonContracting by decide)]
  rfl
theorem DD_lhs1 (j : S1024x1024.Idx) (c : DD.contr.Idx) : (DD.lhsIdx j c 1).val = (c ⟨0, by decide⟩).val :=
  DD.lhsIdx_val_of_single rfl j c
theorem DD_rhs0 (j : S1024x1024.Idx) (c : DD.contr.Idx) : (DD.rhsIdx j c 0).val = (j 1).val := by
  unfold DotDims.rhsIdx
  rw [dif_neg (show ¬(0 : Fin S1024x256.rank) ∈ DD.rhsBatch by decide),
    dif_pos (show (0 : Fin S1024x256.rank) ∈ DD.rhsNonContracting by decide)]
  rfl
theorem DD_rhs1 (j : S1024x1024.Idx) (c : DD.contr.Idx) : (DD.rhsIdx j c 1).val = (c ⟨0, by decide⟩).val :=
  DD.rhsIdx_val_of_single rfl j c

/-- The matrix product of two blocks of rows into a zero accumulator, at `(r, q)`: the inner product of row `r` of
    the first and row `q` of the second. -/
theorem matmul_rows_apply (a b : FVec Ideal S1024x256 .bf16) (r q : Fin 1024) :
    matmul DD none a b (constant (F := Ideal) S1024x1024 .f32 0x00000000#32) (ix2 r q)
      = ∑ d : Fin 256, a (ix2 r d) * b (ix2 q d) := by
  simp only [matmul]
  rw [Ideal.matmul_constant_zero_apply, ← Equiv.sum_comp (contrEquiv1 DD 256 rfl rfl).symm]
  refine Finset.sum_congr rfl fun d _ => ?_
  have hk := contrEquiv1_symm_val DD 256 rfl rfl d
  have el : DD.lhsIdx (ix2 r q) ((contrEquiv1 DD 256 rfl rfl).symm d) = ix2 r d := funext fun a => Fin.ext (by
    match a with
    | ⟨0, _⟩ => exact DD_lhs0 _ _
    | ⟨1, _⟩ => exact (DD_lhs1 _ _).trans hk)
  have er : DD.rhsIdx (ix2 r q) ((contrEquiv1 DD 256 rfl rfl).symm d) = ix2 q d := funext fun a => Fin.ext (by
    match a with
    | ⟨0, _⟩ => exact DD_rhs0 _ _
    | ⟨1, _⟩ => exact (DD_rhs1 _ _).trans hk)
  rw [el, er]

/-- the logit of local row r against local column q, by the global numbers of the two -/
def bLogit (x4 x18 : FVec Ideal S1024x256 .bf16) (row colN : ℕ) (r q : Fin 1024) : EReal :=
  if row = colN then NEG else (∑ d : Fin 256, x4 (ix2 r d) * x18 (ix2 q d)) * TWO

/-- The block of logits at `(r, q)`: the fill where the two global numbers agree, elsewhere the inner product times 2. -/
theorem pay5_apply (i : grid0.Coords) (x4 x18 : FVec Ideal S1024x256 .bf16) (k : Fin k0_t1_loop.trips) (r q : Fin 1024) :
    k0_pay5 (F := Ideal) i x4 k x18 (ix2 r q)
      = bLogit x4 x18 ((i 0).val * 1024 + r.val) (k.val * 1024 + q.val) r q := by
  have hi := grid_lt i
  have hk := trip_lt k
  unfold k0_pay5
  show Scalar.select
      (IntOp.cmpi .eq (broadcastTo S1024x1024 (k0_pay1 i) broadcasts_S1024x1_S1024x1024 (ix2 r q))
        (broadcastTo S1024x1024 (k0_pay4 k) broadcasts_S1x1024_S1024x1024 (ix2 r q)))
      (Ideal.ofBits .f32 0xD9FFCB9E#32)
      (matmul DD none (shapeCast S1024x256 x4 shapeCasts_S1024x256_S1024x256)
          (shapeCast S1024x256 x18 shapeCasts_S1024x256_S1024x256)
          (constant (F := Ideal) S1024x1024 .f32 0x00000000#32) (ix2 r q) * Ideal.ofBits .f32 0x40000000#32) = _
  rw [broadcastTo_a1_ab_apply, broadcastTo_1b_ab_apply, pay1_apply, pay4_apply, shapeCast_self, shapeCast_self,
    matmul_rows_apply, cmpi_eq_word _ _ (by omega) (by omega)]
  unfold bLogit
  by_cases h : (i 0).val * 1024 + r.val = k.val * 1024 + q.val
  · rw [if_pos h, if_pos h, select_one]; rfl
  · rw [if_neg h, if_neg h, select_zero]; rfl

/-! ## The two carried columns and the row's value -/

/-- The sum along the columns of a 1024 × 1024 block, kept as a column: at row `r`, the sum over the 1024 columns. -/
theorem rowSum_apply (v : FVec Ideal S1024x1024 .f32) (r : Fin 1024) :
    shapeCast S1024x1 (multiReduction .add [1] S1024 v 0x00000000#32 reduces_S1024x1024_S1024 (.inl rfl) rfl)
        shapeCasts_S1024_S1024x1 (ix2 r (0 : Fin 1))
      = ∑ q : Fin 1024, v (ix2 r q) := by
  refine (shapeCast_a_a1_apply _ _ r 0).trans ?_
  refine (Ideal.multiReduction_add_single v _ reduces_S1024x1024_S1024 _ _ (ix1 r)).trans ?_
  refine Finset.sum_congr rfl fun q _ => congrArg v (funext fun a => Fin.ext ?_)
  match a with
  | ⟨0, _⟩ => rfl
  | ⟨1, _⟩ => rfl

/-- The first carried column after trip `k`: what it held plus the row's sum of `exp (logit - 2)` over the trip's columns. -/
theorem pay6_apply (i : grid0.Coords) (x4 x18 : FVec Ideal S1024x256 .bf16) (k : Fin k0_t1_loop.trips)
    (a5 : FVec Ideal S1024x1 .f32) (r : Fin 1024) :
    k0_pay6 (F := Ideal) i x4 k a5 x18 (ix2 r 0)
      = a5 (ix2 r 0) + ∑ q : Fin 1024, Ideal.exp (bLogit x4 x18 ((i 0).val * 1024 + r.val) (k.val * 1024 + q.val) r q - TWO) := by
  unfold k0_pay6
  show a5 (ix2 r 0) + shapeCast S1024x1 (multiReduction .add [1] S1024
        (exp (subf (k0_pay5 (F := Ideal) i x4 k x18) (broadcast S1024x1024 (Ideal.ofBits .f32 0x40000000#32))))
        0x00000000#32 reduces_S1024x1024_S1024 (.inl rfl) rfl) shapeCasts_S1024_S1024x1 (ix2 r (0 : Fin 1)) = _
  refine congrArg (a5 (ix2 r 0) + ·) ((rowSum_apply _ r).trans (Finset.sum_congr rfl fun q _ => ?_))
  show Ideal.exp (k0_pay5 (F := Ideal) i x4 k x18 (ix2 r q) - Ideal.ofBits .f32 0x40000000#32) = _
  rw [pay5_apply]
  rfl

/-- The word the body selects for the positive of local row `r`. -/
theorem posWord_apply (i : grid0.Coords) (r : Fin 1024) :
    select (cmpi .slt (k0_pay1 i) (broadcast S1024x1 4096#32)) (addi (k0_pay1 i) (broadcast S1024x1 4096#32))
        (subi (k0_pay1 i) (broadcast S1024x1 4096#32)) (ix2 r (0 : Fin 1))
      = BitVec.ofNat 32 (labN ((i 0).val * 1024 + r.val)) := by
  have hi := grid_lt i
  show Scalar.select (IntOp.cmpi .slt (k0_pay1 i (ix2 r (0 : Fin 1))) 4096#32)
      (IntOp.addi (k0_pay1 i (ix2 r (0 : Fin 1))) 4096#32) (IntOp.subi (k0_pay1 i (ix2 r (0 : Fin 1))) 4096#32) = _
  rw [pay1_apply, lab_word _ (by omega)]

/-- The second carried column after trip `k`: what it held plus the logit at the column that is the row's positive, when
    that column is among the trip's. -/
theorem pay7_apply (i : grid0.Coords) (x4 x18 : FVec Ideal S1024x256 .bf16) (k : Fin k0_t1_loop.trips)
    (a6 : FVec Ideal S1024x1 .f32) (r : Fin 1024) :
    k0_pay7 (F := Ideal) i x4 k a6 x18 (ix2 r 0)
      = a6 (ix2 r 0) + ∑ q : Fin 1024,
          (if k.val * 1024 + q.val = labN ((i 0).val * 1024 + r.val)
            then bLogit x4 x18 ((i 0).val * 1024 + r.val) (k.val * 1024 + q.val) r q else 0) := by
  have hi := grid_lt i
  have hk := trip_lt k
  unfold k0_pay7
  show a6 (ix2 r 0) + shapeCast S1024x1 (multiReduction .add [1] S1024
        (select (cmpi .eq (broadcastTo S1024x1024 (k0_pay4 k) broadcasts_S1x1024_S1024x1024)
            (broadcastTo S1024x1024
              (select (cmpi .slt (k0_pay1 i) (broadcast S1024x1 4096#32)) (addi (k0_pay1 i) (broadcast S1024x1 4096#32))
                (subi (k0_pay1 i) (broadcast S1024x1 4096#32))) broadcasts_S1024x1_S1024x1024))
          (k0_pay5 (F := Ideal) i x4 k x18) (broadcast S1024x1024 (Ideal.ofBits .f32 0x00000000#32)))
        0x00000000#32 reduces_S1024x1024_S1024 (.inl rfl) rfl) shapeCasts_S1024_S1024x1 (ix2 r (0 : Fin 1)) = _
  refine congrArg (a6 (ix2 r 0) + ·) ((rowSum_apply _ r).trans (Finset.sum_congr rfl fun q _ => ?_))
  show Scalar.select
      (IntOp.cmpi .eq (broadcastTo S1024x1024 (k0_pay4 k) broadcasts_S1x1024_S1024x1024 (ix2 r q))
        (broadcastTo S1024x1024
          (select (cmpi .slt (k0_pay1 i) (broadcast S1024x1 4096#32)) (addi (k0_pay1 i) (broadcast S1024x1 4096#32))
            (subi (k0_pay1 i) (broadcast S1024x1 4096#32))) broadcasts_S1024x1_S1024x1024 (ix2 r q)))
      (k0_pay5 (F := Ideal) i x4 k x18 (ix2 r q)) (Ideal.ofBits .f32 0x00000000#32) = _
  have hl := labN_lt ((i 0).val * 1024 + r.val) (by omega)
  rw [broadcastTo_1b_ab_apply, broadcastTo_a1_ab_apply, pay4_apply, posWord_apply, pay5_apply,
    cmpi_eq_word _ _ (by omega) hl, Ideal.ofBits_zero_f32]
  by_cases h : k.val * 1024 + q.val = labN ((i 0).val * 1024 + r.val)
  · rw [if_pos h, if_pos h, select_one]
  · rw [if_neg h, if_neg h, select_zero]

/-- The row's value after the loop: 2 plus the logarithm of the first carried column, minus the second. -/
theorem pay8_apply (v0 v1 : FVec Ideal S1024x1 .f32) (r : Fin 1024) :
    k0_pay8 (F := Ideal) v0 v1 (ix2 r 0) = (TWO + Ideal.log (v0 (ix2 r 0))) - v1 (ix2 r 0) := by
  unfold k0_pay8 TWO
  rfl

/-- The first carried column starts at zero. -/
theorem pay2_apply (j : S1024x1.Idx) : k0_pay2 (F := Ideal) j = 0 := by
  unfold k0_pay2
  exact Ideal.ofBits_zero_f32

/-- The second carried column starts at zero. -/
theorem pay3_apply (j : S1024x1.Idx) : k0_pay3 (F := Ideal) j = 0 := by
  unfold k0_pay3
  exact Ideal.ofBits_zero_f32

/-! ## The same three readings with the two blocks typed as loaded vectors -/

theorem pay5_apply_vec (i : grid0.Coords) (x4 x18 : Vec Ideal S1024x256 .bf16) (k : Fin k0_t1_loop.trips) (r q : Fin 1024) :
    k0_pay5 (F := Ideal) i x4 k x18 (ix2 r q)
      = bLogit x4 x18 ((i 0).val * 1024 + r.val) (k.val * 1024 + q.val) r q :=
  pay5_apply i x4 x18 k r q

theorem pay6_apply_vec (i : grid0.Coords) (x4 x18 : Vec Ideal S1024x256 .bf16) (k : Fin k0_t1_loop.trips)
    (a5 : FVec Ideal S1024x1 .f32) (r : Fin 1024) :
    k0_pay6 (F := Ideal) i x4 k a5 x18 (ix2 r 0)
      = a5 (ix2 r 0) + ∑ q : Fin 1024, Ideal.exp (bLogit x4 x18 ((i 0).val * 1024 + r.val) (k.val * 1024 + q.val) r q - TWO) :=
  pay6_apply i x4 x18 k a5 r

theorem pay7_apply_vec (i : grid0.Coords) (x4 x18 : Vec Ideal S1024x256 .bf16) (k : Fin k0_t1_loop.trips)
    (a6 : FVec Ideal S1024x1 .f32) (r : Fin 1024) :
    k0_pay7 (F := Ideal) i x4 k a6 x18 (ix2 r 0)
      = a6 (ix2 r 0) + ∑ q : Fin 1024,
          (if k.val * 1024 + q.val = labN ((i 0).val * 1024 + r.val)
            then bLogit x4 x18 ((i 0).val * 1024 + r.val) (k.val * 1024 + q.val) r q else 0) :=
  pay7_apply i x4 x18 k a6 r

end Cert.NTX

end
-- ==== Proof.KValue.lean ====
/-
  The value the kernel body leaves at a row.

  The body's output column is its one store over the whole output buffer, so at local row `r` it is
  `2 + log (first carried column) - (second carried column)` after the loop. The loop goes round eight times; trip `k`
  loads rows `k·1024 … k·1024 + 1023` of the resident array and adds, to the first carried column, the row's sum of
  `exp (logit - 2)` over those 1024 columns and, to the second, the logit at the row's positive when it is among them.
  By induction on the trips the two carried columns at row `r` are the running values `acc (kExp Z row)` and
  `acc (kPos Z row)` of the row with global number `row = (i 0)·1024 + r`, when the row block holds rows
  `(i 0)·1024 …` of `Z` and the resident array holds all of `Z`; after eight trips that is the row's loss `kRow Z row`.
-/
import proofs.«114769_j21852793602889_2_alg».proof.Proof.KBody
import proofs.«114769_j21852793602889_2_alg».proof.Proof.KernelPay
import proofs.«114769_j21852793602889_2_alg».proof.Proof.Spec

set_option maxRecDepth 16384

noncomputable section

namespace Cert.NTX

open Idealize.ShloMosaic Idealize.ShloMosaic.TcCoe
open Idealize.SL Idealize.SL.Sem
open Cert.KernelIdeal Cert.KernelIdeal.Gen Cert.KernelIdeal.HF ValueIdx

/-! ## One trip -/

section AnyInstance
variable {F : FTy → Type} [FloatOps F]

/-- The loop goes round eight times. -/
theorem trips_eq : k0_t1_loop.trips = 8 := by decide +kernel

/-- The block of 1024 rows trip `k` loads from the resident array's contents: rows `k·1024 … k·1024 + 1023`. -/
def blk (arg2 : Memref sig .tc .vmem S8192x256 .bf16) (X : BufTy.Contents (Elt F) arg2.view.ty)
    (k : Fin k0_t1_loop.trips) : Vec F S1024x256 .bf16 :=
  View.readAt (Elt F) arg2.view (Rect.unit (s := S8192x256) (k0_off1 k) S1024x256.size (k0_off1_inb k)).toLoadRect X

/-- What one trip makes of the two carried columns: each its payload of the row block, the trip's block and the column
    carried in. -/
theorem trip_eq (𝒱 : Variants) (c : Dev nD) (bd : Option 𝒱.V) (i : grid0.Coords)
    (arg1 : Memref sig .tc .vmem S1024x256 .bf16) (harg1 : arg1.IsWhole)
    (arg2 : Memref sig .tc .vmem S8192x256 .bf16) (harg2 : arg2.IsWhole)
    (arg3 : Memref sig .tc .vmem S1024x1 .f32) (harg3 : arg3.IsWhole)
    (v4 : Vec F S1024x256 .bf16) (X : BufTy.Contents (Elt F) arg2.view.ty) (k : Fin k0_t1_loop.trips)
    (a : FVec F S1024x1 .f32 × FVec F S1024x1 .f32) :
    tripR_k0_t1 (F := F) 𝒱 c bd i arg1 harg1 arg2 harg2 arg3 harg3 v4 X k a
      = (k0_pay6 i v4 k a.1 (blk arg2 X k), k0_pay7 i v4 k a.2 (blk arg2 X k)) := by
  unfold tripR_k0_t1 trip_k0_t1
  rfl

/-! ## The two loads -/

theorem zero_off : (![0, 0] : Fin 2 → ℕ) = fun _ => 0 :=
  funext fun a => by match a with | ⟨0, _⟩ => rfl | ⟨1, _⟩ => rfl

/-- The first load reads the whole row block. -/
theorem rowBlock_eq (arg1 : Memref sig .tc .vmem S1024x256 .bf16) (harg1 : arg1.IsWhole) (x0 : Vec F S1024x256 .bf16) :
    View.readAt (Elt F) arg1.view rIn.toLoadRect (harg1.unread x0) = x0 := by
  rw [View.readAt_eq_ld, harg1.read_unread]
  exact View.ld_unit_zero zero_off _ x0

/-- Trip `k`'s block at `(q, d)` is the resident array at row `k·1024 + q`. -/
theorem blk_apply (arg2 : Memref sig .tc .vmem S8192x256 .bf16) (harg2 : arg2.IsWhole) (x1 : Vec F S8192x256 .bf16)
    (k : Fin k0_t1_loop.trips) (q : Fin 1024) (d : Fin 256) :
    blk arg2 (harg2.unread x1) k (ix2 q d) = x1 (ix2 ⟨k.val * 1024 + q.val, by have := trip_lt k; omega⟩ d) := by
  unfold blk
  rw [View.readAt_eq_ld, harg2.read_unread]
  show x1 ((Rect.unit (s := S8192x256) (k0_off1 k) S1024x256.size (k0_off1_inb k)).idx (ix2 q d)) = _
  refine congrArg x1 (funext fun a => Fin.ext ?_)
  have e := k0_off1_eq k
  match a with
  | ⟨0, _⟩ =>
    show k0_off1 k 0 + 1 * q.val = k.val * 1024 + q.val
    rw [e]
    show 1024 * k.val + 1 * q.val = _
    omega
  | ⟨1, _⟩ =>
    show k0_off1 k 1 + 1 * d.val = d.val
    rw [e]
    show 0 + 1 * d.val = _
    omega

end AnyInstance

/-! ## The block's logits are the specification's -/

/-- A block logit is the specification's logit of the two rows the blocks' rows are. -/
theorem bLogit_eq (Z : Arr) (a b : FVec Ideal S1024x256 .bf16) (ri cj : Fin 8192) (r q : Fin 1024)
    (ha : ∀ d, a (ix2 r d) = Z ri d) (hb : ∀ d, b (ix2 q d) = Z cj d) :
    bLogit a b ri.val cj.val r q = kLogit Z ri cj := by
  unfold bLogit kLogit dot
  by_cases h : ri = cj
  · rw [if_pos h, if_pos (congrArg Fin.val h)]
  · rw [if_neg h, if_neg (fun e => h (Fin.ext e))]
    refine congrArg (· * TWO) (Finset.sum_congr rfl fun d _ => ?_)
    rw [ha, hb]

/-- The positive's global number. -/
theorem lab_val (j : Fin 8192) : (lab j).val = labN j.val := by
  unfold lab labN
  split <;> rfl

/-- One more block added to a running value. -/
theorem acc_succ (S : Fin 8 → EReal) (n : ℕ) (h : n < 8) : acc S (n + 1) = acc S n + S ⟨n, h⟩ := by
  rw [acc, dif_pos h]

/-! ## The carried columns, by induction on the trips -/

section Value
variable (c : Dev nD) (i : grid0.Coords)
  (arg1 : Memref sig .tc .vmem S1024x256 .bf16) (harg1 : arg1.IsWhole)
  (arg2 : Memref sig .tc .vmem S8192x256 .bf16) (harg2 : arg2.IsWhole)
  (arg3 : Memref sig .tc .vmem S1024x1 .f32) (harg3 : arg3.IsWhole)
  (x0 : Vec Ideal S1024x256 .bf16) (x1 : Vec Ideal S8192x256 .bf16)

/-- The global number of local row `r` of grid point `i`, as a row of the array. -/
abbrev rowOf (i : grid0.Coords) (r : Fin 1024) : Fin 8192 := ⟨(i 0).val * 1024 + r.val, by have := grid_lt i; omega⟩

/-- The two carried columns before trip `n`, from zero. -/
def carried (n : ℕ) : FVec Ideal S1024x1 .f32 × FVec Ideal S1024x1 .f32 :=
  st_k0_t1 (F := Ideal) Variants.none c none i arg1 harg1 arg2 harg2 arg3 harg3 x0 (harg2.unread x1) (k0_pay2, k0_pay3) n

theorem loopRes_eq :
    loopRes (F := Ideal) c i arg1 harg1 arg2 harg2 arg3 harg3 x0 x1
      = carried c i arg1 harg1 arg2 harg2 arg3 harg3 x0 x1 k0_t1_loop.trips := by
  unfold loopRes carried
  rw [rowBlock_eq]

theorem carried_succ (k : Fin k0_t1_loop.trips) :
    carried c i arg1 harg1 arg2 harg2 arg3 harg3 x0 x1 (k.val + 1)
      = (k0_pay6 i x0 k (carried c i arg1 harg1 arg2 harg2 arg3 harg3 x0 x1 k.val).1 (blk arg2 (harg2.unread x1) k),
         k0_pay7 i x0 k (carried c i arg1 harg1 arg2 harg2 arg3 harg3 x0 x1 k.val).2 (blk arg2 (harg2.unread x1) k)) := by
  unfold carried
  rw [st_k0_t1_succ, trip_eq]

variable (Z : Arr)
  (h0 : ∀ (r : Fin 1024) (d : Fin 256), x0 (ix2 r d) = Z (rowOf i r) d)
  (h1 : ∀ (j : Fin 8192) (d : Fin 256), x1 (ix2 j d) = Z j d)

include h0 h1 in
/-- Trip `k`'s logit of local row `r` against its column `q` is the specification's logit of the two global rows. -/
theorem tripLogit_eq (k : Fin k0_t1_loop.trips) (r q : Fin 1024) :
    bLogit x0 (blk arg2 (harg2.unread x1) k) ((i 0).val * 1024 + r.val) (k.val * 1024 + q.val) r q
      = kLogit Z (rowOf i r) (col ⟨k.val, trip_lt k⟩ q) :=
  bLogit_eq Z x0 (blk arg2 (harg2.unread x1) k) (rowOf i r) (col ⟨k.val, trip_lt k⟩ q) r q (fun d => h0 r d)
    (fun d => (blk_apply arg2 harg2 x1 k q d).trans (h1 _ d))

include h0 h1 in
/-- Before trip `n` the carried columns at row `r` are the row's two running values over the first `n` blocks. -/
theorem carried_apply (n : ℕ) (hn : n ≤ 8) (r : Fin 1024) :
    (carried c i arg1 harg1 arg2 harg2 arg3 harg3 x0 x1 n).1 (ix2 r 0) = acc (kExp Z (rowOf i r)) n
      ∧ (carried c i arg1 harg1 arg2 harg2 arg3 harg3 x0 x1 n).2 (ix2 r 0) = acc (kPos Z (rowOf i r)) n := by
  induction n with
  | zero => exact ⟨pay2_apply (ix2 r 0), pay3_apply (ix2 r 0)⟩
  | succ n ih =>
    have hn' : n < 8 := hn
    obtain ⟨ih1, ih2⟩ := ih (by omega)
    have hk : n < k0_t1_loop.trips := by rw [trips_eq]; exact hn'
    have hs : carried c i arg1 harg1 arg2 harg2 arg3 harg3 x0 x1 (n + 1)
        = (k0_pay6 i x0 ⟨n, hk⟩ (carried c i arg1 harg1 arg2 harg2 arg3 harg3 x0 x1 n).1 (blk arg2 (harg2.unread x1) ⟨n, hk⟩),
           k0_pay7 i x0 ⟨n, hk⟩ (carried c i arg1 harg1 arg2 harg2 arg3 harg3 x0 x1 n).2 (blk arg2 (harg2.unread x1) ⟨n, hk⟩)) :=
      carried_succ c i arg1 harg1 arg2 harg2 arg3 harg3 x0 x1 ⟨n, hk⟩
    rw [hs]
    constructor
    · show k0_pay6 (F := Ideal) i x0 ⟨n, hk⟩ (carried c i arg1 harg1 arg2 harg2 arg3 harg3 x0 x1 n).1
          (blk arg2 (harg2.unread x1) ⟨n, hk⟩) (ix2 r 0) = _
      rw [pay6_apply_vec, ih1, acc_succ _ n hn']
      refine congrArg (acc (kExp Z (rowOf i r)) n + ·) (Finset.sum_congr rfl fun q _ => ?_)
      exact congrArg (fun t => Ideal.exp (t - TWO))
        (tripLogit_eq i arg2 harg2 x0 x1 Z h0 h1 ⟨n, hk⟩ r q)
    · show k0_pay7 (F := Ideal) i x0 ⟨n, hk⟩ (carried c i arg1 harg1 arg2 harg2 arg3 harg3 x0 x1 n).2
          (blk arg2 (harg2.unread x1) ⟨n, hk⟩) (ix2 r 0) = _
      rw [pay7_apply_vec, ih2, acc_succ _ n hn']
      refine congrArg (acc (kPos Z (rowOf i r)) n + ·) (Finset.sum_congr rfl fun q _ => ?_)
      have hl := tripLogit_eq i arg2 harg2 x0 x1 Z h0 h1 ⟨n, hk⟩ r q
      have hc : (n * 1024 + q.val = labN ((i 0).val * 1024 + r.val)) ↔ (col ⟨n, hn'⟩ q = lab (rowOf i r)) := by
        rw [Fin.ext_iff, lab_val]
        exact Iff.rfl
      by_cases h : col ⟨n, hn'⟩ q = lab (rowOf i r)
      · rw [if_pos h, if_pos (hc.2 h)]; exact hl
      · rw [if_neg h, if_neg (fun e => h (hc.1 e))]

include h0 h1 in
/-- The body's output column at local row `r`: the loss of the row with that global number. -/
theorem out2_apply' (r : Fin 1024) :
    out2 (F := Ideal) c i arg1 harg1 arg2 harg2 arg3 harg3 x0 x1 (ix2 r 0) = kRow Z (rowOf i r) := by
  unfold out2
  rw [View.canon_unit_zero zero_off, pay8_apply, loopRes_eq, trips_eq]
  obtain ⟨e1, e2⟩ := carried_apply c i arg1 harg1 arg2 harg2 arg3 harg3 x0 x1 Z h0 h1 8 (le_refl 8) r
  rw [e1, e2]
  rfl

end Value

/-- The body's output column at local row `r` of grid point `i`, when the row block holds rows `(i 0)·1024 …` of `Z` and
    the resident array holds `Z`: the loss of row `(i 0)·1024 + r`. -/
theorem out2_apply (c : Dev nD) (i : grid0.Coords) (arg1 : Memref sig .tc .vmem S1024x256 .bf16) (harg1 : arg1.IsWhole)
    (arg2 : Memref sig .tc .vmem S8192x256 .bf16) (harg2 : arg2.IsWhole) (arg3 : Memref sig .tc .vmem S1024x1 .f32) (harg3 : arg3.IsWhole)
    (x0 : Vec Ideal S1024x256 .bf16) (x1 : Vec Ideal S8192x256 .bf16) (Z : Arr)
    (h0 : ∀ (r : Fin 1024) (d : Fin 256), x0 (ix2 r d) = Z ⟨(i 0).val * 1024 + r.val, by have := grid_lt i; omega⟩ d)
    (h1 : ∀ (j : Fin 8192) (d : Fin 256), x1 (ix2 j d) = Z j d) (r : Fin 1024) :
    out2 (F := Ideal) c i arg1 harg1 arg2 harg2 arg3 harg3 x0 x1 (ix2 r 0)
      = kRow Z ⟨(i 0).val * 1024 + r.val, by have := grid_lt i; omega⟩ :=
  out2_apply' c i arg1 harg1 arg2 harg2 arg3 harg3 x0 x1 Z h0 h1 r

end Cert.NTX

end
-- ==== Proof.KTail.lean ====
/-
  The kernel's result as the specification's loss: the lines after the launch sum the 8192 written-back row losses from
  zero and divide by 8192; row `j` of the result array is what grid point `j / 1024` wrote at its local row `j % 1024`,
  which is the row loss of row `j` of the normalised array.
-/
import proofs.«114769_j21852793602889_2_alg».proof.Proof.KFrameB
import proofs.«114769_j21852793602889_2_alg».proof.Proof.KBlocks
import proofs.«114769_j21852793602889_2_alg».proof.Proof.KValue
import proofs.«114769_j21852793602889_2_alg».proof.Proof.Spec
import Idealize.ShloMosaic.Lib.IdealHost
import Idealize.ShloMosaic.Lib.StableHlo.Run
import Idealize.ShloMosaic.Lib.ValueIdx
import Idealize.ShloMosaic.PureOps.Ideal.Laws

set_option maxRecDepth 16384

noncomputable section

namespace Cert.NTX

open Idealize.ShloMosaic Idealize.ShloMosaic.TcCoe Idealize.SL.Sem Idealize.ShloMosaic.StableHlo
open Cert.KernelIdeal Cert.KernelIdeal.Gen Cert.KernelIdeal.HF ValueIdx

variable (m : (ℓ : Loc nD τ sig) → Buf (Elt Ideal) ℓ)

/-- The normalised rows as the launch finds them. -/
def Zk (c : Dev nD) : Arr := fun i d => V (F := Ideal) m c main_v6 (ix2 i d)

/-- The result buffer after the lines that follow the launch: the sum of the result array from zero, divided by 8192. -/
theorem Wt_v9_term (c : Dev nD) :
    Wt (F := Ideal) m c (Proc.devRef .tc main_v9)
      = Host.divf (F := Ideal) (Host.reduceAdd (F := Ideal) ((dats m 0 c).arrAt 2 cfg0.N) (constant S_ .f32 0x00000000#32) reducesTo_S8192x1_S_d0_1 h_S_)
          (constant S_ .f32 0x46000000#32) := by
  unfold Wt
  simp only [hostOps1, List.flatten_cons, List.flatten_nil, List.append_nil]
  after_results
  rw [W1_v7]

/-- A grid point's one coordinate is its number. -/
theorem coords_val : ∀ t : Fin grid0.N, (grid0.coords t 0).val = t.val := by decide +kernel

/-- Row `j` of the result array after the eight points is the row loss of row `j`. -/
theorem arr_row (c : Dev nD) (j : Fin 8192) : (dats m 0 c).arrAt 2 cfg0.N (ix2 j 0) = kRow (Zk m c) j := by
  rw [arrAt2_apply]
  unfold outAt
  have hN : grid0.N = 8 := N_0
  have ht : j.val / 1024 < grid0.N := by rw [hN]; omega
  have hc := coords_val ⟨j.val / 1024, ht⟩
  refine (out2_apply c (grid0.coords ⟨j.val / 1024, ht⟩) _ _ _ _ _ _ _ _ (Zk m c) ?_ ?_ ⟨j.val % 1024, Nat.mod_lt _ (by norm_num)⟩).trans ?_
  · intro r d
    rw [iblk0_apply]
    unfold Zk
    exact congrArg (fun i => V (F := Ideal) m c main_v6 (ix2 i d)) (Fin.ext (by simp only [hc]))
  · intro i d
    rw [iblk1_apply]
    rfl
  · exact congrArg (kRow (Zk m c)) (Fin.ext (by simp only [hc]; omega))

/-- The kernel's result is the specification's loss of the normalised rows. -/
theorem kernel_value (c : Dev nD) :
    Wt (F := Ideal) m c (Proc.devRef .tc main_v9) = fun _ => kLoss (Zk m c) := by
  rw [Wt_v9_term]
  funext j
  show Ideal.div (Host.reduceAdd (F := Ideal) ((dats m 0 c).arrAt 2 cfg0.N) (constant S_ .f32 0x00000000#32) reducesTo_S8192x1_S_d0_1 h_S_ j)
      (Ideal.ofBits .f32 0x46000000#32) = kLoss (Zk m c)
  unfold kLoss CNT
  refine congrArg (fun x => Ideal.div x (Ideal.ofBits .f32 0x46000000#32)) ?_
  rw [hostReduceAdd_apply, Ideal.hostReduceAdd_total _ (fun b => b.elim0)]
  refine congrArg₂ (· + ·) (Ideal.ofBits_zero_f32) ?_
  refine (sum_idx2 (M := EReal) (n0 := 8192) (n1 := 1) (fun i => ((dats m 0 c).arrAt 2 cfg0.N i : EReal))).trans ?_
  refine Finset.sum_congr rfl fun a _ => ?_
  rw [Fin.sum_univ_one]
  exact arr_row m c a

end Cert.NTX

end
-- ==== Proof.Algebra.lean ====
/-
  The algebra: over real entries the kernel's arrangement of the loss and the reference's are one number.
  Every inner product, logit, exponential and sum is then a real number, the eight column blocks cover the
  8192 columns exactly once, and  log (∑ exp (a_j - c)) + c  does not depend on the real shift c.
-/
import proofs.«114769_j21852793602889_2_alg».proof.Proof.Spec

noncomputable section

namespace Cert.NTX

open Idealize.ShloMosaic

/-! ## The constants are real numbers -/

theorem TWO_eq : TWO = ((2 : ℝ) : EReal) := by
  unfold TWO; simp [Ideal.ofBits, Ideal.ieee, -EReal.coe_mul]; norm_num

theorem HALF_eq : HALF = (((1 : ℝ) / 2 : ℝ) : EReal) := by
  unfold HALF; simp [Ideal.ofBits, Ideal.ieee, -EReal.coe_mul]; norm_num

theorem CNT_eq : CNT = ((8192 : ℝ) : EReal) := by
  unfold CNT; simp [Ideal.ofBits, Ideal.ieee, -EReal.coe_mul]; norm_num

theorem NEG_real : ∃ r : ℝ, NEG = (r : EReal) := by
  unfold NEG; simp [Ideal.ofBits, Ideal.ieee, -EReal.coe_mul, -EReal.coe_neg]

/-! ## Sums, exponentials and logarithms of real numbers -/

/-- A finite sum of real numbers, read in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem exp_coe' (x : ℝ) : Ideal.exp (x : EReal) = ((Real.exp x : ℝ) : EReal) := rfl

theorem log_coe' {x : ℝ} (hx : 0 < x) : Ideal.log (x : EReal) = ((Real.log x : ℝ) : EReal) := by
  rw [Ideal.log_coe, if_neg (not_le.mpr hx)]

/-! ## The eight blocks of 1024 columns cover the 8192 columns once -/

/-- Block and place in the block, against the column: a bijection. -/
def colEquiv : Fin 8 × Fin 1024 ≃ Fin 8192 where
  toFun p := col p.1 p.2
  invFun j := (⟨j.val / 1024, by omega⟩, ⟨j.val % 1024, by omega⟩)
  left_inv := by
    rintro ⟨k, q⟩
    ext <;> simp [col] <;> omega
  right_inv := by
    intro j
    ext
    simp [col]
    omega

/-- The running value after all eight blocks is the sum of the eight blocks. -/
theorem acc_eight (S : Fin 8 → EReal) : acc S 8 = ∑ k : Fin 8, S k := by
  simp [acc, Fin.sum_univ_eight]

/-- Summing block by block is summing over all columns. -/
theorem sum_blocks (f : Fin 8192 → EReal) :
    (∑ k : Fin 8, ∑ q : Fin 1024, f (col k q)) = ∑ j : Fin 8192, f j := by
  rw [← Fintype.sum_prod_type (f := fun p : Fin 8 × Fin 1024 => f (col p.1 p.2))]
  exact Equiv.sum_comp colEquiv f

theorem acc_kExp (Z : Arr) (i : Fin 8192) :
    acc (kExp Z i) 8 = ∑ j : Fin 8192, Ideal.exp (kLogit Z i j - TWO) := by
  rw [acc_eight]
  exact sum_blocks (fun j => Ideal.exp (kLogit Z i j - TWO))

theorem acc_kPos (Z : Arr) (i : Fin 8192) : acc (kPos Z i) 8 = kLogit Z i (lab i) := by
  rw [acc_eight]
  have h := sum_blocks (fun j => if j = lab i then kLogit Z i j else 0)
  simp only [kPos]
  rw [h, Finset.sum_ite_eq' Finset.univ (lab i) (fun j => kLogit Z i j), if_pos (Finset.mem_univ _)]

/-! ## The logits are real numbers -/

/-- The real logit: the diagonal filled, elsewhere twice the inner product. -/
def aR (z : Fin 8192 → Fin 256 → ℝ) (neg : ℝ) (i j : Fin 8192) : ℝ :=
  if i = j then neg else (∑ d : Fin 256, z i d * z j d) * 2

section Real

variable (Z : Arr) (M : Fin 8192 → EReal) (z : Fin 8192 → Fin 256 → ℝ) (neg : ℝ) (μ : Fin 8192 → ℝ)
variable (hz : ∀ i d, Z i d = (z i d : EReal)) (hn : NEG = (neg : EReal)) (hμ : ∀ i, M i = (μ i : EReal))

include hz in
theorem dot_coe (i j : Fin 8192) : dot Z i j = ((∑ d : Fin 256, z i d * z j d : ℝ) : EReal) := by
  unfold dot
  simp only [hz, ← EReal.coe_mul]
  exact coe_sum _ _

include hz hn in
/-- The kernel's logit: the inner product times 2. -/
theorem kLogit_coe (i j : Fin 8192) : kLogit Z i j = (aR z neg i j : EReal) := by
  unfold kLogit aR
  split_ifs
  · exact hn
  · rw [dot_coe Z z hz, TWO_eq, ← EReal.coe_mul]

include hz hn in
/-- The reference's logit: the inner product divided by 1/2, which is the inner product times 2. -/
theorem rLogit_coe (i j : Fin 8192) : rLogit Z i j = (aR z neg i j : EReal) := by
  unfold rLogit aR
  split_ifs
  · exact hn
  · rw [dot_coe Z z hz, HALF_eq, Ideal.div_coe (by norm_num), ← EReal.coe_mul]
    congr 1
    norm_num

theorem sum_exp_pos (a : Fin 8192 → ℝ) : 0 < ∑ j : Fin 8192, Real.exp (a j) :=
  Finset.sum_pos (fun j _ => Real.exp_pos _) Finset.univ_nonempty

/-- log (∑ exp (a_j - c)) = log (∑ exp a_j) - c : exp (a - c) = exp a · exp (-c), and the logarithm of a
    product of positive numbers is the sum of the logarithms. -/
theorem log_sum_exp_shift (a : Fin 8192 → ℝ) (c : ℝ) :
    Real.log (∑ j : Fin 8192, Real.exp (a j - c)) = Real.log (∑ j : Fin 8192, Real.exp (a j)) - c := by
  have h : (∑ j : Fin 8192, Real.exp (a j - c)) = (∑ j : Fin 8192, Real.exp (a j)) * Real.exp (-c) := by
    rw [Finset.sum_mul]
    refine Finset.sum_congr rfl (fun j _ => ?_)
    rw [← Real.exp_add, sub_eq_add_neg]
  rw [h, Real.log_mul (sum_exp_pos a).ne' (Real.exp_pos _).ne', Real.log_exp]
  ring

include hz hn in
/-- The kernel's row loss as a real number. -/
theorem kRow_coe (i : Fin 8192) :
    kRow Z i = ((2 + Real.log (∑ j : Fin 8192, Real.exp (aR z neg i j - 2)) - aR z neg i (lab i) : ℝ) : EReal) := by
  unfold kRow
  rw [acc_kExp, acc_kPos]
  simp only [kLogit_coe Z z neg hz hn, TWO_eq, ← EReal.coe_sub, exp_coe']
  rw [coe_sum, log_coe' (sum_exp_pos _), ← EReal.coe_add, ← EReal.coe_sub]

include hz hn hμ in
/-- The reference's row log-probability as a real number. -/
theorem rRow_coe (i : Fin 8192) :
    rRow Z M i = (((aR z neg i (lab i) - μ i) - Real.log (∑ j : Fin 8192, Real.exp (aR z neg i j - μ i)) : ℝ) : EReal) := by
  unfold rRow
  simp only [rLogit_coe Z z neg hz hn, hμ, ← EReal.coe_sub, exp_coe', zero_add]
  rw [coe_sum, log_coe' (sum_exp_pos _), ← EReal.coe_sub]

end Real

/-- Over real entries and real row shifts the kernel's loss is the reference's. -/
theorem kLoss_eq_rLoss (Z : Arr) (M : Fin 8192 → EReal)
    (hZ : ∀ i d, ∃ r : ℝ, Z i d = (r : EReal)) (hM : ∀ i, ∃ r : ℝ, M i = (r : EReal)) :
    kLoss Z = rLoss Z M := by
  choose z hz using hZ
  choose μ hμ using hM
  obtain ⟨neg, hn⟩ := NEG_real
  unfold kLoss rLoss
  simp only [kRow_coe Z z neg hz hn, rRow_coe Z M z neg μ hz hn hμ, zero_add]
  rw [coe_sum, coe_sum, CNT_eq, Ideal.div_coe (by norm_num), Ideal.div_coe (by norm_num), ← EReal.coe_mul,
    ← EReal.coe_mul, ← EReal.coe_neg]
  congr 1
  rw [← neg_mul, ← Finset.sum_neg_distrib]
  congr 1
  refine Finset.sum_congr rfl (fun i _ => ?_)
  rw [log_sum_exp_shift, log_sum_exp_shift]
  ring

end Cert.NTX

end
-- ==== Proof.KZn.lean ====
/-
  The normalised rows as the kernel's program computes them on the host before its launch: the two inputs joined
  along the rows, each row divided by the larger of its Euclidean norm and 1e-8, and (a change of format only)
  rounded to the narrow format. When the inputs are real numbers, so is every entry of the result: an entry of the
  joined array is an entry of one input; the sum of squares of a row is a real number that is not negative, so its
  square root is real; the larger of it and the positive constant is a positive real; and a real divided by a
  nonzero real is real.
-/
import proofs.«114769_j21852793602889_2_alg».proof.Proof.KFrameA
import proofs.«114769_j21852793602889_2_alg».proof.Proof.Spec
import proofs.«114769_j21852793602889_2_alg».proof.Proof.Algebra
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.NTX

open Idealize.ShloMosaic Cert.KernelIdeal Cert.KernelIdeal.Gen Cert.KernelIdeal.HF ValueIdx

/-- The two inputs joined along the rows: rows below 4096 from the first, the others from the second. -/
def joinK (x0 x1 : (⟨S4096x256, .f32⟩ : BufTy).Contents (Elt Ideal)) : (⟨S8192x256, .f32⟩ : BufTy).Contents (Elt Ideal) :=
  concatenate S8192x256 0 [⟨S4096x256, x0⟩, ⟨S4096x256, x1⟩] concatenates_S4096x256_S4096x256_S8192x256_d0

/-- Each row's Euclidean norm, as a column: the square root of the sum over the row of the squares. -/
def normK (x0 x1 : (⟨S4096x256, .f32⟩ : BufTy).Contents (Elt Ideal)) : (⟨S8192x1, .f32⟩ : BufTy).Contents (Elt Ideal) :=
  Host.sqrt (F := Ideal)
    (broadcastInDim S8192x1 ![0] bcast_S8192_S8192x1_0
      (Host.reduceAdd (F := Ideal) (mulf (joinK x0 x1) (joinK x0 x1)) (constant (F := Ideal) S_ .f32 0x00000000#32)
        reducesTo_S8192x256_S8192_d1 h_S_))

/-- The operations' composed term: what the host lines leave in the normalised array as a function of the two inputs. -/
def znK (x0 x1 : (⟨S4096x256, .f32⟩ : BufTy).Contents (Elt Ideal)) : (⟨S8192x256, .bf16⟩ : BufTy).Contents (Elt Ideal) :=
  truncf .bf16
    (Host.divf (F := Ideal) (joinK x0 x1)
      (broadcastInDim S8192x256 ![0, 1] bcast_S8192x1_S8192x256_0_1
        (maximumf (normK x0 x1)
          (broadcastInDim S8192x1 ![] bcast_S_S8192x1 (constant (F := Ideal) S_ .f32 0x322BCC77#32)))))
    bitsLt_bf16_f32

/-- The host lines before the launch leave the composed term in the normalised array. -/
theorem V_v6 (m : (ℓ : Loc nD τ sig) → Buf (Elt Ideal) ℓ) (c : Dev nD) :
    V (F := Ideal) m c main_v6 = znK (m ((c.tc : Thread nD τ).loc main_arg0)) (m ((c.tc : Thread nD τ).loc main_arg1)) := by
  dsimp only [V, V0]
  simp only [hostOps0, hostOps0_1, hostOps0_2, List.flatten_cons, List.flatten_nil, List.append_nil, List.cons_append,
    List.nil_append]
  after_results
  rfl

/-! ## Every entry is a real number when the inputs' entries are -/

section Real

variable (x0 x1 : (⟨S4096x256, .f32⟩ : BufTy).Contents (Elt Ideal))

/-- Rows below 4096 of the joined array are the first input's rows. -/
theorem joinK_low (i : Fin 8192) (d : Fin 256) (hlt : i.val < 4096) :
    joinK x0 x1 (ix2 i d) = x0 (ix2 (⟨i.val, hlt⟩ : Fin 4096) d) := by
  unfold joinK
  refine concatenate_pair_apply_left 0 x0 x1 _ (ix2 i d) rfl (ix2 (⟨i.val, hlt⟩ : Fin 4096) d) ?_
  intro b
  match b with
  | ⟨0, _⟩ => rfl
  | ⟨1, _⟩ => rfl

/-- The other rows are the second input's rows, 4096 places up. -/
theorem joinK_high (i : Fin 8192) (d : Fin 256) (hge : 4096 ≤ i.val) :
    joinK x0 x1 (ix2 i d) = x1 (ix2 (⟨i.val - 4096, by omega⟩ : Fin 4096) d) := by
  unfold joinK
  refine concatenate_pair_apply_right 0 x0 x1 _ (ix2 i d) rfl rfl (ix2 (⟨i.val - 4096, by omega⟩ : Fin 4096) d) ?_ ?_
  · intro b hb
    match b, hb with
    | ⟨0, _⟩, hb => exact absurd rfl hb
    | ⟨1, _⟩, _ => rfl
  · show (i.val - 4096) + 4096 = i.val
    omega

variable (h0 : ∀ j, ∃ r : ℝ, x0 j = (r : EReal)) (h1 : ∀ j, ∃ r : ℝ, x1 j = (r : EReal))

include h0 h1 in
/-- An entry of the joined array is an entry of one input, hence real. -/
theorem joinK_real (i : Fin 8192) (d : Fin 256) : ∃ r : ℝ, joinK x0 x1 (ix2 i d) = (r : EReal) := by
  by_cases hlt : i.val < 4096
  · rw [joinK_low x0 x1 i d hlt]; exact h0 _
  · rw [joinK_high x0 x1 i d (by omega)]; exact h1 _

end Real

/-! ## The row norms, the constant, and the quotient -/

section Norm

variable (x0 x1 : (⟨S4096x256, .f32⟩ : BufTy).Contents (Elt Ideal))

/-- The host's sum over a row of the squares, from the initial value zero, is the sum over the 256 columns. -/
theorem sumsq_apply (i : Fin 8192) :
    Host.reduceAdd (F := Ideal) (mulf (joinK x0 x1) (joinK x0 x1)) (constant (F := Ideal) S_ .f32 0x00000000#32)
        reducesTo_S8192x256_S8192_d1 h_S_ (ix1 i)
      = ∑ k : Fin 256, joinK x0 x1 (ix2 i k) * joinK x0 x1 (ix2 i k) := by
  have hR : S8192x256.Reduces [1] S8192 := by decide
  rw [hostReduceAdd_apply, Ideal.hostReduceAdd_single reducesTo_S8192x256_S8192_d1 hR, constant_apply,
    Ideal.ofBits_zero_f32, zero_add]
  refine Finset.sum_congr rfl (fun k _ => ?_)
  rw [mulf_apply]
  have e : hR.lift (ix1 i) k = ix2 i k := by
    funext a
    match a with
    | ⟨0, _⟩ => rfl
    | ⟨1, _⟩ => rfl
  rw [e]
  rfl

/-- Row i's norm: the square root of the sum of the squares of the row. -/
theorem normK_apply (i : Fin 8192) (q : Fin 1) :
    normK x0 x1 (ix2 i q) = Ideal.sqrt (∑ k : Fin 256, joinK x0 x1 (ix2 i k) * joinK x0 x1 (ix2 i k)) := by
  unfold normK
  show Ideal.sqrt (broadcastInDim (s := S8192) S8192x1 ![0] bcast_S8192_S8192x1_0 _ (ix2 i q)) = _
  rw [broadcastInDim_apply (s := S8192) (t := S8192x1) ![0] bcast_S8192_S8192x1_0 _ (ix2 i q) (ix1 i)
    (by intro a; match a with | ⟨0, _⟩ => rfl), sumsq_apply]

/-- The constant 1e-8 is a positive real number. -/
theorem eps_pos : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- An entry of the result: the joined array's entry divided by the larger of the row's norm and the constant. -/
theorem znK_apply (i : Fin 8192) (d : Fin 256) :
    znK x0 x1 (ix2 i d)
      = Ideal.div (joinK x0 x1 (ix2 i d)) (max (normK x0 x1 (ix2 i (0 : Fin 1))) (Ideal.ofBits .f32 0x322BCC77#32)) := by
  unfold znK
  rw [truncf_apply, hostDivf_apply,
    broadcastInDim_apply (s := S8192x1) (t := S8192x256) ![0, 1] bcast_S8192x1_S8192x256_0_1 _ (ix2 i d)
      (ix2 i (0 : Fin 1))
      (by intro a; match a with | ⟨0, _⟩ => rfl | ⟨1, _⟩ => rfl),
    maximumf_apply, broadcastInDim_scalar_apply, constant_apply]

variable (h0 : ∀ j, ∃ r : ℝ, x0 j = (r : EReal)) (h1 : ∀ j, ∃ r : ℝ, x1 j = (r : EReal))

include h0 h1 in
/-- A row's norm is a real number: the sum of squares of reals is a real that is not negative. -/
theorem normK_real (i : Fin 8192) (q : Fin 1) : ∃ r : ℝ, normK x0 x1 (ix2 i q) = (r : EReal) := by
  choose r hr using joinK_real x0 x1 h0 h1 i
  rw [normK_apply]
  simp only [hr, ← EReal.coe_mul]
  rw [coe_sum, Ideal.sqrt_coe, if_neg (not_lt.mpr (Finset.sum_nonneg fun k _ => mul_self_nonneg _))]
  exact ⟨_, rfl⟩

include h0 h1 in
/-- Every entry of the normalised array is a real number. -/
theorem znK_real' (i : Fin 8192) (d : Fin 256) : ∃ r : ℝ, znK x0 x1 (ix2 i d) = (r : EReal) := by
  obtain ⟨a, ha⟩ := joinK_real x0 x1 h0 h1 i d
  obtain ⟨n, hn⟩ := normK_real x0 x1 h0 h1 i 0
  obtain ⟨e, he0, he⟩ := eps_pos
  have hne : max n e ≠ 0 := ne_of_gt (lt_of_lt_of_le he0 (le_max_right _ _))
  rw [znK_apply, ha, hn, he, ← Monotone.map_max EReal.coe_strictMono.monotone, Ideal.div_coe hne, ← EReal.coe_mul]
  exact ⟨_, rfl⟩

end Norm

/-- When the two inputs' entries are real numbers, so is every entry of the normalised array. -/
theorem znK_real (x0 x1 : (⟨S4096x256, .f32⟩ : BufTy).Contents (Elt Ideal))
    (h0 : ∀ j, ∃ r : ℝ, x0 j = (r : EReal)) (h1 : ∀ j, ∃ r : ℝ, x1 j = (r : EReal)) :
    ∀ (i : Fin 8192) (d : Fin 256), ∃ r : ℝ, znK x0 x1 (ix2 i d) = (r : EReal) :=
  fun i d => znK_real' x0 x1 h0 h1 i d

end Cert.NTX

end
-- ==== Proof.RefDefs.lean ====
/-
  The two arrays the reference's loss is a function of, named once: the normalised rows (each row of the joined
  inputs divided by the larger of its norm and 1e-8), and each logit row's shift (the row maximum the reference
  subtracts before exponentiating).
-/
import proofs.«114769_j21852793602889_2_alg».proof.Proof.RefRead
import proofs.«114769_j21852793602889_2_alg».proof.Proof.Spec
import Idealize.ShloMosaic.Lib.ValueIdx

noncomputable section

namespace Cert.NTX

open Idealize.ShloMosaic Cert.ReferenceIdeal

/-- The normalised rows as a function of the two input arrays. -/
def Zof (x0 x1 : (⟨S4096x256, .f32⟩ : BufTy).Contents (Elt Ideal)) : Arr :=
  fun i d => Cert.ReferenceIdeal.Read.val_main_v5 (F := Ideal) x0 x1 (ValueIdx.ix2 i d)

/-- The shift of each logit row as a function of the two input arrays. -/
def Mof (x0 x1 : (⟨S4096x256, .f32⟩ : BufTy).Contents (Elt Ideal)) : Fin 8192 → EReal :=
  fun i => Cert.ReferenceIdeal.Read.val_main_call1_v2 (F := Ideal) x0 x1 (ValueIdx.ix1 i)

end Cert.NTX

end
-- ==== Proof.Bridge.lean ====
/-
  The two programs normalise the rows by the same host operations, so the array the kernel's launch finds and the array
  the reference multiplies by its own transpose are one function of the inputs.
-/
import proofs.«114769_j21852793602889_2_alg».proof.Proof.KZn
import proofs.«114769_j21852793602889_2_alg».proof.Proof.KTail
import proofs.«114769_j21852793602889_2_alg».proof.Proof.RefDefs

set_option maxRecDepth 16384

noncomputable section

namespace Cert.NTX

open Idealize.ShloMosaic Idealize.ShloMosaic.TcCoe Idealize.SL.Sem ValueIdx

/-- The kernel's normalised rows, from its host lines, are the reference's. -/
theorem znK_eq (x0 x1 : (⟨Cert.KernelIdeal.S4096x256, .f32⟩ : BufTy).Contents (Elt Ideal)) :
    znK x0 x1 = Cert.ReferenceIdeal.Read.val_main_v5 (F := Ideal) x0 x1 := by
  unfold znK joinK normK Cert.ReferenceIdeal.Read.val_main_v5 Cert.ReferenceIdeal.Read.val_main_v4 Cert.ReferenceIdeal.Read.val_main_v3
    Cert.ReferenceIdeal.Read.val_main_v2 Cert.ReferenceIdeal.Read.val_main_cst Cert.ReferenceIdeal.Read.val_main_v1
    Cert.ReferenceIdeal.Read.val_main_call0_v2 Cert.ReferenceIdeal.Read.val_main_call0_v1 Cert.ReferenceIdeal.Read.val_main_call0_cst
    Cert.ReferenceIdeal.Read.val_main_call0_v0 Cert.ReferenceIdeal.Read.val_main_v0
  rfl

/-- So the rows the launch finds are the rows the reference's loss is a function of. -/
theorem Zk_eq_Zof (m : (ℓ : Loc Cert.KernelIdeal.nD Cert.KernelIdeal.τ Cert.KernelIdeal.sig) → Buf (Elt Ideal) ℓ) (c : Dev Cert.KernelIdeal.nD) :
    Zk m c = Zof (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext i d
  unfold Zk Zof
  rw [V_v6, znK_eq]

/-- With real inputs the normalised rows are real. -/
theorem Zof_real (x0 x1 : (⟨Cert.KernelIdeal.S4096x256, .f32⟩ : BufTy).Contents (Elt Ideal))
    (h0 : ∀ j, ∃ r : ℝ, x0 j = (r : EReal)) (h1 : ∀ j, ∃ r : ℝ, x1 j = (r : EReal)) :
    ∀ (i : Fin 8192) (d : Fin 256), ∃ r : ℝ, Zof x0 x1 i d = (r : EReal) := by
  intro i d
  obtain ⟨r, hr⟩ := znK_real x0 x1 h0 h1 i d
  exact ⟨r, by unfold Zof; rw [← znK_eq]; exact hr⟩

end Cert.NTX

end
-- ==== Proof.RefRunT.lean ====
/-
  The reference program's run, one operation at a time.

  The program is a straight line of 81 host operations in single-assignment form: every buffer is written by exactly one
  operation and read only by later ones, and no operation writes an argument. Going through the line from the front, each
  operation leaves its result buffer at its function of its operands' contents and every other buffer as it was. So if
  the operands hold their stages' values of the two arguments, the result holds its own stage's value, and every value
  established so far that a later operation reads is still there. The valuation after each operation is kept as a
  variable about which only those facts are known, so every step is a statement about named stages, never about the
  composed term. After the last operation the result buffer holds the last stage's value.
-/
import proofs.«114769_j21852793602889_2_alg».proof.Proof.RefRunA
import proofs.«114769_j21852793602889_2_alg».proof.Proof.RefRead
import Idealize.ShloMosaic.Lib.StableHlo.Run

noncomputable section

namespace Cert.ReferenceIdeal.RunS

open Cert.ReferenceIdeal Cert.ReferenceIdeal.Gen Cert.ReferenceIdeal.Value Idealize.ShloMosaic Idealize.ShloMosaic.TcCoe Idealize.SL.Sem Idealize.ShloMosaic.StableHlo

/-! ## One operation -/

section Steps
variable {τ : Topo} {sig : RefSig} {Val : EltTy → Type}

/-- An operation with no operand: afterwards its buffer holds the value, every other buffer what it held. -/
theorem step_nullary {y : Ref sig .tc} {v : y.ty.Contents Val} {hy} {rest : List (HloOp τ sig Val)}
    {V : Valuation τ sig Val} {b₀ : DevRef τ sig} {R : b₀.ty.Contents Val}
    (hnext : ∀ W : Valuation τ sig Val, W (Proc.devRef .tc y) = v →
      (∀ r : Ref sig .tc, r ≠ y → W (Proc.devRef .tc r) = V (Proc.devRef .tc r)) → after rest W b₀ = R) :
    after (nullary y v hy :: rest) V b₀ = R :=
  hnext _ (nullary_result y v hy V) (fun r h => nullary_result_ne y v hy V h)

/-- An operation with one operand holding `vx`: afterwards its buffer holds `f vx`, every other buffer what it held. -/
theorem step_unary {x y : Ref sig .tc} {f : x.ty.Contents Val → y.ty.Contents Val} {hx hy} {rest : List (HloOp τ sig Val)}
    {V : Valuation τ sig Val} {b₀ : DevRef τ sig} {R : b₀.ty.Contents Val} {vx : x.ty.Contents Val}
    (ex : V (Proc.devRef .tc x) = vx)
    (hnext : ∀ W : Valuation τ sig Val, W (Proc.devRef .tc y) = f vx →
      (∀ r : Ref sig .tc, r ≠ y → W (Proc.devRef .tc r) = V (Proc.devRef .tc r)) → after rest W b₀ = R) :
    after (unary x y f hx hy :: rest) V b₀ = R :=
  hnext _ ((unary_result x y f hx hy V).trans (congrArg f ex)) (fun r h => unary_result_ne x y f hx hy V h)

/-- An operation with two operands holding `va`, `vb`: afterwards its buffer holds `f va vb`. -/
theorem step_binary {a b y : Ref sig .tc} {f : a.ty.Contents Val → b.ty.Contents Val → y.ty.Contents Val} {ha hb hy}
    {rest : List (HloOp τ sig Val)} {V : Valuation τ sig Val} {b₀ : DevRef τ sig} {R : b₀.ty.Contents Val}
    {va : a.ty.Contents Val} {vb : b.ty.Contents Val}
    (ea : V (Proc.devRef .tc a) = va) (eb : V (Proc.devRef .tc b) = vb)
    (hnext : ∀ W : Valuation τ sig Val, W (Proc.devRef .tc y) = f va vb →
      (∀ r : Ref sig .tc, r ≠ y → W (Proc.devRef .tc r) = V (Proc.devRef .tc r)) → after rest W b₀ = R) :
    after (binary a b y f ha hb hy :: rest) V b₀ = R :=
  hnext _ ((binary_result a b y f ha hb hy V).trans (by rw [ea, eb])) (fun r h => binary_result_ne a b y f ha hb hy V h)

/-- An operation with three operands holding `vc`, `va`, `vb`: afterwards its buffer holds `f vc va vb`. -/
theorem step_ternary {c a b y : Ref sig .tc}
    {f : c.ty.Contents Val → a.ty.Contents Val → b.ty.Contents Val → y.ty.Contents Val} {hc ha hb hy}
    {rest : List (HloOp τ sig Val)} {V : Valuation τ sig Val} {b₀ : DevRef τ sig} {R : b₀.ty.Contents Val}
    {vc : c.ty.Contents Val} {va : a.ty.Contents Val} {vb : b.ty.Contents Val}
    (ec : V (Proc.devRef .tc c) = vc) (ea : V (Proc.devRef .tc a) = va) (eb : V (Proc.devRef .tc b) = vb)
    (hnext : ∀ W : Valuation τ sig Val, W (Proc.devRef .tc y) = f vc va vb →
      (∀ r : Ref sig .tc, r ≠ y → W (Proc.devRef .tc r) = V (Proc.devRef .tc r)) → after rest W b₀ = R) :
    after (ternary c a b y f hc ha hb hy :: rest) V b₀ = R :=
  hnext _ ((ternary_result c a b y f hc ha hb hy V).trans (by rw [ec, ea, eb]))
    (fun r h => ternary_result_ne a b c y f hc ha hb hy V h)

/-! ### The same for an operation of a called function, whose buffers carry their value's type

A called function's operation reads and writes its buffers through the identification of the buffer's type with the value's
type (an equation between two types that are the same type for a literal buffer). The three lemmas below state the step
with that identification on the OUTSIDE of each buffer's contents, so that what the operation computes is its plain
function of plain values. -/

theorem TRef.ofBuf_toBuf {T : BufTy} (x : TRef sig T) (v : T.Contents Val) : x.ofBuf (x.toBuf v) = v := by
  obtain ⟨ref, rfl, _, _⟩ := x
  rfl

theorem step_tnullary {Ty : BufTy} {y : TRef sig Ty} {v : Ty.Contents Val} {rest : List (HloOp τ sig Val)}
    {V : Valuation τ sig Val} {b₀ : DevRef τ sig} {R : b₀.ty.Contents Val}
    (hnext : ∀ W : Valuation τ sig Val, y.ofBuf (W (Proc.devRef .tc y.ref)) = v →
      (∀ r : Ref sig .tc, r ≠ y.ref → W (Proc.devRef .tc r) = V (Proc.devRef .tc r)) → after rest W b₀ = R) :
    after (TRef.nullary y v :: rest) V b₀ = R :=
  step_nullary (fun W hy hne => hnext W (by rw [hy, TRef.ofBuf_toBuf]) hne)

theorem step_tunary {Tx Ty : BufTy} {x : TRef sig Tx} {y : TRef sig Ty} {f : Tx.Contents Val → Ty.Contents Val}
    {rest : List (HloOp τ sig Val)} {V : Valuation τ sig Val} {b₀ : DevRef τ sig} {R : b₀.ty.Contents Val}
    {vx : Tx.Contents Val}
    (ex : x.ofBuf (V (Proc.devRef .tc x.ref)) = vx)
    (hnext : ∀ W : Valuation τ sig Val, y.ofBuf (W (Proc.devRef .tc y.ref)) = f vx →
      (∀ r : Ref sig .tc, r ≠ y.ref → W (Proc.devRef .tc r) = V (Proc.devRef .tc r)) → after rest W b₀ = R) :
    after (TRef.unary x y f :: rest) V b₀ = R :=
  step_unary rfl (fun W hy hne => hnext W (by rw [hy, TRef.ofBuf_toBuf, ex]) hne)

theorem step_tbinary {Ta Tb Ty : BufTy} {a : TRef sig Ta} {b : TRef sig Tb} {y : TRef sig Ty}
    {f : Ta.Contents Val → Tb.Contents Val → Ty.Contents Val}
    {rest : List (HloOp τ sig Val)} {V : Valuation τ sig Val} {b₀ : DevRef τ sig} {R : b₀.ty.Contents Val}
    {va : Ta.Contents Val} {vb : Tb.Contents Val}
    (ea : a.ofBuf (V (Proc.devRef .tc a.ref)) = va) (eb : b.ofBuf (V (Proc.devRef .tc b.ref)) = vb)
    (hnext : ∀ W : Valuation τ sig Val, y.ofBuf (W (Proc.devRef .tc y.ref)) = f va vb →
      (∀ r : Ref sig .tc, r ≠ y.ref → W (Proc.devRef .tc r) = V (Proc.devRef .tc r)) → after rest W b₀ = R) :
    after (TRef.binary a b y f :: rest) V b₀ = R :=
  step_binary rfl rfl (fun W hy hne => hnext W (by rw [hy, TRef.ofBuf_toBuf, ea, eb]) hne)

end Steps

variable {F : FTy → Type} [FloatOps F]

/-! ## The line, operation by operation -/

set_option maxRecDepth 131072 in
set_option maxHeartbeats 2000000 in
/-- From any contents whose two argument buffers hold `x0`, `x1`: after the 81 operations the result buffer holds the
    last stage's value of `x0`, `x1`. -/
theorem after_ops (V0 : Valuation τ sig (Elt F)) (x0 x1 : (⟨S4096x256, .f32⟩ : BufTy).Contents (Elt F))
    (h_main_arg0 : V0 (Proc.devRef .tc main_arg0) = x0) (h_main_arg1 : V0 (Proc.devRef .tc main_arg1) = x1) :
    StableHlo.after (ops (F := F)) V0 (Proc.devRef .tc main_v48) = Read.val_main_v48 (F := F) x0 x1 := by
  refine step_binary h_main_arg0 h_main_arg1 (fun V1 hy hne => ?_)
  have h_main_v0 : V1 (Proc.devRef .tc main_v0) = Read.val_main_v0 (F := F) x0 x1 := hy
  clear hy hne h_main_arg0 h_main_arg1 V0
  refine step_tbinary (va := Read.val_main_v0 (F := F) x0 x1) (vb := Read.val_main_v0 (F := F) x0 x1) ?_ ?_ (fun V2 hy hne => ?_)
  · exact h_main_v0
  · exact h_main_v0
  have h_main_call0_v0 : V2 (Proc.devRef .tc main_call0_v0) = Read.val_main_call0_v0 (F := F) x0 x1 := hy
  replace h_main_v0 : V2 (Proc.devRef .tc main_v0) = Read.val_main_v0 (F := F) x0 x1 := (hne main_v0 (by decide)).trans h_main_v0
  clear hy hne V1
  refine step_tnullary (fun V3 hy hne => ?_)
  have h_main_call0_cst : V3 (Proc.devRef .tc main_call0_cst) = Read.val_main_call0_cst (F := F) := hy
  replace h_main_v0 : V3 (Proc.devRef .tc main_v0) = Read.val_main_v0 (F := F) x0 x1 := (hne main_v0 (by decide)).trans h_main_v0
  replace h_main_call0_v0 : V3 (Proc.devRef .tc main_call0_v0) = Read.val_main_call0_v0 (F := F) x0 x1 := (hne main_call0_v0 (by decide)).trans h_main_call0_v0
  clear hy hne V2
  refine step_tbinary (va := Read.val_main_call0_v0 (F := F) x0 x1) (vb := Read.val_main_call0_cst (F := F)) ?_ ?_ (fun V4 hy hne => ?_)
  · exact h_main_call0_v0
  · exact h_main_call0_cst
  have h_main_call0_v1 : V4 (Proc.devRef .tc main_call0_v1) = Read.val_main_call0_v1 (F := F) x0 x1 := hy
  replace h_main_v0 : V4 (Proc.devRef .tc main_v0) = Read.val_main_v0 (F := F) x0 x1 := (hne main_v0 (by decide)).trans h_main_v0
  clear hy hne h_main_call0_v0 h_main_call0_cst V3
  refine step_tunary (vx := Read.val_main_call0_v1 (F := F) x0 x1) ?_ (fun V5 hy hne => ?_)
  · exact h_main_call0_v1
  have h_main_call0_v2 : V5 (Proc.devRef .tc main_call0_v2) = Read.val_main_call0_v2 (F := F) x0 x1 := hy
  replace h_main_v0 : V5 (Proc.devRef .tc main_v0) = Read.val_main_v0 (F := F) x0 x1 := (hne main_v0 (by decide)).trans h_main_v0
  clear hy hne h_main_call0_v1 V4
  refine step_tunary (vx := Read.val_main_call0_v2 (F := F) x0 x1) ?_ (fun V6 hy hne => ?_)
  · exact h_main_call0_v2
  have h_main_v1 : V6 (Proc.devRef .tc main_v1) = Read.val_main_v1 (F := F) x0 x1 := hy
  replace h_main_v0 : V6 (Proc.devRef .tc main_v0) = Read.val_main_v0 (F := F) x0 x1 := (hne main_v0 (by decide)).trans h_main_v0
  clear hy hne h_main_call0_v2 V5
  refine step_nullary (fun V7 hy hne => ?_)
  have h_main_cst : V7 (Proc.devRef .tc main_cst) = Read.val_main_cst (F := F) := hy
  replace h_main_v0 : V7 (Proc.devRef .tc main_v0) = Read.val_main_v0 (F := F) x0 x1 := (hne main_v0 (by decide)).trans h_main_v0
  replace h_main_v1 : V7 (Proc.devRef .tc main_v1) = Read.val_main_v1 (F := F) x0 x1 := (hne main_v1 (by decide)).trans h_main_v1
  clear hy hne V6
  refine step_unary h_main_cst (fun V8 hy hne => ?_)
  have h_main_v2 : V8 (Proc.devRef .tc main_v2) = Read.val_main_v2 (F := F) := hy
  replace h_main_v0 : V8 (Proc.devRef .tc main_v0) = Read.val_main_v0 (F := F) x0 x1 := (hne main_v0 (by decide)).trans h_main_v0
  replace h_main_v1 : V8 (Proc.devRef .tc main_v1) = Read.val_main_v1 (F := F) x0 x1 := (hne main_v1 (by decide)).trans h_main_v1
  clear hy hne h_main_cst V7
  refine step_binary h_main_v1 h_main_v2 (fun V9 hy hne => ?_)
  have h_main_v3 : V9 (Proc.devRef .tc main_v3) = Read.val_main_v3 (F := F) x0 x1 := hy
  replace h_main_v0 : V9 (Proc.devRef .tc main_v0) = Read.val_main_v0 (F := F) x0 x1 := (hne main_v0 (by decide)).trans h_main_v0
  clear hy hne h_main_v1 h_main_v2 V8
  refine step_unary h_main_v3 (fun V10 hy hne => ?_)
  have h_main_v4 : V10 (Proc.devRef .tc main_v4) = Read.val_main_v4 (F := F) x0 x1 := hy
  replace h_main_v0 : V10 (Proc.devRef .tc main_v0) = Read.val_main_v0 (F := F) x0 x1 := (hne main_v0 (by decide)).trans h_main_v0
  clear hy hne h_main_v3 V9
  refine step_binary h_main_v0 h_main_v4 (fun V11 hy hne => ?_)
  have h_main_v5 : V11 (Proc.devRef .tc main_v5) = Read.val_main_v5 (F := F) x0 x1 := hy
  clear hy hne h_main_v0 h_main_v4 V10
  refine step_unary h_main_v5 (fun V12 hy hne => ?_)
  have h_main_v6 : V12 (Proc.devRef .tc main_v6) = Read.val_main_v6 (F := F) x0 x1 := hy
  replace h_main_v5 : V12 (Proc.devRef .tc main_v5) = Read.val_main_v5 (F := F) x0 x1 := (hne main_v5 (by decide)).trans h_main_v5
  clear hy hne V11
  refine step_binary h_main_v5 h_main_v6 (fun V13 hy hne => ?_)
  have h_main_v7 : V13 (Proc.devRef .tc main_v7) = Read.val_main_v7 (F := F) x0 x1 := hy
  clear hy hne h_main_v5 h_main_v6 V12
  refine step_nullary (fun V14 hy hne => ?_)
  have h_main_cst_0 : V14 (Proc.devRef .tc main_cst_0) = Read.val_main_cst_0 (F := F) := hy
  replace h_main_v7 : V14 (Proc.devRef .tc main_v7) = Read.val_main_v7 (F := F) x0 x1 := (hne main_v7 (by decide)).trans h_main_v7
  clear hy hne V13
  refine step_unary h_main_cst_0 (fun V15 hy hne => ?_)
  have h_main_v8 : V15 (Proc.devRef .tc main_v8) = Read.val_main_v8 (F := F) := hy
  replace h_main_v7 : V15 (Proc.devRef .tc main_v7) = Read.val_main_v7 (F := F) x0 x1 := (hne main_v7 (by decide)).trans h_main_v7
  clear hy hne h_main_cst_0 V14
  refine step_binary h_main_v7 h_main_v8 (fun V16 hy hne => ?_)
  have h_main_v9 : V16 (Proc.devRef .tc main_v9) = Read.val_main_v9 (F := F) x0 x1 := hy
  clear hy hne h_main_v7 h_main_v8 V15
  refine step_nullary (fun V17 hy hne => ?_)
  have h_main_v10 : V17 (Proc.devRef .tc main_v10) = Read.val_main_v10 (F := F) := hy
  replace h_main_v9 : V17 (Proc.devRef .tc main_v9) = Read.val_main_v9 (F := F) x0 x1 := (hne main_v9 (by decide)).trans h_main_v9
  clear hy hne V16
  refine step_nullary (fun V18 hy hne => ?_)
  have h_main_c : V18 (Proc.devRef .tc main_c) = Read.val_main_c (F := F) := hy
  replace h_main_v9 : V18 (Proc.devRef .tc main_v9) = Read.val_main_v9 (F := F) x0 x1 := (hne main_v9 (by decide)).trans h_main_v9
  replace h_main_v10 : V18 (Proc.devRef .tc main_v10) = Read.val_main_v10 (F := F) := (hne main_v10 (by decide)).trans h_main_v10
  clear hy hne V17
  refine step_unary h_main_c (fun V19 hy hne => ?_)
  have h_main_v11 : V19 (Proc.devRef .tc main_v11) = Read.val_main_v11 (F := F) := hy
  replace h_main_v9 : V19 (Proc.devRef .tc main_v9) = Read.val_main_v9 (F := F) x0 x1 := (hne main_v9 (by decide)).trans h_main_v9
  replace h_main_v10 : V19 (Proc.devRef .tc main_v10) = Read.val_main_v10 (F := F) := (hne main_v10 (by decide)).trans h_main_v10
  clear hy hne h_main_c V18
  refine step_binary h_main_v10 h_main_v11 (fun V20 hy hne => ?_)
  have h_main_v12 : V20 (Proc.devRef .tc main_v12) = Read.val_main_v12 (F := F) := hy
  replace h_main_v9 : V20 (Proc.devRef .tc main_v9) = Read.val_main_v9 (F := F) x0 x1 := (hne main_v9 (by decide)).trans h_main_v9
  replace h_main_v10 : V20 (Proc.devRef .tc main_v10) = Read.val_main_v10 (F := F) := (hne main_v10 (by decide)).trans h_main_v10
  clear hy hne h_main_v11 V19
  refine step_nullary (fun V21 hy hne => ?_)
  have h_main_c_1 : V21 (Proc.devRef .tc main_c_1) = Read.val_main_c_1 (F := F) := hy
  replace h_main_v9 : V21 (Proc.devRef .tc main_v9) = Read.val_main_v9 (F := F) x0 x1 := (hne main_v9 (by decide)).trans h_main_v9
  replace h_main_v10 : V21 (Proc.devRef .tc main_v10) = Read.val_main_v10 (F := F) := (hne main_v10 (by decide)).trans h_main_v10
  replace h_main_v12 : V21 (Proc.devRef .tc main_v12) = Read.val_main_v12 (F := F) := (hne main_v12 (by decide)).trans h_main_v12
  clear hy hne V20
  refine step_unary h_main_c_1 (fun V22 hy hne => ?_)
  have h_main_v13 : V22 (Proc.devRef .tc main_v13) = Read.val_main_v13 (F := F) := hy
  replace h_main_v9 : V22 (Proc.devRef .tc main_v9) = Read.val_main_v9 (F := F) x0 x1 := (hne main_v9 (by decide)).trans h_main_v9
  replace h_main_v10 : V22 (Proc.devRef .tc main_v10) = Read.val_main_v10 (F := F) := (hne main_v10 (by decide)).trans h_main_v10
  replace h_main_v12 : V22 (Proc.devRef .tc main_v12) = Read.val_main_v12 (F := F) := (hne main_v12 (by decide)).trans h_main_v12
  clear hy hne h_main_c_1 V21
  refine step_binary h_main_v10 h_main_v13 (fun V23 hy hne => ?_)
  have h_main_v14 : V23 (Proc.devRef .tc main_v14) = Read.val_main_v14 (F := F) := hy
  replace h_main_v9 : V23 (Proc.devRef .tc main_v9) = Read.val_main_v9 (F := F) x0 x1 := (hne main_v9 (by decide)).trans h_main_v9
  replace h_main_v10 : V23 (Proc.devRef .tc main_v10) = Read.val_main_v10 (F := F) := (hne main_v10 (by decide)).trans h_main_v10
  replace h_main_v12 : V23 (Proc.devRef .tc main_v12) = Read.val_main_v12 (F := F) := (hne main_v12 (by decide)).trans h_main_v12
  clear hy hne h_main_v13 V22
  refine step_ternary h_main_v12 h_main_v14 h_main_v10 (fun V24 hy hne => ?_)
  have h_main_v15 : V24 (Proc.devRef .tc main_v15) = Read.val_main_v15 (F := F) := hy
  replace h_main_v9 : V24 (Proc.devRef .tc main_v9) = Read.val_main_v9 (F := F) x0 x1 := (hne main_v9 (by decide)).trans h_main_v9
  replace h_main_v10 : V24 (Proc.devRef .tc main_v10) = Read.val_main_v10 (F := F) := (hne main_v10 (by decide)).trans h_main_v10
  clear hy hne h_main_v12 h_main_v14 V23
  refine step_nullary (fun V25 hy hne => ?_)
  have h_main_c_2 : V25 (Proc.devRef .tc main_c_2) = Read.val_main_c_2 (F := F) := hy
  replace h_main_v9 : V25 (Proc.devRef .tc main_v9) = Read.val_main_v9 (F := F) x0 x1 := (hne main_v9 (by decide)).trans h_main_v9
  replace h_main_v10 : V25 (Proc.devRef .tc main_v10) = Read.val_main_v10 (F := F) := (hne main_v10 (by decide)).trans h_main_v10
  replace h_main_v15 : V25 (Proc.devRef .tc main_v15) = Read.val_main_v15 (F := F) := (hne main_v15 (by decide)).trans h_main_v15
  clear hy hne V24
  refine step_unary h_main_c_2 (fun V26 hy hne => ?_)
  have h_main_v16 : V26 (Proc.devRef .tc main_v16) = Read.val_main_v16 (F := F) := hy
  replace h_main_v9 : V26 (Proc.devRef .tc main_v9) = Read.val_main_v9 (F := F) x0 x1 := (hne main_v9 (by decide)).trans h_main_v9
  replace h_main_v10 : V26 (Proc.devRef .tc main_v10) = Read.val_main_v10 (F := F) := (hne main_v10 (by decide)).trans h_main_v10
  replace h_main_v15 : V26 (Proc.devRef .tc main_v15) = Read.val_main_v15 (F := F) := (hne main_v15 (by decide)).trans h_main_v15
  clear hy hne h_main_c_2 V25
  refine step_binary h_main_v10 h_main_v16 (fun V27 hy hne => ?_)
  have h_main_v17 : V27 (Proc.devRef .tc main_v17) = Read.val_main_v17 (F := F) := hy
  replace h_main_v9 : V27 (Proc.devRef .tc main_v9) = Read.val_main_v9 (F := F) x0 x1 := (hne main_v9 (by decide)).trans h_main_v9
  replace h_main_v10 : V27 (Proc.devRef .tc main_v10) = Read.val_main_v10 (F := F) := (hne main_v10 (by decide)).trans h_main_v10
  replace h_main_v15 : V27 (Proc.devRef .tc main_v15) = Read.val_main_v15 (F := F) := (hne main_v15 (by decide)).trans h_main_v15
  clear hy hne h_main_v16 V26
  refine step_nullary (fun V28 hy hne => ?_)
  have h_main_c_3 : V28 (Proc.devRef .tc main_c_3) = Read.val_main_c_3 (F := F) := hy
  replace h_main_v9 : V28 (Proc.devRef .tc main_v9) = Read.val_main_v9 (F := F) x0 x1 := (hne main_v9 (by decide)).trans h_main_v9
  replace h_main_v10 : V28 (Proc.devRef .tc main_v10) = Read.val_main_v10 (F := F) := (hne main_v10 (by decide)).trans h_main_v10
  replace h_main_v15 : V28 (Proc.devRef .tc main_v15) = Read.val_main_v15 (F := F) := (hne main_v15 (by decide)).trans h_main_v15
  replace h_main_v17 : V28 (Proc.devRef .tc main_v17) = Read.val_main_v17 (F := F) := (hne main_v17 (by decide)).trans h_main_v17
  clear hy hne V27
  refine step_unary h_main_c_3 (fun V29 hy hne => ?_)
  have h_main_v18 : V29 (Proc.devRef .tc main_v18) = Read.val_main_v18 (F := F) := hy
  replace h_main_v9 : V29 (Proc.devRef .tc main_v9) = Read.val_main_v9 (F := F) x0 x1 := (hne main_v9 (by decide)).trans h_main_v9
  replace h_main_v10 : V29 (Proc.devRef .tc main_v10) = Read.val_main_v10 (F := F) := (hne main_v10 (by decide)).trans h_main_v10
  replace h_main_v15 : V29 (Proc.devRef .tc main_v15) = Read.val_main_v15 (F := F) := (hne main_v15 (by decide)).trans h_main_v15
  replace h_main_v17 : V29 (Proc.devRef .tc main_v17) = Read.val_main_v17 (F := F) := (hne main_v17 (by decide)).trans h_main_v17
  clear hy hne h_main_c_3 V28
  refine step_binary h_main_v10 h_main_v18 (fun V30 hy hne => ?_)
  have h_main_v19 : V30 (Proc.devRef .tc main_v19) = Read.val_main_v19 (F := F) := hy
  replace h_main_v9 : V30 (Proc.devRef .tc main_v9) = Read.val_main_v9 (F := F) x0 x1 := (hne main_v9 (by decide)).trans h_main_v9
  replace h_main_v10 : V30 (Proc.devRef .tc main_v10) = Read.val_main_v10 (F := F) := (hne main_v10 (by decide)).trans h_main_v10
  replace h_main_v15 : V30 (Proc.devRef .tc main_v15) = Read.val_main_v15 (F := F) := (hne main_v15 (by decide)).trans h_main_v15
  replace h_main_v17 : V30 (Proc.devRef .tc main_v17) = Read.val_main_v17 (F := F) := (hne main_v17 (by decide)).trans h_main_v17
  clear hy hne h_main_v18 V29
  refine step_ternary h_main_v17 h_main_v19 h_main_v10 (fun V31 hy hne => ?_)
  have h_main_v20 : V31 (Proc.devRef .tc main_v20) = Read.val_main_v20 (F := F) := hy
  replace h_main_v9 : V31 (Proc.devRef .tc main_v9) = Read.val_main_v9 (F := F) x0 x1 := (hne main_v9 (by decide)).trans h_main_v9
  replace h_main_v10 : V31 (Proc.devRef .tc main_v10) = Read.val_main_v10 (F := F) := (hne main_v10 (by decide)).trans h_main_v10
  replace h_main_v15 : V31 (Proc.devRef .tc main_v15) = Read.val_main_v15 (F := F) := (hne main_v15 (by decide)).trans h_main_v15
  clear hy hne h_main_v17 h_main_v19 V30
  refine step_unary h_main_v15 (fun V32 hy hne => ?_)
  have h_main_v21 : V32 (Proc.devRef .tc main_v21) = Read.val_main_v21 (F := F) := hy
  replace h_main_v9 : V32 (Proc.devRef .tc main_v9) = Read.val_main_v9 (F := F) x0 x1 := (hne main_v9 (by decide)).trans h_main_v9
  replace h_main_v10 : V32 (Proc.devRef .tc main_v10) = Read.val_main_v10 (F := F) := (hne main_v10 (by decide)).trans h_main_v10
  replace h_main_v20 : V32 (Proc.devRef .tc main_v20) = Read.val_main_v20 (F := F) := (hne main_v20 (by decide)).trans h_main_v20
  clear hy hne h_main_v15 V31
  refine step_unary h_main_v20 (fun V33 hy hne => ?_)
  have h_main_v22 : V33 (Proc.devRef .tc main_v22) = Read.val_main_v22 (F := F) := hy
  replace h_main_v9 : V33 (Proc.devRef .tc main_v9) = Read.val_main_v9 (F := F) x0 x1 := (hne main_v9 (by decide)).trans h_main_v9
  replace h_main_v10 : V33 (Proc.devRef .tc main_v10) = Read.val_main_v10 (F := F) := (hne main_v10 (by decide)).trans h_main_v10
  replace h_main_v21 : V33 (Proc.devRef .tc main_v21) = Read.val_main_v21 (F := F) := (hne main_v21 (by decide)).trans h_main_v21
  clear hy hne h_main_v20 V32
  refine step_binary h_main_v21 h_main_v22 (fun V34 hy hne => ?_)
  have h_main_v23 : V34 (Proc.devRef .tc main_v23) = Read.val_main_v23 (F := F) := hy
  replace h_main_v9 : V34 (Proc.devRef .tc main_v9) = Read.val_main_v9 (F := F) x0 x1 := (hne main_v9 (by decide)).trans h_main_v9
  replace h_main_v10 : V34 (Proc.devRef .tc main_v10) = Read.val_main_v10 (F := F) := (hne main_v10 (by decide)).trans h_main_v10
  clear hy hne h_main_v21 h_main_v22 V33
  refine step_nullary (fun V35 hy hne => ?_)
  have h_main_cst_4 : V35 (Proc.devRef .tc main_cst_4) = Read.val_main_cst_4 (F := F) := hy
  replace h_main_v9 : V35 (Proc.devRef .tc main_v9) = Read.val_main_v9 (F := F) x0 x1 := (hne main_v9 (by decide)).trans h_main_v9
  replace h_main_v10 : V35 (Proc.devRef .tc main_v10) = Read.val_main_v10 (F := F) := (hne main_v10 (by decide)).trans h_main_v10
  replace h_main_v23 : V35 (Proc.devRef .tc main_v23) = Read.val_main_v23 (F := F) := (hne main_v23 (by decide)).trans h_main_v23
  clear hy hne V34
  refine step_unary h_main_cst_4 (fun V36 hy hne => ?_)
  have h_main_v24 : V36 (Proc.devRef .tc main_v24) = Read.val_main_v24 (F := F) := hy
  replace h_main_v9 : V36 (Proc.devRef .tc main_v9) = Read.val_main_v9 (F := F) x0 x1 := (hne main_v9 (by decide)).trans h_main_v9
  replace h_main_v10 : V36 (Proc.devRef .tc main_v10) = Read.val_main_v10 (F := F) := (hne main_v10 (by decide)).trans h_main_v10
  replace h_main_v23 : V36 (Proc.devRef .tc main_v23) = Read.val_main_v23 (F := F) := (hne main_v23 (by decide)).trans h_main_v23
  clear hy hne h_main_cst_4 V35
  refine step_ternary h_main_v9 h_main_v23 h_main_v24 (fun V37 hy hne => ?_)
  have h_main_v25 : V37 (Proc.devRef .tc main_v25) = Read.val_main_v25 (F := F) x0 x1 := hy
  replace h_main_v10 : V37 (Proc.devRef .tc main_v10) = Read.val_main_v10 (F := F) := (hne main_v10 (by decide)).trans h_main_v10
  clear hy hne h_main_v9 h_main_v23 h_main_v24 V36
  refine step_nullary (fun V38 hy hne => ?_)
  have h_main_v26 : V38 (Proc.devRef .tc main_v26) = Read.val_main_v26 (F := F) := hy
  replace h_main_v10 : V38 (Proc.devRef .tc main_v10) = Read.val_main_v10 (F := F) := (hne main_v10 (by decide)).trans h_main_v10
  replace h_main_v25 : V38 (Proc.devRef .tc main_v25) = Read.val_main_v25 (F := F) x0 x1 := (hne main_v25 (by decide)).trans h_main_v25
  clear hy hne V37
  refine step_nullary (fun V39 hy hne => ?_)
  have h_main_c_5 : V39 (Proc.devRef .tc main_c_5) = Read.val_main_c_5 (F := F) := hy
  replace h_main_v10 : V39 (Proc.devRef .tc main_v10) = Read.val_main_v10 (F := F) := (hne main_v10 (by decide)).trans h_main_v10
  replace h_main_v25 : V39 (Proc.devRef .tc main_v25) = Read.val_main_v25 (F := F) x0 x1 := (hne main_v25 (by decide)).trans h_main_v25
  replace h_main_v26 : V39 (Proc.devRef .tc main_v26) = Read.val_main_v26 (F := F) := (hne main_v26 (by decide)).trans h_main_v26
  clear hy hne V38
  refine step_unary h_main_c_5 (fun V40 hy hne => ?_)
  have h_main_v27 : V40 (Proc.devRef .tc main_v27) = Read.val_main_v27 (F := F) := hy
  replace h_main_v10 : V40 (Proc.devRef .tc main_v10) = Read.val_main_v10 (F := F) := (hne main_v10 (by decide)).trans h_main_v10
  replace h_main_v25 : V40 (Proc.devRef .tc main_v25) = Read.val_main_v25 (F := F) x0 x1 := (hne main_v25 (by decide)).trans h_main_v25
  replace h_main_v26 : V40 (Proc.devRef .tc main_v26) = Read.val_main_v26 (F := F) := (hne main_v26 (by decide)).trans h_main_v26
  clear hy hne h_main_c_5 V39
  refine step_binary h_main_v26 h_main_v27 (fun V41 hy hne => ?_)
  have h_main_v28 : V41 (Proc.devRef .tc main_v28) = Read.val_main_v28 (F := F) := hy
  replace h_main_v10 : V41 (Proc.devRef .tc main_v10) = Read.val_main_v10 (F := F) := (hne main_v10 (by decide)).trans h_main_v10
  replace h_main_v25 : V41 (Proc.devRef .tc main_v25) = Read.val_main_v25 (F := F) x0 x1 := (hne main_v25 (by decide)).trans h_main_v25
  clear hy hne h_main_v26 h_main_v27 V40
  refine step_nullary (fun V42 hy hne => ?_)
  have h_main_v29 : V42 (Proc.devRef .tc main_v29) = Read.val_main_v29 (F := F) := hy
  replace h_main_v10 : V42 (Proc.devRef .tc main_v10) = Read.val_main_v10 (F := F) := (hne main_v10 (by decide)).trans h_main_v10
  replace h_main_v25 : V42 (Proc.devRef .tc main_v25) = Read.val_main_v25 (F := F) x0 x1 := (hne main_v25 (by decide)).trans h_main_v25
  replace h_main_v28 : V42 (Proc.devRef .tc main_v28) = Read.val_main_v28 (F := F) := (hne main_v28 (by decide)).trans h_main_v28
  clear hy hne V41
  refine step_binary h_main_v28 h_main_v29 (fun V43 hy hne => ?_)
  have h_main_v30 : V43 (Proc.devRef .tc main_v30) = Read.val_main_v30 (F := F) := hy
  replace h_main_v10 : V43 (Proc.devRef .tc main_v10) = Read.val_main_v10 (F := F) := (hne main_v10 (by decide)).trans h_main_v10
  replace h_main_v25 : V43 (Proc.devRef .tc main_v25) = Read.val_main_v25 (F := F) x0 x1 := (hne main_v25 (by decide)).trans h_main_v25
  clear hy hne h_main_v28 h_main_v29 V42
  refine step_tnullary (fun V44 hy hne => ?_)
  have h_main_call1_cst : V44 (Proc.devRef .tc main_call1_cst) = Read.val_main_call1_cst (F := F) := hy
  replace h_main_v10 : V44 (Proc.devRef .tc main_v10) = Read.val_main_v10 (F := F) := (hne main_v10 (by decide)).trans h_main_v10
  replace h_main_v25 : V44 (Proc.devRef .tc main_v25) = Read.val_main_v25 (F := F) x0 x1 := (hne main_v25 (by decide)).trans h_main_v25
  replace h_main_v30 : V44 (Proc.devRef .tc main_v30) = Read.val_main_v30 (F := F) := (hne main_v30 (by decide)).trans h_main_v30
  clear hy hne V43
  refine step_tbinary (va := Read.val_main_v25 (F := F) x0 x1) (vb := Read.val_main_call1_cst (F := F)) ?_ ?_ (fun V45 hy hne => ?_)
  · exact h_main_v25
  · exact h_main_call1_cst
  have h_main_call1_v0 : V45 (Proc.devRef .tc main_call1_v0) = Read.val_main_call1_v0 (F := F) x0 x1 := hy
  replace h_main_v10 : V45 (Proc.devRef .tc main_v10) = Read.val_main_v10 (F := F) := (hne main_v10 (by decide)).trans h_main_v10
  replace h_main_v25 : V45 (Proc.devRef .tc main_v25) = Read.val_main_v25 (F := F) x0 x1 := (hne main_v25 (by decide)).trans h_main_v25
  replace h_main_v30 : V45 (Proc.devRef .tc main_v30) = Read.val_main_v30 (F := F) := (hne main_v30 (by decide)).trans h_main_v30
  clear hy hne h_main_call1_cst V44
  refine step_tnullary (fun V46 hy hne => ?_)
  have h_main_call1_cst_0 : V46 (Proc.devRef .tc main_call1_cst_0) = Read.val_main_call1_cst_0 (F := F) := hy
  replace h_main_v10 : V46 (Proc.devRef .tc main_v10) = Read.val_main_v10 (F := F) := (hne main_v10 (by decide)).trans h_main_v10
  replace h_main_v25 : V46 (Proc.devRef .tc main_v25) = Read.val_main_v25 (F := F) x0 x1 := (hne main_v25 (by decide)).trans h_main_v25
  replace h_main_v30 : V46 (Proc.devRef .tc main_v30) = Read.val_main_v30 (F := F) := (hne main_v30 (by decide)).trans h_main_v30
  replace h_main_call1_v0 : V46 (Proc.devRef .tc main_call1_v0) = Read.val_main_call1_v0 (F := F) x0 x1 := (hne main_call1_v0 (by decide)).trans h_main_call1_v0
  clear hy hne V45
  refine step_tunary (vx := Read.val_main_call1_cst_0 (F := F)) ?_ (fun V47 hy hne => ?_)
  · exact h_main_call1_cst_0
  have h_main_call1_v1 : V47 (Proc.devRef .tc main_call1_v1) = Read.val_main_call1_v1 (F := F) := hy
  replace h_main_v10 : V47 (Proc.devRef .tc main_v10) = Read.val_main_v10 (F := F) := (hne main_v10 (by decide)).trans h_main_v10
  replace h_main_v25 : V47 (Proc.devRef .tc main_v25) = Read.val_main_v25 (F := F) x0 x1 := (hne main_v25 (by decide)).trans h_main_v25
  replace h_main_v30 : V47 (Proc.devRef .tc main_v30) = Read.val_main_v30 (F := F) := (hne main_v30 (by decide)).trans h_main_v30
  replace h_main_call1_v0 : V47 (Proc.devRef .tc main_call1_v0) = Read.val_main_call1_v0 (F := F) x0 x1 := (hne main_call1_v0 (by decide)).trans h_main_call1_v0
  clear hy hne h_main_call1_cst_0 V46
  refine step_tbinary (va := Read.val_main_call1_v1 (F := F)) (vb := Read.val_main_call1_v0 (F := F) x0 x1) ?_ ?_ (fun V48 hy hne => ?_)
  · exact h_main_call1_v1
  · exact h_main_call1_v0
  have h_main_call1_v2 : V48 (Proc.devRef .tc main_call1_v2) = Read.val_main_call1_v2 (F := F) x0 x1 := hy
  replace h_main_v10 : V48 (Proc.devRef .tc main_v10) = Read.val_main_v10 (F := F) := (hne main_v10 (by decide)).trans h_main_v10
  replace h_main_v25 : V48 (Proc.devRef .tc main_v25) = Read.val_main_v25 (F := F) x0 x1 := (hne main_v25 (by decide)).trans h_main_v25
  replace h_main_v30 : V48 (Proc.devRef .tc main_v30) = Read.val_main_v30 (F := F) := (hne main_v30 (by decide)).trans h_main_v30
  clear hy hne h_main_call1_v0 h_main_call1_v1 V47
  refine step_tunary (vx := Read.val_main_call1_v2 (F := F) x0 x1) ?_ (fun V49 hy hne => ?_)
  · exact h_main_call1_v2
  have h_main_call1_v3 : V49 (Proc.devRef .tc main_call1_v3) = Read.val_main_call1_v3 (F := F) x0 x1 := hy
  replace h_main_v10 : V49 (Proc.devRef .tc main_v10) = Read.val_main_v10 (F := F) := (hne main_v10 (by decide)).trans h_main_v10
  replace h_main_v25 : V49 (Proc.devRef .tc main_v25) = Read.val_main_v25 (F := F) x0 x1 := (hne main_v25 (by decide)).trans h_main_v25
  replace h_main_v30 : V49 (Proc.devRef .tc main_v30) = Read.val_main_v30 (F := F) := (hne main_v30 (by decide)).trans h_main_v30
  clear hy hne h_main_call1_v2 V48
  refine step_tunary (vx := Read.val_main_call1_v3 (F := F) x0 x1) ?_ (fun V50 hy hne => ?_)
  · exact h_main_call1_v3
  have h_main_call1_v4 : V50 (Proc.devRef .tc main_call1_v4) = Read.val_main_call1_v4 (F := F) x0 x1 := hy
  replace h_main_v10 : V50 (Proc.devRef .tc main_v10) = Read.val_main_v10 (F := F) := (hne main_v10 (by decide)).trans h_main_v10
  replace h_main_v25 : V50 (Proc.devRef .tc main_v25) = Read.val_main_v25 (F := F) x0 x1 := (hne main_v25 (by decide)).trans h_main_v25
  replace h_main_v30 : V50 (Proc.devRef .tc main_v30) = Read.val_main_v30 (F := F) := (hne main_v30 (by decide)).trans h_main_v30
  clear hy hne h_main_call1_v3 V49
  refine step_tbinary (va := Read.val_main_v25 (F := F) x0 x1) (vb := Read.val_main_call1_v4 (F := F) x0 x1) ?_ ?_ (fun V51 hy hne => ?_)
  · exact h_main_v25
  · exact h_main_call1_v4
  have h_main_call1_v5 : V51 (Proc.devRef .tc main_call1_v5) = Read.val_main_call1_v5 (F := F) x0 x1 := hy
  replace h_main_v10 : V51 (Proc.devRef .tc main_v10) = Read.val_main_v10 (F := F) := (hne main_v10 (by decide)).trans h_main_v10
  replace h_main_v30 : V51 (Proc.devRef .tc main_v30) = Read.val_main_v30 (F := F) := (hne main_v30 (by decide)).trans h_main_v30
  clear hy hne h_main_v25 h_main_call1_v4 V50
  refine step_tunary (vx := Read.val_main_call1_v5 (F := F) x0 x1) ?_ (fun V52 hy hne => ?_)
  · exact h_main_call1_v5
  have h_main_call1_v6 : V52 (Proc.devRef .tc main_call1_v6) = Read.val_main_call1_v6 (F := F) x0 x1 := hy
  replace h_main_v10 : V52 (Proc.devRef .tc main_v10) = Read.val_main_v10 (F := F) := (hne main_v10 (by decide)).trans h_main_v10
  replace h_main_v30 : V52 (Proc.devRef .tc main_v30) = Read.val_main_v30 (F := F) := (hne main_v30 (by decide)).trans h_main_v30
  replace h_main_call1_v5 : V52 (Proc.devRef .tc main_call1_v5) = Read.val_main_call1_v5 (F := F) x0 x1 := (hne main_call1_v5 (by decide)).trans h_main_call1_v5
  clear hy hne V51
  refine step_tnullary (fun V53 hy hne => ?_)
  have h_main_call1_cst_1 : V53 (Proc.devRef .tc main_call1_cst_1) = Read.val_main_call1_cst_1 (F := F) := hy
  replace h_main_v10 : V53 (Proc.devRef .tc main_v10) = Read.val_main_v10 (F := F) := (hne main_v10 (by decide)).trans h_main_v10
  replace h_main_v30 : V53 (Proc.devRef .tc main_v30) = Read.val_main_v30 (F := F) := (hne main_v30 (by decide)).trans h_main_v30
  replace h_main_call1_v5 : V53 (Proc.devRef .tc main_call1_v5) = Read.val_main_call1_v5 (F := F) x0 x1 := (hne main_call1_v5 (by decide)).trans h_main_call1_v5
  replace h_main_call1_v6 : V53 (Proc.devRef .tc main_call1_v6) = Read.val_main_call1_v6 (F := F) x0 x1 := (hne main_call1_v6 (by decide)).trans h_main_call1_v6
  clear hy hne V52
  refine step_tbinary (va := Read.val_main_call1_v6 (F := F) x0 x1) (vb := Read.val_main_call1_cst_1 (F := F)) ?_ ?_ (fun V54 hy hne => ?_)
  · exact h_main_call1_v6
  · exact h_main_call1_cst_1
  have h_main_call1_v7 : V54 (Proc.devRef .tc main_call1_v7) = Read.val_main_call1_v7 (F := F) x0 x1 := hy
  replace h_main_v10 : V54 (Proc.devRef .tc main_v10) = Read.val_main_v10 (F := F) := (hne main_v10 (by decide)).trans h_main_v10
  replace h_main_v30 : V54 (Proc.devRef .tc main_v30) = Read.val_main_v30 (F := F) := (hne main_v30 (by decide)).trans h_main_v30
  replace h_main_call1_v5 : V54 (Proc.devRef .tc main_call1_v5) = Read.val_main_call1_v5 (F := F) x0 x1 := (hne main_call1_v5 (by decide)).trans h_main_call1_v5
  clear hy hne h_main_call1_v6 h_main_call1_cst_1 V53
  refine step_tunary (vx := Read.val_main_call1_v7 (F := F) x0 x1) ?_ (fun V55 hy hne => ?_)
  · exact h_main_call1_v7
  have h_main_call1_v8 : V55 (Proc.devRef .tc main_call1_v8) = Read.val_main_call1_v8 (F := F) x0 x1 := hy
  replace h_main_v10 : V55 (Proc.devRef .tc main_v10) = Read.val_main_v10 (F := F) := (hne main_v10 (by decide)).trans h_main_v10
  replace h_main_v30 : V55 (Proc.devRef .tc main_v30) = Read.val_main_v30 (F := F) := (hne main_v30 (by decide)).trans h_main_v30
  replace h_main_call1_v5 : V55 (Proc.devRef .tc main_call1_v5) = Read.val_main_call1_v5 (F := F) x0 x1 := (hne main_call1_v5 (by decide)).trans h_main_call1_v5
  clear hy hne h_main_call1_v7 V54
  refine step_tunary (vx := Read.val_main_call1_v8 (F := F) x0 x1) ?_ (fun V56 hy hne => ?_)
  · exact h_main_call1_v8
  have h_main_call1_v9 : V56 (Proc.devRef .tc main_call1_v9) = Read.val_main_call1_v9 (F := F) x0 x1 := hy
  replace h_main_v10 : V56 (Proc.devRef .tc main_v10) = Read.val_main_v10 (F := F) := (hne main_v10 (by decide)).trans h_main_v10
  replace h_main_v30 : V56 (Proc.devRef .tc main_v30) = Read.val_main_v30 (F := F) := (hne main_v30 (by decide)).trans h_main_v30
  replace h_main_call1_v5 : V56 (Proc.devRef .tc main_call1_v5) = Read.val_main_call1_v5 (F := F) x0 x1 := (hne main_call1_v5 (by decide)).trans h_main_call1_v5
  clear hy hne h_main_call1_v8 V55
  refine step_tunary (vx := Read.val_main_call1_v9 (F := F) x0 x1) ?_ (fun V57 hy hne => ?_)
  · exact h_main_call1_v9
  have h_main_call1_v10 : V57 (Proc.devRef .tc main_call1_v10) = Read.val_main_call1_v10 (F := F) x0 x1 := hy
  replace h_main_v10 : V57 (Proc.devRef .tc main_v10) = Read.val_main_v10 (F := F) := (hne main_v10 (by decide)).trans h_main_v10
  replace h_main_v30 : V57 (Proc.devRef .tc main_v30) = Read.val_main_v30 (F := F) := (hne main_v30 (by decide)).trans h_main_v30
  replace h_main_call1_v5 : V57 (Proc.devRef .tc main_call1_v5) = Read.val_main_call1_v5 (F := F) x0 x1 := (hne main_call1_v5 (by decide)).trans h_main_call1_v5
  clear hy hne h_main_call1_v9 V56
  refine step_tbinary (va := Read.val_main_call1_v5 (F := F) x0 x1) (vb := Read.val_main_call1_v10 (F := F) x0 x1) ?_ ?_ (fun V58 hy hne => ?_)
  · exact h_main_call1_v5
  · exact h_main_call1_v10
  have h_main_v31 : V58 (Proc.devRef .tc main_v31) = Read.val_main_v31 (F := F) x0 x1 := hy
  replace h_main_v10 : V58 (Proc.devRef .tc main_v10) = Read.val_main_v10 (F := F) := (hne main_v10 (by decide)).trans h_main_v10
  replace h_main_v30 : V58 (Proc.devRef .tc main_v30) = Read.val_main_v30 (F := F) := (hne main_v30 (by decide)).trans h_main_v30
  clear hy hne h_main_call1_v5 h_main_call1_v10 V57
  refine step_nullary (fun V59 hy hne => ?_)
  have h_main_c_6 : V59 (Proc.devRef .tc main_c_6) = Read.val_main_c_6 (F := F) := hy
  replace h_main_v10 : V59 (Proc.devRef .tc main_v10) = Read.val_main_v10 (F := F) := (hne main_v10 (by decide)).trans h_main_v10
  replace h_main_v30 : V59 (Proc.devRef .tc main_v30) = Read.val_main_v30 (F := F) := (hne main_v30 (by decide)).trans h_main_v30
  replace h_main_v31 : V59 (Proc.devRef .tc main_v31) = Read.val_main_v31 (F := F) x0 x1 := (hne main_v31 (by decide)).trans h_main_v31
  clear hy hne V58
  refine step_unary h_main_c_6 (fun V60 hy hne => ?_)
  have h_main_v32 : V60 (Proc.devRef .tc main_v32) = Read.val_main_v32 (F := F) := hy
  replace h_main_v10 : V60 (Proc.devRef .tc main_v10) = Read.val_main_v10 (F := F) := (hne main_v10 (by decide)).trans h_main_v10
  replace h_main_v30 : V60 (Proc.devRef .tc main_v30) = Read.val_main_v30 (F := F) := (hne main_v30 (by decide)).trans h_main_v30
  replace h_main_v31 : V60 (Proc.devRef .tc main_v31) = Read.val_main_v31 (F := F) x0 x1 := (hne main_v31 (by decide)).trans h_main_v31
  clear hy hne h_main_c_6 V59
  refine step_binary h_main_v10 h_main_v32 (fun V61 hy hne => ?_)
  have h_main_v33 : V61 (Proc.devRef .tc main_v33) = Read.val_main_v33 (F := F) := hy
  replace h_main_v10 : V61 (Proc.devRef .tc main_v10) = Read.val_main_v10 (F := F) := (hne main_v10 (by decide)).trans h_main_v10
  replace h_main_v30 : V61 (Proc.devRef .tc main_v30) = Read.val_main_v30 (F := F) := (hne main_v30 (by decide)).trans h_main_v30
  replace h_main_v31 : V61 (Proc.devRef .tc main_v31) = Read.val_main_v31 (F := F) x0 x1 := (hne main_v31 (by decide)).trans h_main_v31
  clear hy hne h_main_v32 V60
  refine step_nullary (fun V62 hy hne => ?_)
  have h_main_c_7 : V62 (Proc.devRef .tc main_c_7) = Read.val_main_c_7 (F := F) := hy
  replace h_main_v10 : V62 (Proc.devRef .tc main_v10) = Read.val_main_v10 (F := F) := (hne main_v10 (by decide)).trans h_main_v10
  replace h_main_v30 : V62 (Proc.devRef .tc main_v30) = Read.val_main_v30 (F := F) := (hne main_v30 (by decide)).trans h_main_v30
  replace h_main_v31 : V62 (Proc.devRef .tc main_v31) = Read.val_main_v31 (F := F) x0 x1 := (hne main_v31 (by decide)).trans h_main_v31
  replace h_main_v33 : V62 (Proc.devRef .tc main_v33) = Read.val_main_v33 (F := F) := (hne main_v33 (by decide)).trans h_main_v33
  clear hy hne V61
  refine step_unary h_main_c_7 (fun V63 hy hne => ?_)
  have h_main_v34 : V63 (Proc.devRef .tc main_v34) = Read.val_main_v34 (F := F) := hy
  replace h_main_v10 : V63 (Proc.devRef .tc main_v10) = Read.val_main_v10 (F := F) := (hne main_v10 (by decide)).trans h_main_v10
  replace h_main_v30 : V63 (Proc.devRef .tc main_v30) = Read.val_main_v30 (F := F) := (hne main_v30 (by decide)).trans h_main_v30
  replace h_main_v31 : V63 (Proc.devRef .tc main_v31) = Read.val_main_v31 (F := F) x0 x1 := (hne main_v31 (by decide)).trans h_main_v31
  replace h_main_v33 : V63 (Proc.devRef .tc main_v33) = Read.val_main_v33 (F := F) := (hne main_v33 (by decide)).trans h_main_v33
  clear hy hne h_main_c_7 V62
  refine step_binary h_main_v10 h_main_v34 (fun V64 hy hne => ?_)
  have h_main_v35 : V64 (Proc.devRef .tc main_v35) = Read.val_main_v35 (F := F) := hy
  replace h_main_v10 : V64 (Proc.devRef .tc main_v10) = Read.val_main_v10 (F := F) := (hne main_v10 (by decide)).trans h_main_v10
  replace h_main_v30 : V64 (Proc.devRef .tc main_v30) = Read.val_main_v30 (F := F) := (hne main_v30 (by decide)).trans h_main_v30
  replace h_main_v31 : V64 (Proc.devRef .tc main_v31) = Read.val_main_v31 (F := F) x0 x1 := (hne main_v31 (by decide)).trans h_main_v31
  replace h_main_v33 : V64 (Proc.devRef .tc main_v33) = Read.val_main_v33 (F := F) := (hne main_v33 (by decide)).trans h_main_v33
  clear hy hne h_main_v34 V63
  refine step_ternary h_main_v33 h_main_v35 h_main_v10 (fun V65 hy hne => ?_)
  have h_main_v36 : V65 (Proc.devRef .tc main_v36) = Read.val_main_v36 (F := F) := hy
  replace h_main_v30 : V65 (Proc.devRef .tc main_v30) = Read.val_main_v30 (F := F) := (hne main_v30 (by decide)).trans h_main_v30
  replace h_main_v31 : V65 (Proc.devRef .tc main_v31) = Read.val_main_v31 (F := F) x0 x1 := (hne main_v31 (by decide)).trans h_main_v31
  clear hy hne h_main_v10 h_main_v33 h_main_v35 V64
  refine step_nullary (fun V66 hy hne => ?_)
  have h_main_c_8 : V66 (Proc.devRef .tc main_c_8) = Read.val_main_c_8 (F := F) := hy
  replace h_main_v30 : V66 (Proc.devRef .tc main_v30) = Read.val_main_v30 (F := F) := (hne main_v30 (by decide)).trans h_main_v30
  replace h_main_v31 : V66 (Proc.devRef .tc main_v31) = Read.val_main_v31 (F := F) x0 x1 := (hne main_v31 (by decide)).trans h_main_v31
  replace h_main_v36 : V66 (Proc.devRef .tc main_v36) = Read.val_main_v36 (F := F) := (hne main_v36 (by decide)).trans h_main_v36
  clear hy hne V65
  refine step_unary h_main_c_8 (fun V67 hy hne => ?_)
  have h_main_v37 : V67 (Proc.devRef .tc main_v37) = Read.val_main_v37 (F := F) := hy
  replace h_main_v30 : V67 (Proc.devRef .tc main_v30) = Read.val_main_v30 (F := F) := (hne main_v30 (by decide)).trans h_main_v30
  replace h_main_v31 : V67 (Proc.devRef .tc main_v31) = Read.val_main_v31 (F := F) x0 x1 := (hne main_v31 (by decide)).trans h_main_v31
  replace h_main_v36 : V67 (Proc.devRef .tc main_v36) = Read.val_main_v36 (F := F) := (hne main_v36 (by decide)).trans h_main_v36
  clear hy hne h_main_c_8 V66
  refine step_binary h_main_v30 h_main_v37 (fun V68 hy hne => ?_)
  have h_main_v38 : V68 (Proc.devRef .tc main_v38) = Read.val_main_v38 (F := F) := hy
  replace h_main_v30 : V68 (Proc.devRef .tc main_v30) = Read.val_main_v30 (F := F) := (hne main_v30 (by decide)).trans h_main_v30
  replace h_main_v31 : V68 (Proc.devRef .tc main_v31) = Read.val_main_v31 (F := F) x0 x1 := (hne main_v31 (by decide)).trans h_main_v31
  replace h_main_v36 : V68 (Proc.devRef .tc main_v36) = Read.val_main_v36 (F := F) := (hne main_v36 (by decide)).trans h_main_v36
  clear hy hne h_main_v37 V67
  refine step_nullary (fun V69 hy hne => ?_)
  have h_main_c_9 : V69 (Proc.devRef .tc main_c_9) = Read.val_main_c_9 (F := F) := hy
  replace h_main_v30 : V69 (Proc.devRef .tc main_v30) = Read.val_main_v30 (F := F) := (hne main_v30 (by decide)).trans h_main_v30
  replace h_main_v31 : V69 (Proc.devRef .tc main_v31) = Read.val_main_v31 (F := F) x0 x1 := (hne main_v31 (by decide)).trans h_main_v31
  replace h_main_v36 : V69 (Proc.devRef .tc main_v36) = Read.val_main_v36 (F := F) := (hne main_v36 (by decide)).trans h_main_v36
  replace h_main_v38 : V69 (Proc.devRef .tc main_v38) = Read.val_main_v38 (F := F) := (hne main_v38 (by decide)).trans h_main_v38
  clear hy hne V68
  refine step_unary h_main_c_9 (fun V70 hy hne => ?_)
  have h_main_v39 : V70 (Proc.devRef .tc main_v39) = Read.val_main_v39 (F := F) := hy
  replace h_main_v30 : V70 (Proc.devRef .tc main_v30) = Read.val_main_v30 (F := F) := (hne main_v30 (by decide)).trans h_main_v30
  replace h_main_v31 : V70 (Proc.devRef .tc main_v31) = Read.val_main_v31 (F := F) x0 x1 := (hne main_v31 (by decide)).trans h_main_v31
  replace h_main_v36 : V70 (Proc.devRef .tc main_v36) = Read.val_main_v36 (F := F) := (hne main_v36 (by decide)).trans h_main_v36
  replace h_main_v38 : V70 (Proc.devRef .tc main_v38) = Read.val_main_v38 (F := F) := (hne main_v38 (by decide)).trans h_main_v38
  clear hy hne h_main_c_9 V69
  refine step_binary h_main_v30 h_main_v39 (fun V71 hy hne => ?_)
  have h_main_v40 : V71 (Proc.devRef .tc main_v40) = Read.val_main_v40 (F := F) := hy
  replace h_main_v30 : V71 (Proc.devRef .tc main_v30) = Read.val_main_v30 (F := F) := (hne main_v30 (by decide)).trans h_main_v30
  replace h_main_v31 : V71 (Proc.devRef .tc main_v31) = Read.val_main_v31 (F := F) x0 x1 := (hne main_v31 (by decide)).trans h_main_v31
  replace h_main_v36 : V71 (Proc.devRef .tc main_v36) = Read.val_main_v36 (F := F) := (hne main_v36 (by decide)).trans h_main_v36
  replace h_main_v38 : V71 (Proc.devRef .tc main_v38) = Read.val_main_v38 (F := F) := (hne main_v38 (by decide)).trans h_main_v38
  clear hy hne h_main_v39 V70
  refine step_ternary h_main_v38 h_main_v40 h_main_v30 (fun V72 hy hne => ?_)
  have h_main_v41 : V72 (Proc.devRef .tc main_v41) = Read.val_main_v41 (F := F) := hy
  replace h_main_v31 : V72 (Proc.devRef .tc main_v31) = Read.val_main_v31 (F := F) x0 x1 := (hne main_v31 (by decide)).trans h_main_v31
  replace h_main_v36 : V72 (Proc.devRef .tc main_v36) = Read.val_main_v36 (F := F) := (hne main_v36 (by decide)).trans h_main_v36
  clear hy hne h_main_v30 h_main_v38 h_main_v40 V71
  refine step_unary h_main_v36 (fun V73 hy hne => ?_)
  have h_main_v42 : V73 (Proc.devRef .tc main_v42) = Read.val_main_v42 (F := F) := hy
  replace h_main_v31 : V73 (Proc.devRef .tc main_v31) = Read.val_main_v31 (F := F) x0 x1 := (hne main_v31 (by decide)).trans h_main_v31
  replace h_main_v41 : V73 (Proc.devRef .tc main_v41) = Read.val_main_v41 (F := F) := (hne main_v41 (by decide)).trans h_main_v41
  clear hy hne h_main_v36 V72
  refine step_unary h_main_v41 (fun V74 hy hne => ?_)
  have h_main_v43 : V74 (Proc.devRef .tc main_v43) = Read.val_main_v43 (F := F) := hy
  replace h_main_v31 : V74 (Proc.devRef .tc main_v31) = Read.val_main_v31 (F := F) x0 x1 := (hne main_v31 (by decide)).trans h_main_v31
  replace h_main_v42 : V74 (Proc.devRef .tc main_v42) = Read.val_main_v42 (F := F) := (hne main_v42 (by decide)).trans h_main_v42
  clear hy hne h_main_v41 V73
  refine step_binary h_main_v42 h_main_v43 (fun V75 hy hne => ?_)
  have h_main_v44 : V75 (Proc.devRef .tc main_v44) = Read.val_main_v44 (F := F) := hy
  replace h_main_v31 : V75 (Proc.devRef .tc main_v31) = Read.val_main_v31 (F := F) x0 x1 := (hne main_v31 (by decide)).trans h_main_v31
  clear hy hne h_main_v42 h_main_v43 V74
  refine step_binary h_main_v31 h_main_v44 (fun V76 hy hne => ?_)
  have h_main_v45 : V76 (Proc.devRef .tc main_v45) = Read.val_main_v45 (F := F) x0 x1 := hy
  clear hy hne h_main_v31 h_main_v44 V75
  refine step_nullary (fun V77 hy hne => ?_)
  have h_main_cst_10 : V77 (Proc.devRef .tc main_cst_10) = Read.val_main_cst_10 (F := F) := hy
  replace h_main_v45 : V77 (Proc.devRef .tc main_v45) = Read.val_main_v45 (F := F) x0 x1 := (hne main_v45 (by decide)).trans h_main_v45
  clear hy hne V76
  refine step_binary h_main_v45 h_main_cst_10 (fun V78 hy hne => ?_)
  have h_main_v46 : V78 (Proc.devRef .tc main_v46) = Read.val_main_v46 (F := F) x0 x1 := hy
  clear hy hne h_main_v45 h_main_cst_10 V77
  refine step_nullary (fun V79 hy hne => ?_)
  have h_main_cst_11 : V79 (Proc.devRef .tc main_cst_11) = Read.val_main_cst_11 (F := F) := hy
  replace h_main_v46 : V79 (Proc.devRef .tc main_v46) = Read.val_main_v46 (F := F) x0 x1 := (hne main_v46 (by decide)).trans h_main_v46
  clear hy hne V78
  refine step_binary h_main_v46 h_main_cst_11 (fun V80 hy hne => ?_)
  have h_main_v47 : V80 (Proc.devRef .tc main_v47) = Read.val_main_v47 (F := F) x0 x1 := hy
  clear hy hne h_main_v46 h_main_cst_11 V79
  refine step_unary h_main_v47 (fun V81 hy hne => ?_)
  have h_main_v48 : V81 (Proc.devRef .tc main_v48) = Read.val_main_v48 (F := F) x0 x1 := hy
  clear hy hne h_main_v47 V80
  exact h_main_v48

/-! ## No operation writes an argument -/

set_option maxRecDepth 131072 in
set_option maxHeartbeats 4000000 in
/-- The first argument's buffer is written by none of the operations. -/
theorem after_arg0 (V : Valuation τ sig (Elt F)) :
    StableHlo.after (ops (F := F)) V (Proc.devRef .tc main_arg0) = V (Proc.devRef .tc main_arg0) :=
  StableHlo.after_of_forall_not_mem (b := Proc.devRef .tc main_arg0) _ _ (List.forall_iff_forall_mem.mp (by
    simp only [ops, List.Forall, StableHlo.nullary_writes, StableHlo.unary_writes, StableHlo.binary_writes,
      StableHlo.ternary_writes, StableHlo.TRef.nullary, StableHlo.TRef.unary, StableHlo.TRef.binary,
      StableHlo.TRef.ternary, Finset.mem_singleton]
    repeat' apply And.intro
    all_goals exact StableHlo.devRef_ne_of_ne (by decide)))

set_option maxRecDepth 131072 in
set_option maxHeartbeats 4000000 in
/-- The second argument's buffer is written by none of the operations. -/
theorem after_arg1 (V : Valuation τ sig (Elt F)) :
    StableHlo.after (ops (F := F)) V (Proc.devRef .tc main_arg1) = V (Proc.devRef .tc main_arg1) :=
  StableHlo.after_of_forall_not_mem (b := Proc.devRef .tc main_arg1) _ _ (List.forall_iff_forall_mem.mp (by
    simp only [ops, List.Forall, StableHlo.nullary_writes, StableHlo.unary_writes, StableHlo.binary_writes,
      StableHlo.ternary_writes, StableHlo.TRef.nullary, StableHlo.TRef.unary, StableHlo.TRef.binary,
      StableHlo.TRef.ternary, Finset.mem_singleton]
    repeat' apply And.intro
    all_goals exact StableHlo.devRef_ne_of_ne (by decide)))

/-! ## The run -/

set_option maxRecDepth 131072 in
set_option maxHeartbeats 4000000 in
/-- Every weakly fair execution of the reference program terminates with its result buffer at the last stage's value of
    the two arguments' launch contents, the arguments as they were. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
          = Read.val_main_v48 (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨(h c main_v48).trans (after_ops (launchContents m c) _ _ rfl rfl),
        (h c main_arg0).trans (after_arg0 _), (h c main_arg1).trans (after_arg1 _)⟩)
    (run_seq scopedRefs_eq scopedSems_eq defs main (fun _ => ops) main_eq (fun _ => ops_sub) m ρ)

end Cert.ReferenceIdeal.RunS

end
-- ==== Proof.RefValue1.lean ====
/-
  The layout operations of the reference that are not read one element at a time by the generated module, each read
  at an index over VARIABLE operands: the fold that writes one value on the diagonal (the scatter at the index pairs
  (n, n)), the read at an index pair (the gather), and the words the index arrays hold.
-/
import proofs.«114769_j21852793602889_2_alg».proof.Proof.Gen.ReferenceIdeal
import Idealize.ShloMosaic.Lib.Pipeline.Value
import Idealize.ShloMosaic.Lib.ValueIdx

noncomputable section

namespace Cert.NTX

open Idealize.ShloMosaic Cert.ReferenceIdeal Cert.ReferenceIdeal.Gen ValueIdx

/-! ## Words -/

/-- A number below 2^31 written as a 32-bit word reads back, signed, as itself. -/
theorem toInt_ofNat_small (n : Nat) (h : n < 2147483648) : (BitVec.ofNat 32 n).toInt = (n : Int) := by
  rw [BitVec.toInt_eq_toNat_cond, BitVec.toNat_ofNat, Nat.mod_eq_of_lt (by omega)]
  rw [if_pos (by omega)]

/-- Such a word is not below zero in the signed order. -/
theorem slt_zero_small (n : Nat) (h : n < 2147483648) : IntOp.cmpi .slt (BitVec.ofNat 32 n) 0#32 = 0#1 := by
  have : (BitVec.ofNat 32 n).slt 0#32 = false := by
    rw [BitVec.slt, toInt_ofNat_small n h]
    simp
  unfold IntOp.cmpi
  simp only [this]
  rfl

/-- The wrap of a negative index (add the extent when the word is below zero) leaves such a word alone. -/
theorem wrap_small (n : Nat) (h : n < 2147483648) (t : BitVec 32) :
    Scalar.select (IntOp.cmpi .slt (BitVec.ofNat 32 n) 0#32) t (BitVec.ofNat 32 n) = BitVec.ofNat 32 n := by
  rw [slt_zero_small n h, select_zero]

/-- Adding the word of 4096 to the word of a number gives the word of the sum. -/
theorem addi_4096 (n : Nat) : IntOp.addi (BitVec.ofNat 32 n) 4096#32 = BitVec.ofNat 32 (n + 4096) := by
  unfold IntOp.addi
  exact (BitVec.ofNat_add n 4096).symm

/-! ## A fold that writes one value at the places a list names -/

open Classical in
/-- Folding "write `c` at place `g n`" over a list leaves `c` exactly at the places the list names. -/
theorem foldl_set_const {ι κ α : Type} [DecidableEq κ] (g : ι → κ) (c : α) (l : List ι) (x : κ → α) (p : κ) :
    (l.foldl (fun r n => fun i' => if i' = g n then c else r i') x) p = if ∃ n ∈ l, g n = p then c else x p := by
  induction l generalizing x with
  | nil => simp
  | cons a l ih =>
    rw [List.foldl_cons, ih]
    by_cases h1 : ∃ n ∈ l, g n = p
    · obtain ⟨n, hn, e⟩ := h1
      rw [if_pos ⟨n, hn, e⟩, if_pos ⟨n, List.mem_cons_of_mem _ hn, e⟩]
    · rw [if_neg h1]
      by_cases h2 : p = g a
      · rw [if_pos h2, if_pos ⟨a, List.mem_cons_self, h2.symm⟩]
      · rw [if_neg h2, if_neg]
        rintro ⟨n, hn, e⟩
        rcases List.mem_cons.1 hn with rfl | hn
        · exact h2 e.symm
        · exact h1 ⟨n, hn, e⟩

/-! ## The scatter at the index pairs (n, n) -/

section Scatter
variable {α : Type}

/-- Where update `m` lands when the index array holds the pair (a, b) at row `m`: at (a, b). -/
theorem resultIdx_pair (idx : IVec S8192x2 32) (m a b : Fin 8192)
    (h0 : (idx (ix2 m (0 : Fin 2))).toInt = (a.val : Int)) (h1 : (idx (ix2 m (1 : Fin 2))).toInt = (b.val : Int)) :
    scatter_S8192x8192_S8192x2_S8192_n_01_01_1.resultIdx? (ix1 m) idx = some (ix2 a b) := by
  have hsi0 : scatter_S8192x8192_S8192x2_S8192_n_01_01_1.siIdx (ix1 m)
      ⟨List.idxOf (0 : Fin 2) scatter_S8192x8192_S8192x2_S8192_n_01_01_1.scatterDimsToOperandDims,
        List.idxOf_lt_length_iff.2 (by decide)⟩ = ix2 m (0 : Fin 2) := by
    funext c; refine Fin.ext ?_
    match c with
    | ⟨0, _⟩ => rfl
    | ⟨1, _⟩ => rfl
  have hsi1 : scatter_S8192x8192_S8192x2_S8192_n_01_01_1.siIdx (ix1 m)
      ⟨List.idxOf (1 : Fin 2) scatter_S8192x8192_S8192x2_S8192_n_01_01_1.scatterDimsToOperandDims,
        List.idxOf_lt_length_iff.2 (by decide)⟩ = ix2 m (1 : Fin 2) := by
    funext c; refine Fin.ext ?_
    match c with
    | ⟨0, _⟩ => rfl
    | ⟨1, _⟩ => rfl
  have hst0 : scatter_S8192x8192_S8192x2_S8192_n_01_01_1.start (ix1 m) idx (0 : Fin 2) = (a.val : Int) := by
    unfold ScatterDims.start
    rw [dif_pos (show (0 : Fin 2) ∈ scatter_S8192x8192_S8192x2_S8192_n_01_01_1.scatterDimsToOperandDims by decide), hsi0]
    exact h0
  have hst1 : scatter_S8192x8192_S8192x2_S8192_n_01_01_1.start (ix1 m) idx (1 : Fin 2) = (b.val : Int) := by
    unfold ScatterDims.start
    rw [dif_pos (show (1 : Fin 2) ∈ scatter_S8192x8192_S8192x2_S8192_n_01_01_1.scatterDimsToOperandDims by decide), hsi1]
    exact h1
  have hk : scatter_S8192x8192_S8192x2_S8192_n_01_01_1.sKept = [] := by decide
  have hw : ∀ c, scatter_S8192x8192_S8192x2_S8192_n_01_01_1.window (ix1 m) c = 0 := fun c => by
    unfold ScatterDims.window
    rw [dif_neg (by rw [hk]; exact List.not_mem_nil)]
  have ha := a.isLt
  have hb := b.isLt
  have hall : ∀ c, 0 ≤ scatter_S8192x8192_S8192x2_S8192_n_01_01_1.start (ix1 m) idx c
        + scatter_S8192x8192_S8192x2_S8192_n_01_01_1.window (ix1 m) c
      ∧ scatter_S8192x8192_S8192x2_S8192_n_01_01_1.start (ix1 m) idx c
        + scatter_S8192x8192_S8192x2_S8192_n_01_01_1.window (ix1 m) c < S8192x8192.size c := by
    intro c
    rw [hw c]
    match c with
    | ⟨0, _⟩ =>
      show 0 ≤ scatter_S8192x8192_S8192x2_S8192_n_01_01_1.start (ix1 m) idx (0 : Fin 2) + ((0 : Nat) : Int)
        ∧ scatter_S8192x8192_S8192x2_S8192_n_01_01_1.start (ix1 m) idx (0 : Fin 2) + ((0 : Nat) : Int) < ((8192 : Nat) : Int)
      rw [hst0]; omega
    | ⟨1, _⟩ =>
      show 0 ≤ scatter_S8192x8192_S8192x2_S8192_n_01_01_1.start (ix1 m) idx (1 : Fin 2) + ((0 : Nat) : Int)
        ∧ scatter_S8192x8192_S8192x2_S8192_n_01_01_1.start (ix1 m) idx (1 : Fin 2) + ((0 : Nat) : Int) < ((8192 : Nat) : Int)
      rw [hst1]; omega
  unfold ScatterDims.resultIdx?
  rw [dif_pos hall]
  congr 1
  funext c; refine Fin.ext ?_
  match c with
  | ⟨0, _⟩ =>
    show (scatter_S8192x8192_S8192x2_S8192_n_01_01_1.start (ix1 m) idx (0 : Fin 2)
      + (scatter_S8192x8192_S8192x2_S8192_n_01_01_1.window (ix1 m) (0 : Fin 2) : Int)).toNat = a.val
    rw [hst0, hw]; omega
  | ⟨1, _⟩ =>
    show (scatter_S8192x8192_S8192x2_S8192_n_01_01_1.start (ix1 m) idx (1 : Fin 2)
      + (scatter_S8192x8192_S8192x2_S8192_n_01_01_1.window (ix1 m) (1 : Fin 2) : Int)).toNat = b.val
    rw [hst1, hw]; omega

/-- THE SCATTER READ AT (i, j): with the index array holding (n, n) at every row `n` and every update the one value `c`,
    the result is `c` on the diagonal and the operand elsewhere. -/
theorem scatter_diag (x : S8192x8192.Idx → α) (idx : IVec S8192x2 32) (upd : S8192.Idx → α) (c : α)
    (hupd : ∀ k, upd k = c)
    (h0 : ∀ n : Fin 8192, (idx (ix2 n (0 : Fin 2))).toInt = (n.val : Int))
    (h1 : ∀ n : Fin 8192, (idx (ix2 n (1 : Fin 2))).toInt = (n.val : Int))
    (i j : Fin 8192) :
    Host.scatter scatter_S8192x8192_S8192x2_S8192_n_01_01_1 (fun _ b => b) x idx upd (ix2 i j)
      = if i = j then c else x (ix2 i j) := by
  have hres : ∀ k : S8192.Idx, scatter_S8192x8192_S8192x2_S8192_n_01_01_1.resultIdx? k idx
      = some (ix2 (⟨(k 0).val, (k 0).isLt⟩ : Fin 8192) (⟨(k 0).val, (k 0).isLt⟩ : Fin 8192)) := by
    intro k
    rw [eq_ix1 k]
    exact resultIdx_pair idx _ _ _ (h0 _) (h1 _)
  unfold Host.scatter
  simp only [hres, hupd]
  refine (foldl_set_const (fun n : Fin S8192.numel =>
    ix2 (⟨((S8192.rowMajor.symm n) 0).val, ((S8192.rowMajor.symm n) 0).isLt⟩ : Fin 8192)
      (⟨((S8192.rowMajor.symm n) 0).val, ((S8192.rowMajor.symm n) 0).isLt⟩ : Fin 8192)) c _ x (ix2 i j)).trans ?_
  by_cases hij : i = j
  · subst hij
    rw [if_pos rfl, if_pos]
    refine ⟨S8192.rowMajor (ix1 i), List.mem_finRange _, ?_⟩
    rw [Equiv.symm_apply_apply]
  · rw [if_neg hij, if_neg]
    rintro ⟨n, _, e⟩
    apply hij
    have e0 := congrFun e (0 : Fin 2)
    have e1 := congrFun e (1 : Fin 2)
    exact e0.symm.trans e1

end Scatter

/-! ## The gather at an index pair -/

section Gather
variable {α : Type}

/-- THE GATHER READ AT ROW `m`: with the index array holding the pair (a, b) at row `m`, both in range, the result
    is the operand at (a, b). -/
theorem gather_pair (x : S8192x8192.Idx → α) (idx : IVec S8192x2 32) (m a b : Fin 8192)
    (h0 : (idx (ix2 m (0 : Fin 2))).toInt = (a.val : Int)) (h1 : (idx (ix2 m (1 : Fin 2))).toInt = (b.val : Int)) :
    Host.gather gather_S8192x8192_S8192x2_S8192_n_01_n_n_01_1_11 x idx (ix1 m) = x (ix2 a b) := by
  have hsi0 : gather_S8192x8192_S8192x2_S8192_n_01_n_n_01_1_11.siIdx (ix1 m)
      ⟨List.idxOf (0 : Fin 2) gather_S8192x8192_S8192x2_S8192_n_01_n_n_01_1_11.startIndexMap,
        List.idxOf_lt_length_iff.2 (by decide)⟩ = ix2 m (0 : Fin 2) := by
    funext c; refine Fin.ext ?_
    match c with
    | ⟨0, _⟩ => rfl
    | ⟨1, _⟩ => rfl
  have hsi1 : gather_S8192x8192_S8192x2_S8192_n_01_n_n_01_1_11.siIdx (ix1 m)
      ⟨List.idxOf (1 : Fin 2) gather_S8192x8192_S8192x2_S8192_n_01_n_n_01_1_11.startIndexMap,
        List.idxOf_lt_length_iff.2 (by decide)⟩ = ix2 m (1 : Fin 2) := by
    funext c; refine Fin.ext ?_
    match c with
    | ⟨0, _⟩ => rfl
    | ⟨1, _⟩ => rfl
  have ha := a.isLt
  have hb := b.isLt
  have hst0 : gather_S8192x8192_S8192x2_S8192_n_01_n_n_01_1_11.start (ix1 m) idx (0 : Fin 2) = a.val := by
    unfold GatherDims.start
    rw [dif_pos (show (0 : Fin 2) ∈ gather_S8192x8192_S8192x2_S8192_n_01_n_n_01_1_11.startIndexMap by decide), hsi0, h0]
    show min (a.val : Int).toNat (8192 - 1) = a.val
    omega
  have hst1 : gather_S8192x8192_S8192x2_S8192_n_01_n_n_01_1_11.start (ix1 m) idx (1 : Fin 2) = b.val := by
    unfold GatherDims.start
    rw [dif_pos (show (1 : Fin 2) ∈ gather_S8192x8192_S8192x2_S8192_n_01_n_n_01_1_11.startIndexMap by decide), hsi1, h1]
    show min (b.val : Int).toNat (8192 - 1) = b.val
    omega
  have hk : gather_S8192x8192_S8192x2_S8192_n_01_n_n_01_1_11.sKept = [] := by decide
  unfold Host.gather
  congr 1
  funext c; refine Fin.ext ?_
  show gather_S8192x8192_S8192x2_S8192_n_01_n_n_01_1_11.start (ix1 m) idx c
    + gather_S8192x8192_S8192x2_S8192_n_01_n_n_01_1_11.batchCoord (ix1 m) c
    + gather_S8192x8192_S8192x2_S8192_n_01_n_n_01_1_11.offCoord (ix1 m) c = _
  rw [GatherDims.batchCoord_eq_zero _ _ _ List.not_mem_nil,
    GatherDims.offCoord_eq_zero _ _ _ (by rw [hk]; exact List.not_mem_nil)]
  match c with
  | ⟨0, _⟩ => exact hst0
  | ⟨1, _⟩ => exact hst1

end Gather

/-! ## Two arrays joined, read at an index -/

section Concat
variable {α : Type}

/-- Two columns joined side by side: column 0 of the result is the first piece. -/
theorem concat_cols_0 (p q : S8192x1.Idx → α) (h : Shape.Concatenates [S8192x1, S8192x1] S8192x2 1) (n : Fin 8192) :
    concatenate S8192x2 1 [⟨S8192x1, p⟩, ⟨S8192x1, q⟩] h (ix2 n (0 : Fin 2)) = p (ix2 n (0 : Fin 1)) :=
  concatenate_pair_apply_left (1 : Fin 2) p q h (ix2 n (0 : Fin 2)) rfl (ix2 n (0 : Fin 1))
    (fun b => by match b with | ⟨0, _⟩ => rfl | ⟨1, _⟩ => rfl)

/-- Two columns joined side by side: column 1 of the result is the second piece. -/
theorem concat_cols_1 (p q : S8192x1.Idx → α) (h : Shape.Concatenates [S8192x1, S8192x1] S8192x2 1) (n : Fin 8192) :
    concatenate S8192x2 1 [⟨S8192x1, p⟩, ⟨S8192x1, q⟩] h (ix2 n (1 : Fin 2)) = q (ix2 n (0 : Fin 1)) :=
  concatenate_pair_apply_right (1 : Fin 2) p q h (ix2 n (1 : Fin 2)) rfl rfl (ix2 n (0 : Fin 1))
    (fun b hb => by
      match b with
      | ⟨0, _⟩ => rfl
      | ⟨1, _⟩ => exact absurd rfl hb)
    rfl

/-- Two halves joined end to end: the first 4096 places are the first piece. -/
theorem concat_rows_lo (p q : S4096.Idx → α) (h : Shape.Concatenates [S4096, S4096] S8192 0) (n : Fin 8192)
    (hn : n.val < 4096) :
    concatenate S8192 0 [⟨S4096, p⟩, ⟨S4096, q⟩] h (ix1 n) = p (ix1 (⟨n.val, hn⟩ : Fin 4096)) :=
  concatenate_pair_apply_left (0 : Fin 1) p q h (ix1 n) rfl (ix1 (⟨n.val, hn⟩ : Fin 4096))
    (fun b => by match b with | ⟨0, _⟩ => rfl)

/-- Two halves joined end to end: the last 4096 places are the second piece, 4096 places back. -/
theorem concat_rows_hi (p q : S4096.Idx → α) (h : Shape.Concatenates [S4096, S4096] S8192 0) (n : Fin 8192)
    (hn : 4096 ≤ n.val) :
    concatenate S8192 0 [⟨S4096, p⟩, ⟨S4096, q⟩] h (ix1 n) = q (ix1 (⟨n.val - 4096, by omega⟩ : Fin 4096)) :=
  concatenate_pair_apply_right (0 : Fin 1) p q h (ix1 n) rfl rfl (ix1 (⟨n.val - 4096, by omega⟩ : Fin 4096))
    (fun b hb => by match b with | ⟨0, _⟩ => exact absurd rfl hb)
    (by show n.val - 4096 + 4096 = n.val; omega)

end Concat

end Cert.NTX

end
-- ==== Proof.RefValue.lean ====
/-
  The reference program's value, read one operation at a time.

  The reference joins the two inputs, divides each row by the larger of its norm and 1e-8 (the array `Zof`), takes the
  product of that array with its transpose and divides by the temperature 1/2, overwrites the diagonal with the fill
  -9e15 (a scatter at the index pairs (n, n)), and takes a row-wise log-softmax: each row less its shift `Mof` (the row
  maximum), less the logarithm of the row's sum of exponentials. It then reads row `i` at its positive `lab i` (a
  gather at the index pairs (n, lab n)), sums the 8192 picks, divides by 8192 and negates. This file proves that value
  equal to `rLoss (Zof x0 x1) (Mof x0 x1)`.

  The index pairs are built from counting arrays: jnp wraps a negative index by adding the extent, a select on
  "word below zero" that is the identity on the words of 0 … 8191; the labels are the counting array plus 4096 joined
  to the counting array.
-/
import proofs.«114769_j21852793602889_2_alg».proof.Proof.RefDefs
import proofs.«114769_j21852793602889_2_alg».proof.Proof.RefValue1

noncomputable section

namespace Cert.NTX

open Idealize.ShloMosaic Cert.ReferenceIdeal Cert.ReferenceIdeal.Read ValueIdx

/-! ## The words of the index arrays -/

/-- The index array of the diagonal write holds `n` in column 0 of row `n`. -/
theorem v23_col0 (n : Fin 8192) : val_main_v23 (F := Ideal) (ix2 n (0 : Fin 2)) = BitVec.ofNat 32 n.val := by
  unfold val_main_v23
  rw [concat_cols_0, val_main_v21_apply, val_main_v15_apply, val_main_v12_apply, val_main_v10_apply,
    val_main_v11_apply, val_main_c_apply]
  exact wrap_small n.val (by omega) _

/-- … and `n` in column 1 of row `n`. -/
theorem v23_col1 (n : Fin 8192) : val_main_v23 (F := Ideal) (ix2 n (1 : Fin 2)) = BitVec.ofNat 32 n.val := by
  unfold val_main_v23
  rw [concat_cols_1, val_main_v22_apply, val_main_v20_apply, val_main_v17_apply, val_main_v10_apply,
    val_main_v16_apply, val_main_c_2_apply]
  exact wrap_small n.val (by omega) _

/-- The labels: place `n` holds the row 4096 places away. -/
theorem v30_word (n : Fin 8192) : val_main_v30 (F := Ideal) (ix1 n) = BitVec.ofNat 32 (lab n).val := by
  unfold val_main_v30 lab
  by_cases hn : n.val < 4096
  · rw [concat_rows_lo _ _ _ n hn, val_main_v28_apply, val_main_v26_apply, val_main_v27_apply, val_main_c_5_apply,
      dif_pos hn]
    exact addi_4096 n.val
  · rw [concat_rows_hi _ _ _ n (by omega), val_main_v29_apply, dif_neg hn]

/-- The index array of the read holds `n` in column 0 of row `n`. -/
theorem v44_col0 (n : Fin 8192) : val_main_v44 (F := Ideal) (ix2 n (0 : Fin 2)) = BitVec.ofNat 32 n.val := by
  unfold val_main_v44
  rw [concat_cols_0, val_main_v42_apply, val_main_v36_apply, val_main_v33_apply, val_main_v10_apply,
    val_main_v32_apply, val_main_c_6_apply]
  exact wrap_small n.val (by omega) _

/-- … and the label of `n` in column 1 of row `n`. -/
theorem v44_col1 (n : Fin 8192) : val_main_v44 (F := Ideal) (ix2 n (1 : Fin 2)) = BitVec.ofNat 32 (lab n).val := by
  unfold val_main_v44
  have hi : idx_main_v43 (ix2 n (0 : Fin 1)) = ix1 n := funext fun a => by match a with | ⟨0, _⟩ => rfl
  rw [concat_cols_1, val_main_v43_apply, val_main_v41_apply, val_main_v38_apply, hi, v30_word,
    val_main_v37_apply, val_main_c_8_apply]
  exact wrap_small (lab n).val (by have := (lab n).isLt; omega) _

end Cert.NTX

namespace Cert.NTX

open Idealize.ShloMosaic Cert.ReferenceIdeal Cert.ReferenceIdeal.Read ValueIdx

/-! ## The reference's stages at an index -/

/-- The inner products: the product of the normalised rows with their transpose at (i, j). -/
theorem dot_value (x0 x1 : (⟨S4096x256, .f32⟩ : BufTy).Contents (Elt Ideal)) (i j : Fin 8192) :
    val_main_v7 (F := Ideal) x0 x1 (ix2 i j) = dot (Zof x0 x1) i j := by
  rw [val_main_v7_apply]
  unfold dot Zof
  refine Finset.sum_congr rfl fun k _ => ?_
  rw [val_main_v6_apply]
  generalize val_main_v5 (F := Ideal) x0 x1 = Z
  congr 1 <;> exact congrArg Z (funext fun a => Fin.ext (by match a with | ⟨0, _⟩ => rfl | ⟨1, _⟩ => rfl))

/-- The logits: the inner products over the temperature, the diagonal overwritten by the fill. -/
theorem logit_value (x0 x1 : (⟨S4096x256, .f32⟩ : BufTy).Contents (Elt Ideal)) (i j : Fin 8192) :
    val_main_v25 (F := Ideal) x0 x1 (ix2 i j) = rLogit (Zof x0 x1) i j := by
  unfold val_main_v25 rLogit
  rw [scatter_diag (val_main_v9 (F := Ideal) x0 x1) (val_main_v23 (F := Ideal)) (val_main_v24 (F := Ideal)) NEG
    (fun k => by rw [val_main_v24_apply, val_main_cst_4_apply]; rfl)
    (fun n => by rw [v23_col0]; exact toInt_ofNat_small n.val (by omega))
    (fun n => by rw [v23_col1]; exact toInt_ofNat_small n.val (by omega)) i j]
  by_cases hij : i = j
  · rw [if_pos hij, if_pos hij]
  · rw [if_neg hij, if_neg hij, val_main_v9_apply, val_main_v8_apply, val_main_cst_0_apply, dot_value]
    rfl

/-- The shift of row `i`, broadcast along the row. -/
theorem shift_value (x0 x1 : (⟨S4096x256, .f32⟩ : BufTy).Contents (Elt Ideal)) (i j : Fin 8192) :
    val_main_call1_v4 (F := Ideal) x0 x1 (ix2 i j) = Mof x0 x1 i := by
  rw [val_main_call1_v4_apply, val_main_call1_v3_apply]
  unfold Mof
  generalize val_main_call1_v2 (F := Ideal) x0 x1 = M
  exact congrArg M (funext fun a => Fin.ext (by match a with | ⟨0, _⟩ => rfl))

/-- The log-probabilities: the shifted logit less the logarithm of the row's sum of exponentials. -/
theorem logp_value (x0 x1 : (⟨S4096x256, .f32⟩ : BufTy).Contents (Elt Ideal)) (i j : Fin 8192) :
    val_main_v31 (F := Ideal) x0 x1 (ix2 i j)
      = (rLogit (Zof x0 x1) i j - Mof x0 x1 i)
        - Ideal.log (0 + ∑ k : Fin 8192, Ideal.exp (rLogit (Zof x0 x1) i k - Mof x0 x1 i)) := by
  rw [val_main_v31_apply, val_main_call1_v5_apply, val_main_call1_v10_apply, val_main_call1_v9_apply,
    val_main_call1_v8_apply, val_main_call1_v7_apply, val_main_call1_cst_1_apply, logit_value, shift_value]
  have hs : ∀ k : Fin 8192, val_main_call1_v6 (F := Ideal) x0 x1
      (idx_main_call1_v7 (idx_main_call1_v8 (idx_main_call1_v10 (ix2 i j))) k)
        = Ideal.exp (rLogit (Zof x0 x1) i k - Mof x0 x1 i) := by
    intro k
    have hi : idx_main_call1_v7 (idx_main_call1_v8 (idx_main_call1_v10 (ix2 i j))) k = ix2 i k :=
      funext fun a => Fin.ext (by match a with | ⟨0, _⟩ => rfl | ⟨1, _⟩ => rfl)
    rw [hi, val_main_call1_v6_apply, val_main_call1_v5_apply, logit_value, shift_value]
    rfl
  simp only [hs]
  rw [Ideal.ofBits_def, Ideal.ofBits_zero_f32]
  rfl

/-- The picked log-probability of row `i`: the one at its positive. -/
theorem pick_value (x0 x1 : (⟨S4096x256, .f32⟩ : BufTy).Contents (Elt Ideal)) (i : Fin 8192) :
    val_main_v45 (F := Ideal) x0 x1 (ix1 i) = rRow (Zof x0 x1) (Mof x0 x1) i := by
  unfold val_main_v45 rRow
  rw [gather_pair (val_main_v31 (F := Ideal) x0 x1) (val_main_v44 (F := Ideal)) i i (lab i)
    (by rw [v44_col0]; exact toInt_ofNat_small i.val (by omega))
    (by rw [v44_col1]; exact toInt_ofNat_small (lab i).val (by have := (lab i).isLt; omega))]
  exact logp_value x0 x1 i (lab i)

/-- THE REFERENCE'S VALUE: minus the mean over the rows of the log-probability of the positive. -/
theorem ref_value (x0 x1 : (⟨S4096x256, .f32⟩ : BufTy).Contents (Elt Ideal)) (j : S_.Idx) :
    Cert.ReferenceIdeal.Read.val_main_v48 (F := Ideal) x0 x1 j = rLoss (Zof x0 x1) (Mof x0 x1) := by
  rw [val_main_v48_apply, val_main_v47_apply, val_main_v46_apply, val_main_cst_10_apply, val_main_cst_11_apply]
  have hsum : ∑ k : S8192.Idx, val_main_v45 (F := Ideal) x0 x1 k
      = ∑ i : Fin 8192, rRow (Zof x0 x1) (Mof x0 x1) i := by
    refine Fintype.sum_equiv
      { toFun := fun k : S8192.Idx => (⟨(k 0).val, (k 0).isLt⟩ : Fin 8192)
        invFun := fun i => ix1 i
        left_inv := fun k => by funext a; match a with | ⟨0, _⟩ => rfl
        right_inv := fun _ => rfl } _ _ fun k => ?_
    have hk : k = ix1 (⟨(k 0).val, (k 0).isLt⟩ : Fin 8192) := by funext a; match a with | ⟨0, _⟩ => rfl
    exact (congrArg (val_main_v45 (F := Ideal) x0 x1) hk).trans (pick_value x0 x1 _)
  rw [hsum, Ideal.ofBits_def, Ideal.ofBits_zero_f32]
  rfl

end Cert.NTX

end
-- ==== Proof.RefReal.lean ====
/-
  The reference's row shifts are real numbers when the normalised rows are.

  From the normalised rows the reference takes their inner products (finite sums of products), divides by the
  temperature 1/2, scatters the finite fill onto the diagonal, and reduces each row by the maximum from −∞; the shift
  is the larger of −∞ and that maximum. Every step keeps real entries real: a scatter only moves entries, and the
  maximum of 8192 real numbers folded from −∞ is one of them.
-/
import proofs.«114769_j21852793602889_2_alg».proof.Proof.RefDefs
import proofs.«114769_j21852793602889_2_alg».proof.Proof.Algebra
import Idealize.ShloMosaic.Lib.ValueIdx
import Idealize.ShloMosaic.PureOps.Ideal.Laws
import Idealize.ShloMosaic.PureOps.Reduce

noncomputable section

namespace Cert.NTX

open Idealize.ShloMosaic Cert.ReferenceIdeal Cert.ReferenceIdeal.Gen Cert.ReferenceIdeal.Read ValueIdx

namespace RR

/-! ## Extended reals that are real numbers -/

/-- A real number. -/
def IsR (x : EReal) : Prop := ∃ r : ℝ, x = (r : EReal)

theorem IsR.zero : IsR 0 := ⟨0, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The larger of two real numbers is a real number. -/
theorem IsR.max {x y : EReal} (hx : IsR x) (hy : IsR y) : IsR (max x y) := by
  rcases le_total x y with h | h
  · rw [max_eq_right h]; exact hy
  · rw [max_eq_left h]; exact hx

/-- A real number divided by a real number other than zero is a real number. -/
theorem IsR.div {x y : EReal} (hx : IsR x) {b : ℝ} (hb : b ≠ 0) (hy : y = (b : EReal)) : IsR (Ideal.div x y) := by
  obtain ⟨a, rfl⟩ := hx
  rw [hy, Ideal.div_coe hb, ← EReal.coe_mul]
  exact ⟨_, rfl⟩

/-- 0xFF800000 as a binary32 number is −∞. -/
theorem negInf_eq : Ideal.ofBits .f32 0xFF800000#32 = (⊥ : EReal) := by
  simp [Ideal.ofBits, Ideal.ieee]

/-! ## Folding the maximum from −∞ over real numbers -/

/-- The maximum of finitely many real numbers, folded from −∞, is −∞ over the empty family and a real number
    otherwise: adding one real number to the family gives the larger of it and −∞, or of it and a real number. -/
theorem fold_max_bot_or_real {ι : Type*} (s : Finset ι) (f : ι → EReal) (hf : ∀ i ∈ s, IsR (f i)) :
    (s = ∅ ∧ s.fold max ⊥ f = ⊥) ∨ IsR (s.fold max ⊥ f) := by
  classical
  induction s using Finset.induction_on with
  | empty => exact Or.inl ⟨rfl, Finset.fold_empty⟩
  | insert a s ha ih =>
    refine Or.inr ?_
    rw [Finset.fold_insert ha]
    have h1 := hf a (Finset.mem_insert_self a s)
    rcases ih (fun i hi => hf i (Finset.mem_insert_of_mem hi)) with ⟨_, h⟩ | h
    · rw [h, max_eq_left bot_le]; exact h1
    · exact h1.max h

/-- Over a family that is not empty the folded maximum is a real number. -/
theorem fold_max_univ_real {n : ℕ} (hn : 0 < n) (f : Fin n → EReal) (hf : ∀ k, IsR (f k)) :
    IsR ((Finset.univ : Finset (Fin n)).fold max ⊥ f) := by
  rcases fold_max_bot_or_real Finset.univ f (fun k _ => hf k) with ⟨h, _⟩ | h
  · exact absurd h (Finset.univ_nonempty_iff.2 ⟨⟨0, hn⟩⟩).ne_empty
  · exact h

/-- A maximum-reduce from −∞ along one axis of positive extent, of an array of real numbers, has real entries:
    each entry is the maximum folded over that axis's coordinates. -/
theorem reduce_max_real {s t u : Shape} {a : Fin s.rank} (x : s.Idx → EReal) (init : u.Idx → EReal)
    (h' : s.ReducesTo [a] t) (h : s.Reduces [a] t) (hu : 0 < u.numel) (hn : 0 < s.size a)
    (hinit : init (Shape.Idx.first hu) = ⊥) (hx : ∀ i, IsR (x i)) (j : t.Idx) :
    IsR (Host.reduce (FloatOps.maximumf (F := Ideal) (φ := .f32)) x init h' hu j) := by
  rw [Host.reduce_eq_fold_single (FloatOps.maximumf (F := Ideal) (φ := .f32)) x init h' h hu j, hinit]
  exact fold_max_univ_real hn _ fun k => hx _

/-! ## A scatter moves entries without changing them -/

/-- A scatter whose body returns the update: every entry of the result is an entry of the operand or of the
    updates. Each step of the fold over the updates replaces at most one entry of the running array by an update. -/
theorem scatter_set_pred {α : Type} {s si u : Shape} {w : Nat} (d : ScatterDims s si u) (x : s.Idx → α) (idx : IVec si w)
    (upd : u.Idx → α) (P : α → Prop) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    generalize d.resultIdx? (u.rowMajor.symm n) idx = q
    cases q with
    | none => exact hx i'
    | some i0 =>
      show P (if i' = i0 then upd (u.rowMajor.symm n) else x i')
      split_ifs
      · exact hu _
      · exact hx _

/-! ## The reference's arrays from the normalised rows to the row shifts, one operation at a time -/

section Stages

variable (x0 x1 : (⟨S4096x256, .f32⟩ : BufTy).Contents (Elt Ideal))
variable (hZ : ∀ (i : Fin 8192) (d : Fin 256), ∃ r : ℝ, Zof x0 x1 i d = (r : EReal))

include hZ in
/-- The normalised rows, at any index. -/
theorem v5_real (j : S8192x256.Idx) : IsR (val_main_v5 (F := Ideal) x0 x1 j) := by
  rw [eq_ix2 j]
  exact hZ (j 0) (j 1)

include hZ in
/-- Their transpose. -/
theorem v6_real (j : S256x8192.Idx) : IsR (val_main_v6 (F := Ideal) x0 x1 j) := by
  rw [val_main_v6_apply]
  exact v5_real x0 x1 hZ _

include hZ in
/-- The inner products of the normalised rows: finite sums of products of real numbers. -/
theorem v7_real (j : S8192x8192.Idx) : IsR (val_main_v7 (F := Ideal) x0 x1 j) := by
  rw [val_main_v7_apply]
  exact IsR.sum _ _ fun k _ => (v5_real x0 x1 hZ _).mul (v6_real x0 x1 hZ _)

/-- The temperature: 1/2. -/
theorem v8_half (j : S8192x8192.Idx) : val_main_v8 (F := Ideal) j = (((1 : ℝ) / 2 : ℝ) : EReal) := by
  rw [val_main_v8_apply, val_main_cst_0_apply]
  exact HALF_eq

include hZ in
/-- The logits before the diagonal is filled: a real number divided by 1/2. -/
theorem v9_real (j : S8192x8192.Idx) : IsR (val_main_v9 (F := Ideal) x0 x1 j) := by
  rw [val_main_v9_apply]
  exact (v7_real x0 x1 hZ j).div (by norm_num : ((1 : ℝ) / 2) ≠ 0) (v8_half j)

/-- The fill: a real number. -/
theorem v24_real (j : S8192.Idx) : IsR (val_main_v24 (F := Ideal) j) := by
  rw [val_main_v24_apply, val_main_cst_4_apply]
  exact NEG_real

include hZ in
/-- The logits with the fill scattered in: every entry is the fill or a logit, a real number either way. -/
theorem v25_real (j : S8192x8192.Idx) : IsR (val_main_v25 (F := Ideal) x0 x1 j) := by
  unfold val_main_v25
  exact scatter_set_pred _ _ _ _ IsR (v9_real x0 x1 hZ) v24_real j

include hZ in
/-- Each row's maximum, folded from −∞ over 8192 real entries: a real number. -/
theorem call1_v0_real (j : S8192.Idx) : IsR (val_main_call1_v0 (F := Ideal) x0 x1 j) := by
  have hy := v25_real x0 x1 hZ
  unfold val_main_call1_v0
  generalize val_main_v25 (F := Ideal) x0 x1 = y at hy ⊢
  exact reduce_max_real y _ _ (by decide) _ (by decide) negInf_eq hy j

/-- The other operand of the last maximum: −∞. -/
theorem call1_v1_bot (j : S8192.Idx) : val_main_call1_v1 (F := Ideal) j = (⊥ : EReal) := by
  rw [val_main_call1_v1_apply, val_main_call1_cst_0_apply]
  exact negInf_eq

include hZ in
/-- The larger of −∞ and the row's maximum: the row's maximum, a real number. -/
theorem call1_v2_real (j : S8192.Idx) : IsR (val_main_call1_v2 (F := Ideal) x0 x1 j) := by
  rw [val_main_call1_v2_apply, call1_v1_bot, Ideal.maximumf_def, max_eq_right bot_le]
  exact call1_v0_real x0 x1 hZ j

end Stages

end RR

/-- The row shifts are real numbers when the normalised rows are. -/
theorem Mof_real (x0 x1 : (⟨S4096x256, .f32⟩ : BufTy).Contents (Elt Ideal))
    (hZ : ∀ (i : Fin 8192) (d : Fin 256), ∃ r : ℝ, Zof x0 x1 i d = (r : EReal)) :
    ∀ i : Fin 8192, ∃ r : ℝ, Mof x0 x1 i = (r : EReal) :=
  fun i => RR.call1_v2_real x0 x1 hZ (ix1 i)

end Cert.NTX

end
-- ==== Proof.Finite.lean ====
/-
  The precondition read as finiteness.

  The printed predicate is `all (|x0| < +inf) and all (|x1| < +inf)`: each `all` a reduction by `and` over every index from
  the word 1, the two joined by `and`. If the result is the word 1, both reductions are 1, so every element comparison is 1,
  that is `max x (-x) < ⊤` at every element. On the extended reals this excludes both `⊤` (where `max x (-x) = ⊤`) and
  `⊥` (where `-x = ⊤`), so every element is a real number.
-/
import proofs.«114769_j21852793602889_2_alg».proof.Pre_finite_inputs
import proofs.«114769_j21852793602889_2_alg».proof.Proof.Gen.Pre_finite_inputs
import Idealize.ShloMosaic.Lib.ReduceAll
import Idealize.ShloMosaic.Lib.ValueIdx
import Idealize.ShloMosaic.PureOps.Ideal.Laws

noncomputable section

namespace Cert.NTX

open Idealize.ShloMosaic Idealize.ShloMosaic.ValueIdx

/-- The binary32 pattern of +inf denotes `⊤`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The result index of a reduction over every axis is unique. -/
local instance subsingleton_scalarIdx : Subsingleton Cert.Pre_finite_inputs.S_.Idx := ⟨fun a b => funext fun d => d.elim0⟩

/-- One `all (|x| < +inf)` that is 1 says every element of `x` is real. -/
theorem real_of_all (x : FVec Ideal Cert.Pre_finite_inputs.S4096x256 .f32)
    (hb : Cert.Pre_finite_inputs.S_.BroadcastsInDim Cert.Pre_finite_inputs.S4096x256 (![] : Fin 0 → Fin Cert.Pre_finite_inputs.S4096x256.rank))
    (hr : Cert.Pre_finite_inputs.S4096x256.ReducesTo [0, 1] Cert.Pre_finite_inputs.S_)
    (hu : 0 < Cert.Pre_finite_inputs.S_.numel)
    (e : Host.reduce IntOp.andi
        (cmpf .olt (Host.absf x) (broadcastInDim Cert.Pre_finite_inputs.S4096x256 ![] hb
          (constant (F := Ideal) Cert.Pre_finite_inputs.S_ .f32 0x7F800000#32)))
        (constantI Cert.Pre_finite_inputs.S_ 1 1#1) hr hu ix0 = 1#1) :
    ∀ j, ∃ r : ℝ, x j = (r : EReal) := by
  intro j
  have hj := Host.reduce_andi_all _ _ hr hu ix0 e j
  apply real_of_abs_lt_top
  have hc : (broadcastInDim Cert.Pre_finite_inputs.S4096x256 ![] hb
      (constant (F := Ideal) Cert.Pre_finite_inputs.S_ .f32 0x7F800000#32)) j = (⊤ : EReal) := by
    unfold broadcastInDim
    rw [constant_apply, ofBits_inf]
  have hlt : Ideal.cmp .olt (max (x j) (-(x j))) ⊤ = 1#1 := by
    rw [← hc]; exact hj
  by_contra hn
  have h0 : Ideal.cmp .olt (max (x j) (-(x j))) ⊤ = 0#1 := by
    show BitVec.ofBool (decide (max (x j) (-(x j)) < ⊤)) = 0#1
    rw [decide_eq_false hn]; rfl
  rw [h0] at hlt
  exact absurd hlt (by decide)

/-- The precondition says every element of both inputs is a real number. -/
theorem finite_of_pre (x0 x1 : FVec Ideal Cert.Pre_finite_inputs.S4096x256 .f32)
    (h : Cert.Pre_finite_inputs.fn (F := Ideal) x0 x1 = fun _ => 1#1) :
    (∀ j, ∃ r : ℝ, x0 j = (r : EReal)) ∧ (∀ j, ∃ r : ℝ, x1 j = (r : EReal)) := by
  have h0 := congrFun h ix0
  dsimp only [Cert.Pre_finite_inputs.fn] at h0
  obtain ⟨ha, hb⟩ := IntOp.andi_eq_one.1 h0
  exact ⟨real_of_all x0 _ _ _ ha, real_of_all x1 _ _ _ hb⟩

end Cert.NTX

end
-- ==== Proof.lean ====
/-
  The claim: the kernel (as printed and as idealised) and the reference run to the end without a fault and leave their
  inputs unchanged; nothing was rewritten between the kernel and its idealisation; and at the ideal instance, from
  memories agreeing on the inputs, the idealised kernel and the idealised reference end with the same loss.

  Both programs normalise the 8192 rows of the joined inputs in the same way. The kernel then reads the logits in eight
  column blocks, with the static shift 2 in the exponent; the reference shifts each row by its maximum. With finite
  inputs every logit is a real number, and `log (∑ exp (a_j - c)) + c` does not depend on the real shift `c`.
-/
import proofs.«114769_j21852793602889_2_alg».proof.Defs
import proofs.«114769_j21852793602889_2_alg».proof.Proof.Gen.Kernel
import proofs.«114769_j21852793602889_2_alg».proof.Proof.Gen.KernelIdeal
import proofs.«114769_j21852793602889_2_alg».proof.Proof.Gen.ReferenceIdeal
import proofs.«114769_j21852793602889_2_alg».proof.Proof.Gen.Pre_finite_inputs
import proofs.«114769_j21852793602889_2_alg».proof.Proof.BFrameB
import proofs.«114769_j21852793602889_2_alg».proof.Proof.KFrameB
import proofs.«114769_j21852793602889_2_alg».proof.Proof.KTail
import proofs.«114769_j21852793602889_2_alg».proof.Proof.Bridge
import proofs.«114769_j21852793602889_2_alg».proof.Proof.RefRunT
import proofs.«114769_j21852793602889_2_alg».proof.Proof.RefValue
import proofs.«114769_j21852793602889_2_alg».proof.Proof.RefReal
import proofs.«114769_j21852793602889_2_alg».proof.Proof.Algebra
import proofs.«114769_j21852793602889_2_alg».proof.Proof.Finite
import Idealize.ShloMosaic.Adequacy
import Idealize.ShloMosaic.Init

noncomputable section

namespace Cert.Proof

open Idealize.ShloMosaic Idealize.ShloMosaic.TcCoe Idealize.SL.Sem

/-- The printed kernel runs and keeps its inputs. -/
theorem frame_k : Cert.frame_Kernel := fun m ρ _ => Cert.Kernel.HF.frame m ρ

/-- The idealised kernel runs and keeps its inputs. -/
theorem frame_ki : Cert.frame_KernelIdeal := fun m ρ _ => Cert.KernelIdeal.HF.frame m ρ

/-- The idealised reference runs and keeps its inputs: its run, the result dropped. -/
theorem frame_ri : Cert.frame_ReferenceIdeal := fun m ρ _ =>
  (θ_run Cert.ReferenceIdeal.defs _ _).mono (fun _ h c => (h c).2) (Cert.ReferenceIdeal.RunS.run_val (F := Ideal) m ρ)

/-- From memories agreeing on the two inputs, both idealised programs end at the specification's loss of the normalised
    rows: the kernel by its launch's result and the mean after it, the reference by its operations read one by one, the
    two arrangements equal because the inputs, hence every logit, are real. -/
theorem algebraic : Cert.algebraic_KernelIdeal_ReferenceIdeal := by
  intro m ρ m' ρ' hpre hagree
  refine ⟨fun c => (fun _ => Cert.NTX.kLoss (Cert.NTX.Zk m c)), ?_, ?_⟩
  · exact (θ_run Cert.KernelIdeal.defs _ _).mono
      (fun r h c => ⟨(h c).1.trans (Cert.NTX.kernel_value m c), (h c).2⟩) (Cert.KernelIdeal.HF.run_main m ρ)
  · refine (θ_run Cert.ReferenceIdeal.defs _ _).mono (fun r h c => ⟨(h c).1.trans ?_, (h c).2⟩)
      (Cert.ReferenceIdeal.RunS.run_val (F := Ideal) m' ρ')
    obtain ⟨h0, h1⟩ := Cert.NTX.finite_of_pre _ _ (hpre c)
    rw [(hagree c).1, (hagree c).2]
    funext j
    rw [Cert.NTX.ref_value]
    show _ = Cert.NTX.kLoss (Cert.NTX.Zk m c)
    rw [Cert.NTX.Zk_eq_Zof,
      Cert.NTX.kLoss_eq_rLoss _ (Cert.NTX.Mof _ _) (Cert.NTX.Zof_real _ _ h0 h1) (Cert.NTX.Mof_real _ _ (Cert.NTX.Zof_real _ _ h0 h1))]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
